-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v3_1)) (v5 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v3_1) = v4 c
          ∧ r.2.mem ((c.tc : Thread Cert.KernelIdeal.nD Cert.KernelIdeal.τ).loc Cert.KernelIdeal.main_v3_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_v20) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S32 : Shape := ⟨1, ![32]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_
  bcast_S_S10000x32 : S_.BroadcastsInDim S10000x32 (![] : Fin 0 → Fin S10000x32.rank)
  reducesTo_S10000x32_S_d0_1 : S10000x32.ReducesTo [0, 1] S_
  bcast_S_S32 : S_.BroadcastsInDim S32 (![] : Fin 0 → Fin S32.rank)
  reducesTo_S32_S_d0 : S32.ReducesTo [0] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S32x16 .f32) (main_arg8 : FVec F S16 .f32) (main_arg9 : FVec F S32x16 .f32) (main_arg10 : FVec F S16 .f32) (main_v33 : IVec S_ 1) : IVec S_ 1 :=
  let main_v34 : FVec F S32x16 .f32 := Host.absf main_arg7
  let main_cst_12 : FVec F S_ .f32 := constant S_ .f32 0x7F800000#32
  let main_v35 : FVec F S32x16 .f32 := broadcastInDim S32x16 ![] bcast_S_S32x16 main_cst_12
  let main_v36 : IVec S32x16 1 := cmpf .olt main_v34 main_v35
  let main_c_13 : IVec S_ 1 := constantI S_ 1 1#1
  let main_v37 : IVec S_ 1 := (fun x v => Host.reduce IntOp.andi x v reducesTo_S32x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S32x16 .f32 := Host.absf main_arg9
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S32x16 .f32) (main_arg5 : FVec F S10000x32 .f32) (main_arg6 : FVec F S32 .f32) (main_arg7 : FVec F S32x16 .f32) (main_arg8 : FVec F S16 .f32) (main_arg9 : FVec F S32x16 .f32) (main_arg10 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S10000x32 .f32 := Host.absf main_arg5
  let main_cst_8 : FVec F S_ .f32 := constant S_ .f32 0x7F800000#32
  let main_v25 : FVec F S10000x32 .f32 := broadcastInDim S10000x32 ![] bcast_S_S10000x32 main_cst_8
  let main_v26 : IVec S10000x32 1 := cmpf .olt main_v24 main_v25
  let main_c_9 : IVec S_ 1 := constantI S_ 1 1#1
  let main_v27 : IVec S_ 1 := (fun x v => Host.reduce IntOp.andi x v reducesTo_S10000x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S10000x128 .f32) (main_arg1 : FVec F S10000x10000 .f32) (main_arg2 : FVec F S128x32 .f32) (main_arg3 : FVec F S32x16 .f32) (main_arg4 : FVec F S32x16 .f32) (main_arg5 : FVec F S10000x32 .f32) (main_arg6 : FVec F S32 .f32) (main_arg7 : FVec F S32x16 .f32) (main_arg8 : FVec F S16 .f32) (main_arg9 : FVec F S32x16 .f32) (main_arg10 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_arg6 main_arg7 main_arg8 main_arg9 main_arg10 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S32 : Shape := ⟨1, ![32]⟩
abbrev S16 : Shape := ⟨1, ![16]⟩
abbrev S1x32 : Shape := ⟨2, ![1, 32]⟩
abbrev S1x16 : Shape := ⟨2, ![1, 16]⟩
abbrev S128x16 : Shape := ⟨2, ![128, 16]⟩
abbrev S32x32 : Shape := ⟨2, ![32, 32]⟩
abbrev S400x10000 : Shape := ⟨2, ![400, 10000]⟩
abbrev S400x32 : Shape := ⟨2, ![400, 32]⟩
abbrev S10000x16 : Shape := ⟨2, ![10000, 16]⟩
abbrev S400x16 : Shape := ⟨2, ![400, 16]⟩
abbrev S400x128 : Shape := ⟨2, ![400, 128]⟩

abbrev nBuf : Space → Nat
  | .hbm => 24
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S10000x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S32x16, .f32⟩
  | .hbm, ⟨10, _⟩ => ⟨S16, .f32⟩
  | .hbm, ⟨11, _⟩ => ⟨S1x32, .f32⟩
  | .hbm, ⟨12, _⟩ => ⟨S1x16, .f32⟩
  | .hbm, ⟨13, _⟩ => ⟨S1x16, .f32⟩
  | .hbm, ⟨14, _⟩ => ⟨S10000x32, .f32⟩
  | .hbm, ⟨15, _⟩ => ⟨S128x16, .f32⟩
  | .hbm, ⟨16, _⟩ => ⟨S128x16, .f32⟩
  | .hbm, ⟨17, _⟩ => ⟨S32x32, .f32⟩
  | .hbm, ⟨18, _⟩ => ⟨S10000x32, .f32⟩
  | .hbm, ⟨19, _⟩ => ⟨S10000x32, .f32⟩
  | .hbm, ⟨20, _⟩ => ⟨S10000x16, .f32⟩
  | .hbm, ⟨21, _⟩ => ⟨S10000x16, .f32⟩
  | .hbm, ⟨22, _⟩ => ⟨S10000x10000, .f32⟩
  | .hbm, ⟨23, _⟩ => ⟨S10000x128, .f32⟩
  | .local _ .vmem, ⟨0, _⟩ => ⟨S10000x128, .f32⟩
  | .local _ .vmem, ⟨1, _⟩ => ⟨S128x32, .f32⟩
  | .local _ .vmem, ⟨2, _⟩ => ⟨S10000x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S32x16, .f32⟩
  | .local _ .vmem, ⟨7, _⟩ => ⟨S1x16, .f32⟩
  | .local _ .vmem, ⟨8, _⟩ => ⟨S10000x32, .f32⟩
  | .local _ .vmem, ⟨9, _⟩ => ⟨S128x16, .f32⟩
  | .local _ .vmem, ⟨10, _⟩ => ⟨S128x16, .f32⟩
  | .local _ .vmem, ⟨11, _⟩ => ⟨S400x10000, .f32⟩
  | .local _ .vmem, ⟨12, _⟩ => ⟨S400x10000, .f32⟩
  | .local _ .vmem, ⟨13, _⟩ => ⟨S10000x32, .f32⟩
  | .local _ .vmem, ⟨14, _⟩ => ⟨S32x32, .f32⟩
  | .local _ .vmem, ⟨15, _⟩ => ⟨S400x32, .f32⟩
  | .local _ .vmem, ⟨16, _⟩ => ⟨S400x32, .f32⟩
  | .local _ .vmem, ⟨17, _⟩ => ⟨S400x10000, .f32⟩
  | .local _ .vmem, ⟨18, _⟩ => ⟨S400x10000, .f32⟩
  | .local _ .vmem, ⟨19, _⟩ => ⟨S10000x32, .f32⟩
  | .local _ .vmem, ⟨20, _⟩ => ⟨S400x32, .f32⟩
  | .local _ .vmem, ⟨21, _⟩ => ⟨S400x32, .f32⟩
  | .local _ .vmem, ⟨22, _⟩ => ⟨S400x16, .f32⟩
  | .local _ .vmem, ⟨23, _⟩ => ⟨S400x16, .f32⟩
  | .local _ .vmem, ⟨24, _⟩ => ⟨S10000x16, .f32⟩
  | .local _ .vmem, ⟨25, _⟩ => ⟨S128x16, .f32⟩
  | .local _ .vmem, ⟨26, _⟩ => ⟨S400x10000, .f32⟩
  | .local _ .vmem, ⟨27, _⟩ => ⟨S400x10000, .f32⟩
  | .local _ .vmem, ⟨28, _⟩ => ⟨S400x128, .f32⟩
  | .local _ .vmem, ⟨29, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S10000x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x10000 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S400x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  shapeCasts_S32_S1x32 : S32.ShapeCasts S1x32
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S128x16 : S1x16.Broadcasts S128x16
  inb_S128x16_S128x16_0_0 : ∀ a, (![0, 0] : Fin 2 → Nat) a + S128x16.size a ≤ S128x16.size a
  h_S128x16 : 0 < S128x16.numel
  concatenates_S32x16_S32x16_S32x32_d1 : Shape.Concatenates [S32x16, S32x16] S32x32 1
  inb_S400x10000_S400x10000_0_0 : ∀ a, (![0, 0] : Fin 2 → Nat) a + S400x10000.size a ≤ S400x10000.size a
  h_S400x10000 : 0 < S400x10000.numel
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S400x32_S400x32_0_0 : ∀ a, (![0, 0] : Fin 2 → Nat) a + S400x32.size a ≤ S400x32.size a
  h_S400x32 : 0 < S400x32.numel
  slices_S10000x32_S10000x16_0_0 : S10000x32.Slices ![0, 0] S10000x16
  slices_S10000x32_S10000x16_0_16 : S10000x32.Slices ![0, 16] S10000x16
  inb_S400x16_S400x16_0_0 : ∀ a, (![0, 0] : Fin 2 → Nat) a + S400x16.size a ≤ S400x16.size a
  h_S400x16 : 0 < S400x16.numel
  shapeCasts_S400x16_S400x16 : S400x16.ShapeCasts S400x16
  bitsLt_bf16_f32 : FTy.bits .bf16 < FTy.bits .f32
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  shapeCasts_S128x16_S128x16 : S128x16.ShapeCasts S128x16
  inb_S400x128_S400x128_0_0 : ∀ a, (![0, 0] : Fin 2 → Nat) a + S400x128.size a ≤ S400x128.size a
  h_S400x128 : 0 < S400x128.numel
  dot_S10000x128_S128x32_S10000x32_1_0_0_1_n_n_wf : DotDims.WF S10000x128 S128x32 S10000x32 [1] [0] [0] [1] [] []
  dot_S10000x128_S10000x32_S128x32_0_0_1_1_n_n_wf : DotDims.WF S10000x128 S10000x32 S128x32 [0] [0] [1] [1] [] []
  dot_S128x32_S32x16_S128x16_1_0_0_1_n_n_wf : DotDims.WF S128x32 S32x16 S128x16 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  dot_S400x16_S10000x16_S400x10000_1_1_0_0_n_n_wf : DotDims.WF S400x16 S10000x16 S400x10000 [1] [1] [0] [0] [] []
  dot_S400x16_S128x16_S400x128_1_1_0_0_n_n_wf : DotDims.WF S400x16 S128x16 S400x128 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .f32 = 32 ∨ (Rect.block (s := S10000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x32.size a ≤ S10000x32.size a
  hwx1_3 : ∀ i : grid1.Coords, EltTy.bits .f32 = 32 ∨ (Rect.block (s := S10000x32) S400x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S10000x32.size a
  hwx2_1 : ∀ i : grid2.Coords, EltTy.bits .f32 = 32 ∨ (Rect.block (s := S10000x32) S10000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x32.size a ≤ S10000x32.size a
  hwx2_2 : ∀ i : grid2.Coords, EltTy.bits .f32 = 32 ∨ (Rect.block (s := S10000x32) S400x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x16.size a ≤ S10000x16.size a
  hwx3_0 : ∀ i : grid3.Coords, EltTy.bits .f32 = 32 ∨ (Rect.block (s := S10000x16) S400x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .f32 = 32 ∨ (Rect.block (s := S10000x16) S10000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x16.size a ≤ S128x16.size a
  hwx3_2 : ∀ i : grid3.Coords, EltTy.bits .f32 = 32 ∨ (Rect.block (s := S128x16) S128x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x10000.size a ≤ S10000x10000.size a
  hwx3_3 : ∀ i : grid3.Coords, EltTy.bits .f32 = 32 ∨ (Rect.block (s := S10000x10000) S400x10000.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x128.size a ≤ S10000x128.size a
  hwx3_4 : ∀ i : grid3.Coords, EltTy.bits .f32 = 32 ∨ (Rect.block (s := S10000x128) S400x128.size (cc3_transform_4 i) (hinb3_4 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x128_S10000x32_S128x32_0_0_1_1_n_n : DotDims S10000x128 S10000x32 S128x32 where
  lhsContracting := [0]
  rhsContracting := [0]
  lhsNonContracting := [1]
  rhsNonContracting := [1]
  lhsBatch := []
  rhsBatch := []
  wf := dot_S10000x128_S10000x32_S128x32_0_0_1_1_n_n_wf
def dot_S128x32_S32x16_S128x16_1_0_0_1_n_n : DotDims S128x32 S32x16 S128x16 where
  lhsContracting := [1]
  rhsContracting := [0]
  lhsNonContracting := [0]
  rhsNonContracting := [1]
  lhsBatch := []
  rhsBatch := []
  wf := dot_S128x32_S32x16_S128x16_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf
def dot_S400x16_S10000x16_S400x10000_1_1_0_0_n_n : DotDims S400x16 S10000x16 S400x10000 where
  lhsContracting := [1]
  rhsContracting := [1]
  lhsNonContracting := [0]
  rhsNonContracting := [0]
  lhsBatch := []
  rhsBatch := []
  wf := dot_S400x16_S10000x16_S400x10000_1_1_0_0_n_n_wf
def dot_S400x16_S128x16_S400x128_1_1_0_0_n_n : DotDims S400x16 S128x16 S400x128 where
  lhsContracting := [1]
  rhsContracting := [1]
  lhsNonContracting := [0]
  rhsNonContracting := [0]
  lhsBatch := []
  rhsBatch := []
  wf := dot_S400x16_S128x16_S400x128_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg5) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_arg7) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_arg9) false false (stage0_6 0) (sem0_6 0) (Memref.isWhole_whole _) (hstage0_6 0)

abbrev win0_7 : Pipeline.Window sig grid0 :=
  Pipeline.Window.whole (Memref.whole main_v2) false false (stage0_7 0) (sem0_7 0) (Memref.isWhole_whole _) (hstage0_7 0)

abbrev win0_8 : Pipeline.Window sig grid0 :=
  Pipeline.Window.whole (Memref.whole main_v3_0) true false (stage0_8 0) (sem0_8 0) (Memref.isWhole_whole _) (hstage0_8 0)

abbrev win0_9 : Pipeline.Window sig grid0 :=
  Pipeline.Window.whole (Memref.whole main_v3_1) true false (stage0_9 0) (sem0_9 0) (Memref.isWhole_whole _) (hstage0_9 0)

abbrev win0_10 : Pipeline.Window sig grid0 :=
  Pipeline.Window.whole (Memref.whole main_v3_2) true false (stage0_10 0) (sem0_10 0) (Memref.isWhole_whole _) (hstage0_10 0)

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S400x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S400x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v7) S400x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3_1) S128x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9_0) S400x10000.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v9_1) S400x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S32 : Shape := ⟨1, ![32]⟩
abbrev S16 : Shape := ⟨1, ![16]⟩
abbrev S_ : Shape := ⟨0, ![]⟩
abbrev S10000x16 : Shape := ⟨2, ![10000, 16]⟩
abbrev S128x10000 : Shape := ⟨2, ![128, 10000]⟩
abbrev S1x32 : Shape := ⟨2, ![1, 32]⟩
abbrev S128x16 : Shape := ⟨2, ![128, 16]⟩
abbrev S1x16 : Shape := ⟨2, ![1, 16]⟩
abbrev S16x10000 : Shape := ⟨2, ![16, 10000]⟩
abbrev S16x128 : Shape := ⟨2, ![16, 128]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S10000x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S32x16, .f32⟩
  | .hbm, ⟨10, _⟩ => ⟨S16, .f32⟩
  | .hbm, ⟨11, _⟩ => ⟨S10000x32, .f32⟩
  | .hbm, ⟨12, _⟩ => ⟨S10000x32, .f32⟩
  | .hbm, ⟨13, _⟩ => ⟨S_, .f32⟩
  | .hbm, ⟨14, _⟩ => ⟨S10000x32, .f32⟩
  | .hbm, ⟨15, _⟩ => ⟨S10000x32, .f32⟩
  | .hbm, ⟨16, _⟩ => ⟨S10000x16, .f32⟩
  | .hbm, ⟨17, _⟩ => ⟨S10000x16, .f32⟩
  | .hbm, ⟨18, _⟩ => ⟨S10000x16, .f32⟩
  | .hbm, ⟨19, _⟩ => ⟨S10000x16, .f32⟩
  | .hbm, ⟨20, _⟩ => ⟨S128x10000, .f32⟩
  | .hbm, ⟨21, _⟩ => ⟨S128x32, .f32⟩
  | .hbm, ⟨22, _⟩ => ⟨S1x32, .f32⟩
  | .hbm, ⟨23, _⟩ => ⟨S128x32, .f32⟩
  | .hbm, ⟨24, _⟩ => ⟨S128x32, .f32⟩
  | .hbm, ⟨25, _⟩ => ⟨S128x32, .f32⟩
  | .hbm, ⟨26, _⟩ => ⟨S128x16, .f32⟩
  | .hbm, ⟨27, _⟩ => ⟨S1x16, .f32⟩
  | .hbm, ⟨28, _⟩ => ⟨S128x16, .f32⟩
  | .hbm, ⟨29, _⟩ => ⟨S128x16, .f32⟩
  | .hbm, ⟨30, _⟩ => ⟨S128x16, .f32⟩
  | .hbm, ⟨31, _⟩ => ⟨S1x16, .f32⟩
  | .hbm, ⟨32, _⟩ => ⟨S128x16, .f32⟩
  | .hbm, ⟨33, _⟩ => ⟨S128x16, .f32⟩
  | .hbm, ⟨34, _⟩ => ⟨S16x10000, .f32⟩
  | .hbm, ⟨35, _⟩ => ⟨S10000x10000, .f32⟩
  | .hbm, ⟨36, _⟩ => ⟨S16x128, .f32⟩
  | .hbm, ⟨37, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_cst : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  transposes_S10000x128_S128x10000_1_0 : S10000x128.Transposes [1, 0] S128x10000
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S16_S1x16_1 : S16.BroadcastsInDim S1x16 (![1] : Fin 1 → Fin S1x16.rank)
  bcast_S1x16_S128x16_0_1 : S1x16.BroadcastsInDim S128x16 (![0, 1] : Fin 2 → Fin S128x16.rank)
  transposes_S10000x16_S16x10000_1_0 : S10000x16.Transposes [1, 0] S16x10000
  transposes_S128x16_S16x128_1_0 : S128x16.Transposes [1, 0] S16x128
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []
  dot_S128x10000_S10000x32_S128x32_1_0_0_1_n_n_wf : DotDims.WF S128x10000 S10000x32 S128x32 [1] [0] [0] [1] [] []
  dot_S128x32_S32x16_S128x16_1_0_0_1_n_n_wf : DotDims.WF S128x32 S32x16 S128x16 [1] [0] [0] [1] [] []
  dot_S10000x16_S16x10000_S10000x10000_1_0_0_1_n_n_wf : DotDims.WF S10000x16 S16x10000 S10000x10000 [1] [0] [0] [1] [] []
  dot_S10000x16_S16x128_S10000x128_1_0_0_1_n_n_wf : DotDims.WF S10000x16 S16x128 S10000x128 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S128x10000_S10000x32_S128x32_1_0_0_1_n_n : DotDims S128x10000 S10000x32 S128x32 where
  lhsContracting := [1]
  rhsContracting := [0]
  lhsNonContracting := [0]
  rhsNonContracting := [1]
  lhsBatch := []
  rhsBatch := []
  wf := dot_S128x10000_S10000x32_S128x32_1_0_0_1_n_n_wf
def dot_S128x32_S32x16_S128x16_1_0_0_1_n_n : DotDims S128x32 S32x16 S128x16 where
  lhsContracting := [1]
  rhsContracting := [0]
  lhsNonContracting := [0]
  rhsNonContracting := [1]
  lhsBatch := []
  rhsBatch := []
  wf := dot_S128x32_S32x16_S128x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf

class Facts : Prop extends Facts₀ where

variable [Facts]
-- ==== Proof.KRegion0.lean ====
/- Region 0 (the prelude): ONE grid point. From the node features `x` [10000,128] it computes the product with the
   first graph-convolution weights [10000,32], and the attribute branch: `h = tanh(xᵀ·W + b)` [128,32] (the sum runs
   over the 10000 nodes), then the two affine images of `h`, [128,16] each. Eight input windows and three output
   windows, every one its whole array. This module states, for ANY contents `V` of the buffers when the region is
   entered, what each window's staging buffer holds before and after the body, and proves the body's obligation. -/
import proofs.«151409_g7215545057700_cont_sun_m_658_3_alg».proof.Proof.Gen.Kernel.Launch
import proofs.«151409_g7215545057700_cont_sun_m_658_3_alg».proof.Proof.Gen.Kernel.Skeleton
import proofs.«151409_g7215545057700_cont_sun_m_658_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of length 10000 is decided coordinate by coordinate along the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered
variable (V : (c : Dev nD) → (b : Ref sig .tc) → Buf (Elt F) ((c : Thread nD τ).loc b))

/-! ## The windows' blocks -/

/-- The block of window `w` at point `t`: its array at the entry contents `V`, read through the window (here the
    whole array, at the one point there is). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (the node features): what the body finds in its staging buffer is the window's block, for any proof data
    over the entry arrays whose body leaves that buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the first graph-convolution weights): what the body finds in its staging buffer is the window's block, for any proof data
    over the entry arrays whose body leaves that buffer alone. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2 (the attribute-branch first weights): what the body finds in its staging buffer is the window's block, for any proof data
    over the entry arrays whose body leaves that buffer alone. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window 3 (its bias as a row): what the body finds in its staging buffer is the window's block, for any proof data
    over the entry arrays whose body leaves that buffer alone. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Window 4 (the attribute-branch mean weights): what the body finds in its staging buffer is the window's block, for any proof data
    over the entry arrays whose body leaves that buffer alone. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Window 5 (their bias as a row): what the body finds in its staging buffer is the window's block, for any proof data
    over the entry arrays whose body leaves that buffer alone. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Window 6 (the attribute-branch log-variance weights): what the body finds in its staging buffer is the window's block, for any proof data
    over the entry arrays whose body leaves that buffer alone. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Window 7 (their bias as a row): what the body finds in its staging buffer is the window's block, for any proof data
    over the entry arrays whose body leaves that buffer alone. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole; `r0_W` is window `W`'s buffer as one rectangle -/

abbrev r0_0 : Rect S10000x128 := Rect.unit (s := S10000x128) ![0, 0] S10000x128.size inb_S10000x128_S10000x128_0_0
abbrev r0_1 : Rect S128x32 := Rect.unit (s := S128x32) ![0, 0] S128x32.size inb_S128x32_S128x32_0_0
abbrev r0_2 : Rect S10000x32 := Rect.unit (s := S10000x32) ![0, 0] S10000x32.size inb_S10000x32_S10000x32_0_0
abbrev r0_3 : Rect S1x32 := Rect.unit (s := S1x32) ![0, 0] S1x32.size inb_S1x32_S1x32_0_0
abbrev r0_4 : Rect S32x16 := Rect.unit (s := S32x16) ![0, 0] S32x16.size inb_S32x16_S32x16_0_0
abbrev r0_5 : Rect S1x16 := Rect.unit (s := S1x16) ![0, 0] S1x16.size inb_S1x16_S1x16_0_0
abbrev r0_6 : Rect S32x16 := Rect.unit (s := S32x16) ![0, 0] S32x16.size inb_S32x16_S32x16_0_0
abbrev r0_7 : Rect S1x16 := Rect.unit (s := S1x16) ![0, 0] S1x16.size inb_S1x16_S1x16_0_0
abbrev r0_8 : Rect S10000x32 := Rect.unit (s := S10000x32) ![0, 0] S10000x32.size inb_S10000x32_S10000x32_0_0
abbrev r0_9 : Rect S128x16 := Rect.unit (s := S128x16) ![0, 0] S128x16.size inb_S128x16_S128x16_0_0
abbrev r0_10 : Rect S128x16 := Rect.unit (s := S128x16) ![0, 0] S128x16.size inb_S128x16_S128x16_0_0

/-! ## What the body leaves in each output window's buffer -/

/-- Window 8 (features times the graph-convolution weights) after the body: its one store. -/
def out0_8 (x0 : Vec F S10000x128 .f32) (x1 : Vec F S128x32 .f32) : Vec F S10000x32 .f32 :=
  View.canon [⟨r0_8, k0_pay1 (View.ld x0 r0_0) (View.ld x1 r0_1)⟩]

/-- Window 9 (the attribute branch's mean) after the body: its one store. -/
def out0_9 (x0 : Vec F S10000x128 .f32) (x2 : Vec F S10000x32 .f32) (x3 : Vec F S1x32 .f32) (x4 : Vec F S32x16 .f32) (x5 : Vec F S1x16 .f32) :
    Vec F S128x16 .f32 :=
  View.canon [⟨r0_9, k0_pay3 (View.ld x0 r0_0) (View.ld x2 r0_2) (View.ld x3 r0_3) (View.ld x4 r0_4) (View.ld x5 r0_5)⟩]

/-- Window 10 (the attribute branch's log-variance) after the body: its one store. -/
def out0_10 (x0 : Vec F S10000x128 .f32) (x2 : Vec F S10000x32 .f32) (x3 : Vec F S1x32 .f32) (x6 : Vec F S32x16 .f32) (x7 : Vec F S1x16 .f32) :
    Vec F S128x16 .f32 :=
  View.canon [⟨r0_10, k0_pay4 (View.ld x0 r0_0) (View.ld x2 r0_2) (View.ld x3 r0_3) (View.ld x6 r0_6) (View.ld x7 r0_7)⟩]

/-- Each output's one store is of its whole buffer, so every index lies under it. -/
theorem cover0_8 (p0 : Vec F S10000x32 .f32) (y : S10000x32.Idx) :
    ∃ pc ∈ ([⟨r0_8, p0⟩] : List (View.Piece (Elt F) S10000x32 .f32)), y ∈ pc.1.set :=
  View.cover_of_tiled [⟨r0_8, p0⟩] S10000x32.size (by rfl) y
theorem cover0_9 (p0 : Vec F S128x16 .f32) (y : S128x16.Idx) :
    ∃ pc ∈ ([⟨r0_9, p0⟩] : List (View.Piece (Elt F) S128x16 .f32)), y ∈ pc.1.set :=
  View.cover_of_tiled [⟨r0_9, p0⟩] S128x16.size (by rfl) y
theorem cover0_10 (p0 : Vec F S128x16 .f32) (y : S128x16.Idx) :
    ∃ pc ∈ ([⟨r0_10, p0⟩] : List (View.Piece (Elt F) S128x16 .f32)), y ∈ pc.1.set :=
  View.cover_of_tiled [⟨r0_10, p0⟩] S128x16.size (by rfl) y

/-! ## The body's triple -/

set_option maxHeartbeats 4000000 in
/-- The body on whole staging buffers — the eight inputs at contents `x0 … x7`, the three outputs at anything — ends
    with the inputs unchanged and each output at its `out0_W` of the inputs. The body reads each output buffer once
    before storing it; the values read are not used. -/
theorem sound_kernel0 (c : Dev nD) (E : Set ℕ)
    (arg0 : Memref sig .tc .vmem S10000x128 .f32) (harg0 : arg0.IsWhole)
    (arg1 : Memref sig .tc .vmem S128x32 .f32) (harg1 : arg1.IsWhole)
    (arg2 : Memref sig .tc .vmem S10000x32 .f32) (harg2 : arg2.IsWhole)
    (arg3 : Memref sig .tc .vmem S1x32 .f32) (harg3 : arg3.IsWhole)
    (arg4 : Memref sig .tc .vmem S32x16 .f32) (harg4 : arg4.IsWhole)
    (arg5 : Memref sig .tc .vmem S1x16 .f32) (harg5 : arg5.IsWhole)
    (arg6 : Memref sig .tc .vmem S32x16 .f32) (harg6 : arg6.IsWhole)
    (arg7 : Memref sig .tc .vmem S1x16 .f32) (harg7 : arg7.IsWhole)
    (arg8 : Memref sig .tc .vmem S10000x32 .f32) (harg8 : arg8.IsWhole)
    (arg9 : Memref sig .tc .vmem S128x16 .f32) (harg9 : arg9.IsWhole)
    (arg10 : Memref sig .tc .vmem S128x16 .f32) (harg10 : arg10.IsWhole)
    (x0 : Vec F S10000x128 .f32) (x1 : Vec F S128x32 .f32) (x2 : Vec F S10000x32 .f32) (x3 : Vec F S1x32 .f32) (x4 : Vec F S32x16 .f32) (x5 : Vec F S1x16 .f32) (x6 : Vec F S32x16 .f32) (x7 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out0_8 x0 x1) ∗ owns (c : Thread nD τ) arg9 fullShare (out0_9 x0 x2 x3 x4 x5)
            ∗ owns (c : Thread nD τ) arg10 fullShare (out0_10 x0 x2 x3 x6 x7)) -∗ K ⟨⟩))
      ⊢ wp frame (wpE (defs₀ (F := F)) Variants.none c none) E
          (cc0__prelude_kernel arg0 harg0 arg1 harg1 arg2 harg2 arg3 harg3 arg4 harg4 arg5 harg5 arg6 harg6 arg7 harg7 arg8 harg8 arg9 harg9 arg10 harg10) K := by
  simp only [cc0__prelude_kernel_eq_skeleton]; unfold cc0__prelude_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

/-! ## The pipeline's proof data -/

/-- The proof data of region 0 on core `c`: the arrays at the entry contents; after the body every input buffer
    still at its block and each output buffer at its `out0_W` of the input blocks; the invariant is the rest of the
    core's memory, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t)
    | ⟨9, _⟩ => out0_9 (iblk0 V c 0 t) (iblk0 V c 2 t) (iblk0 V c 3 t) (iblk0 V c 4 t) (iblk0 V c 5 t)
    | ⟨10, _⟩ => out0_10 (iblk0 V c 0 t) (iblk0 V c 2 t) (iblk0 V c 3 t) (iblk0 V c 6 t) (iblk0 V c 7 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) :
    (dat0 V c).after 8 t = out0_8 (iblk0 V c 0 t) (iblk0 V c 1 t) := by dsimp only [dat0]
theorem after0_9 (c : Dev nD) (t : Fin cfg0.N) :
    (dat0 V c).after 9 t = out0_9 (iblk0 V c 0 t) (iblk0 V c 2 t) (iblk0 V c 3 t) (iblk0 V c 4 t) (iblk0 V c 5 t) := by
  dsimp only [dat0]
theorem after0_10 (c : Dev nD) (t : Fin cfg0.N) :
    (dat0 V c).after 10 t = out0_10 (iblk0 V c 0 t) (iblk0 V c 2 t) (iblk0 V c 3 t) (iblk0 V c 6 t) (iblk0 V c 7 t) := by
  dsimp only [dat0]

/-- What the body finds in each input buffer: the window's block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

/-- What the body is given at point `t`: the invariant, the core's debts, and each window's staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at the point: the input buffers hold their blocks, so the body's triple applies; the invariant and the
    debts are carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of region 0. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1.lean ====
/- Region 1 (the first adjacency pass): one grid point multiplies a 400-row block of the adjacency matrix by the whole
   [10000,32] feature matrix, clamps at zero and multiplies by the [32,32] weight pair; 25 points cover the rows.
   This module states, for ANY contents `V` of the buffers when the region is entered, what each window's staging
   buffer holds before and after the body at a point, and proves the body's obligation at every point. -/
import proofs.«151409_g7215545057700_cont_sun_m_658_3_alg».proof.Proof.Gen.Kernel.Launch
import proofs.«151409_g7215545057700_cont_sun_m_658_3_alg».proof.Proof.Gen.Kernel.Skeleton
import proofs.«151409_g7215545057700_cont_sun_m_658_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of length 10000 is decided coordinate by coordinate along the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- The block of window `w` at point `t`: the part of its array (at the entry contents `V`) that the window's index
    map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency row block (window 0, fetched at every point) is what the body finds in its staging buffer: for any
    proof data over the entry arrays whose body leaves that buffer alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The feature matrix (window 1) is fetched at the first point only and its block index never moves: at a later
    point the buffer still holds the block, which is the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight pair (window 2): likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev r1_0 : Rect S400x10000 := Rect.unit (s := S400x10000) ![0, 0] S400x10000.size inb_S400x10000_S400x10000_0_0
abbrev r1_1 : Rect S10000x32 := Rect.unit (s := S10000x32) ![0, 0] S10000x32.size inb_S10000x32_S10000x32_0_0
abbrev r1_2 : Rect S32x32 := Rect.unit (s := S32x32) ![0, 0] S32x32.size inb_S32x32_S32x32_0_0
abbrev r1_3 : Rect S400x32 := Rect.unit (s := S400x32) ![0, 0] S400x32.size inb_S400x32_S400x32_0_0

/-! ## What the body leaves in the output window's buffer -/

/-- The output staging buffer (window 3) after the body: its one store, of the payload computed from the three input
    blocks as the body loads them. -/
def out1_3 (x0 : Vec F S400x10000 .f32) (x1 : Vec F S10000x32 .f32) (x2 : Vec F S32x32 .f32) : Vec F S400x32 .f32 :=
  View.canon [⟨r1_3, k1_pay1 (View.ld x0 r1_0) (View.ld x1 r1_1) (View.ld x2 r1_2)⟩]

/-- The one store is of the whole [400,32] buffer, so every index lies under it. -/
theorem cover1_3 (p0 : Vec F S400x32 .f32) (y : S400x32.Idx) :
    ∃ pc ∈ ([⟨r1_3, p0⟩] : List (View.Piece (Elt F) S400x32 .f32)), y ∈ pc.1.set :=
  View.cover_of_tiled [⟨r1_3, p0⟩] S400x32.size (by rfl) y

/-! ## The body's triple -/

set_option maxHeartbeats 1000000 in
/-- The body on whole staging buffers — the three inputs at contents `x0 x1 x2`, the output at anything — ends with
    the inputs unchanged and the output at `out1_3 x0 x1 x2`. The body reads the output buffer once before storing
    it; the value read is not used. -/
theorem sound_kernel1 (c : Dev nD) (E : Set ℕ) (i : grid1.Coords)
    (arg1 : Memref sig .tc .vmem S400x10000 .f32) (harg1 : arg1.IsWhole) (arg2 : Memref sig .tc .vmem S10000x32 .f32) (harg2 : arg2.IsWhole)
    (arg3 : Memref sig .tc .vmem S32x32 .f32) (harg3 : arg3.IsWhole) (arg4 : Memref sig .tc .vmem S400x32 .f32) (harg4 : arg4.IsWhole)
    (x0 : Vec F S400x10000 .f32) (x1 : Vec F S10000x32 .f32) (x2 : Vec F S32x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass1_kernel i arg1 harg1 arg2 harg2 arg3 harg3 arg4 harg4) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of region 1 on core `c`: the arrays at the entry contents; after the body at point `t` every
    input buffer still at its block and the output buffer at `out1_3` of the three input blocks; the invariant is
    the rest of the core's memory, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- What the body finds in each input buffer: the window's block, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is given at point `t`: the invariant, the core's debts, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and the
    debts are carried across unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRegion2.lean ====
/- Region 2 (the second adjacency pass): one grid point multiplies a 400-row block of the adjacency matrix by the whole
   [10000,32] matrix the first pass produced; 25 points cover the rows. This module states, for ANY contents `V` of
   the buffers when the region is entered, what each window's staging buffer holds before and after the body at a
   point, and proves the body's obligation at every point. -/
import proofs.«151409_g7215545057700_cont_sun_m_658_3_alg».proof.Proof.Gen.Kernel.Launch
import proofs.«151409_g7215545057700_cont_sun_m_658_3_alg».proof.Proof.Gen.Kernel.Skeleton
import proofs.«151409_g7215545057700_cont_sun_m_658_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of length 10000 is decided coordinate by coordinate along the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the buffer contents when the region is entered
variable (V : (c : Dev nD) → (b : Ref sig .tc) → Buf (Elt F) ((c : Thread nD τ).loc b))

/-! ## The windows' blocks -/

/-- The block of window `w` at point `t`: the part of its array (at the entry contents `V`) that the window's index
    map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency row block (window 0, fetched at every point) is what the body finds in its staging buffer: for any
    proof data over the entry arrays whose body leaves that buffer alone. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right-hand matrix (window 1) is fetched at the first point only and its block index never moves: at a later
    point the buffer still holds the block, which is the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written whole -/

abbrev r2_0 : Rect S400x10000 := Rect.unit (s := S400x10000) ![0, 0] S400x10000.size inb_S400x10000_S400x10000_0_0
abbrev r2_1 : Rect S10000x32 := Rect.unit (s := S10000x32) ![0, 0] S10000x32.size inb_S10000x32_S10000x32_0_0
abbrev r2_2 : Rect S400x32 := Rect.unit (s := S400x32) ![0, 0] S400x32.size inb_S400x32_S400x32_0_0

/-! ## What the body leaves in the output window's buffer -/

/-- The output staging buffer (window 2) after the body: its one store, of the product of the two input blocks as
    the body loads them. -/
def out2_2 (x0 : Vec F S400x10000 .f32) (x1 : Vec F S10000x32 .f32) : Vec F S400x32 .f32 :=
  View.canon [⟨r2_2, k2_pay1 (View.ld x0 r2_0) (View.ld x1 r2_1)⟩]

/-- The one store is of the whole [400,32] buffer, so every index lies under it. -/
theorem cover2_2 (p0 : Vec F S400x32 .f32) (y : S400x32.Idx) :
    ∃ pc ∈ ([⟨r2_2, p0⟩] : List (View.Piece (Elt F) S400x32 .f32)), y ∈ pc.1.set :=
  View.cover_of_tiled [⟨r2_2, p0⟩] S400x32.size (by rfl) y

/-! ## The body's triple -/

set_option maxHeartbeats 1000000 in
/-- The body on whole staging buffers — the two inputs at contents `x0 x1`, the output at anything — ends with the
    inputs unchanged and the output at `out2_2 x0 x1`. The body reads the output buffer once before storing it; the
    value read is not used. -/
theorem sound_kernel2 (c : Dev nD) (E : Set ℕ) (i : grid2.Coords)
    (arg1 : Memref sig .tc .vmem S400x10000 .f32) (harg1 : arg1.IsWhole) (arg2 : Memref sig .tc .vmem S10000x32 .f32) (harg2 : arg2.IsWhole)
    (arg3 : Memref sig .tc .vmem S400x32 .f32) (harg3 : arg3.IsWhole)
    (x0 : Vec F S400x10000 .f32) (x1 : Vec F S10000x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__pass2_kernel i arg1 harg1 arg2 harg2 arg3 harg3) K := by
  simp only [cc2__pass2_kernel_eq_skeleton]; unfold cc2__pass2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of region 2 on core `c`: the arrays at the entry contents; after the body at point `t` every
    input buffer still at its block and the output buffer at `out2_2` of the two input blocks; the invariant is the
    rest of the core's memory, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- What the body finds in each input buffer: the window's block, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is given at point `t`: the invariant, the core's debts, and each window's current staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it gives back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's triple applies; the invariant and the
    debts are carried across unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KRegion3.lean ====
/-
  The decoder region (the fourth kernel call): at grid point t it multiplies the block of 400 rows of mu
  by the whole of mu, transposed, and by the whole of mu_a, transposed. Its first two input windows read ONE
  array (mu: a row block of it, and all of it), so the array's ownership is divided between them: the first
  window holds the left half of the full share, the second the right half; nothing ever writes the array
  during the region, and at the exit the two halves make the whole again.

  Stated at a parameter V, the contents of the core's buffers when the region is entered, and for any
  float instance.
-/
import proofs.«151409_g7215545057700_cont_sun_m_658_3_alg».proof.Proof.Gen.Kernel.Launch
import proofs.«151409_g7215545057700_cont_sun_m_658_3_alg».proof.Proof.Gen.Kernel.Skeleton
import proofs.«151409_g7215545057700_cont_sun_m_658_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, whether the point fetches it or the
    block index has not moved since it was fetched. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each load and each store is of a whole staging buffer -/

abbrev r3_a : Rect S400x16 := Rect.unit (s := S400x16) ![0, 0] S400x16.size inb_S400x16_S400x16_0_0
abbrev r3_b : Rect S10000x16 := Rect.unit (s := S10000x16) ![0, 0] S10000x16.size inb_S10000x16_S10000x16_0_0
abbrev r3_c : Rect S128x16 := Rect.unit (s := S128x16) ![0, 0] S128x16.size inb_S128x16_S128x16_0_0
abbrev r3_d : Rect S400x10000 := Rect.unit (s := S400x10000) ![0, 0] S400x10000.size inb_S400x10000_S400x10000_0_0
abbrev r3_e : Rect S400x128 := Rect.unit (s := S400x128) ![0, 0] S400x128.size inb_S400x128_S400x128_0_0

/-! ## What the body leaves in the two output buffers -/

/-- The block of adj_pred: the product of the row block of mu with the whole of mu, transposed. -/
def out3_3 (x0 : Vec F S400x16 .f32) (x1 : Vec F S10000x16 .f32) : Vec F S400x10000 .f32 :=
  View.canon [⟨r3_d, k3_pay2 (View.ld x0 r3_a) (View.ld x1 r3_b)⟩]

/-- The block of x_pred: the product of the row block of mu with the whole of mu_a, transposed. -/
def out3_4 (x0 : Vec F S400x16 .f32) (x2 : Vec F S128x16 .f32) : Vec F S400x128 .f32 :=
  View.canon [⟨r3_e, k3_pay3 (View.ld x0 r3_a) (View.ld x2 r3_c)⟩]

theorem cover3_3 (p0 : Vec F S400x10000 .f32) (y : S400x10000.Idx) :
    ∃ pc ∈ ([⟨r3_d, p0⟩] : List (View.Piece (Elt F) S400x10000 .f32)), y ∈ pc.1.set :=
  View.cover_of_tiled [⟨r3_d, p0⟩] S400x10000.size (by rfl) y
theorem cover3_4 (p0 : Vec F S400x128 .f32) (y : S400x128.Idx) :
    ∃ pc ∈ ([⟨r3_e, p0⟩] : List (View.Piece (Elt F) S400x128 .f32)), y ∈ pc.1.set :=
  View.cover_of_tiled [⟨r3_e, p0⟩] S400x128.size (by rfl) y

/-! ## The body's triple -/

set_option maxHeartbeats 1000000 in
/-- The body on whole staging memrefs: the three inputs are read and left as they were, each output buffer (held at
    any contents; the body reads it once and discards what it read) ends at the product stored into it. -/
theorem sound_kernel3 (c : Dev nD) (E : Set ℕ) (i : grid3.Coords)
    (arg1 : Memref sig .tc .vmem S400x16 .f32) (harg1 : arg1.IsWhole) (arg2 : Memref sig .tc .vmem S10000x16 .f32) (harg2 : arg2.IsWhole)
    (arg3 : Memref sig .tc .vmem S128x16 .f32) (harg3 : arg3.IsWhole) (arg4 : Memref sig .tc .vmem S400x10000 .f32) (harg4 : arg4.IsWhole)
    (arg5 : Memref sig .tc .vmem S400x128 .f32) (harg5 : arg5.IsWhole)
    (x0 : Vec F S400x16 .f32) (x1 : Vec F S10000x16 .f32) (x2 : Vec F S128x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1) ∗ owns (c : Thread nD τ) arg5 fullShare (out3_4 x0 x2)) -∗ K ⟨⟩))
      ⊢ wp frame (wpE (defs₀ (F := F)) Variants.none c none) E (cc3__pass3_kernel i arg1 harg1 arg2 harg2 arg3 harg3 arg4 harg4 arg5 harg5) K := by
  simp only [cc3__pass3_kernel_eq_skeleton]; unfold cc3__pass3_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-! ## The region's proof data -/

/-- The arrays as the region finds them; after the body at point t each input buffer still at its block and each
    output buffer at its product; the invariant is the scoped rest and the generator register, untouched; nothing owed.
    The array the first two windows both read is held half by each. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 2 t)
  Φ _ := Pipeline.ΦA spec3 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The arrays at the region's entry and exit

The region's windows stand on four buffers: mu (twice), mu_a, and the two results. -/

/-- The four buffers behind the windows, each held whole, one by one. -/
theorem arrBufs3_eq (c : Dev nD) (W : (b : Ref sig .tc) → Buf (Elt F) ((c : Thread nD τ).loc b)) :
    (Pipeline.arrBufs (Ix := Unit) (Name := ℕ) (U := UR sig nD τ) (Lvl := ℕ) spec3 c W : sProp 𝕄)
      = iprop((((c : Thread nD τ).loc main_v7) ↦{fullShare} W main_v7) ∗ (((c : Thread nD τ).loc main_v3_1) ↦{fullShare} W main_v3_1)
          ∗ (((c : Thread nD τ).loc main_v9_0) ↦{fullShare} W main_v9_0) ∗ (((c : Thread nD τ).loc main_v9_1) ↦{fullShare} W main_v9_1)) := by
  unfold Pipeline.arrBufs
  exact bigSep_eq_bigSepL_of_eq [main_v7, main_v3_1, main_v9_0, main_v9_1] (by decide) (by decide) _

/-- The windows' holdings, one by one: mu is held half by the block window and half by the whole-array window. -/
theorem arrays3_eq (c : Dev nD) (Fw : (w : Fin cfg3.W) → Buf (Elt F) ((cfg3.win w).arr.view.loc (c : Thread nD τ))) :
    ((dat3 V c).arrays Fw : sProp 𝕄)
      = iprop((((c : Thread nD τ).loc main_v7) ↦{fullShare.left} Fw 0) ∗ (((c : Thread nD τ).loc main_v7) ↦{fullShare.right} Fw 1)
          ∗ (((c : Thread nD τ).loc main_v3_1) ↦{fullShare} Fw 2)
          ∗ (((c : Thread nD τ).loc main_v9_0) ↦{fullShare} Fw 3) ∗ (((c : Thread nD τ).loc main_v9_1) ↦{fullShare} Fw 4)) := by
  unfold Dat.arrays
  rw [bigSep_W3, (arr_whole3 0).set_eq_univ, (arr_whole3 2).set_eq_univ, (arr_whole3 3).set_eq_univ, (arr_whole3 4).set_eq_univ]
  rfl

/-- At the entry: the four buffers, each held whole at the entry contents, are the windows' holdings — mu divided
    between its two windows. -/
theorem hsplit3 (c : Dev nD) :
    (Pipeline.arrBufs (Ix := Unit) (Name := ℕ) (U := UR sig nD τ) (Lvl := ℕ) spec3 c (V c) : sProp 𝕄)
      ⊢ (dat3 V c).arrays ((dat3 V c).arrAt · 0) := by
  rw [arrBufs3_eq, arrays3_eq]
  iintro ⟨H7, H31, H90, H91⟩
  ihave H7' := (pointsTo_share (PosShare.mem_left_op_right fullShare)).1 $$ H7
  icases H7' with ⟨Hl, Hr⟩
  isplitl [Hl]; · iexact Hl
  isplitl [Hr]; · iexact Hr
  isplitl [H31]; · iexact H31
  isplitl [H90]; · iexact H90
  iexact H91

/-- The input windows' arrays are never written: after every point's write-backs they hold their entry contents. -/
theorem arrAt3_0 (c : Dev nD) (n : Nat) : (dat3 V c).arrAt 0 n = V c (Pipeline.arrRef spec3 0) :=
  ((dat3 V c).arrAt_in 0 rfl n).trans (A_eq3 V c 0)
theorem arrAt3_1 (c : Dev nD) (n : Nat) : (dat3 V c).arrAt 1 n = V c (Pipeline.arrRef spec3 1) :=
  ((dat3 V c).arrAt_in 1 rfl n).trans (A_eq3 V c 1)
theorem arrAt3_2 (c : Dev nD) (n : Nat) : (dat3 V c).arrAt 2 n = V c (Pipeline.arrRef spec3 2) :=
  ((dat3 V c).arrAt_in 2 rfl n).trans (A_eq3 V c 2)

/-- At the exit: the windows' holdings at their final contents are the four buffers held whole — mu and mu_a as they
    were found, the two results at what the write-backs left — for any valuation W that says so. -/
theorem hjoin3 (c : Dev nD) (W : (b : Ref sig .tc) → Buf (Elt F) ((c : Thread nD τ).loc b))
    (h7 : W main_v7 = V c main_v7) (h31 : W main_v3_1 = V c main_v3_1)
    (h90 : W main_v9_0 = (dat3 V c).arrAt 3 cfg3.N) (h91 : W main_v9_1 = (dat3 V c).arrAt 4 cfg3.N) :
    ((dat3 V c).arrays ((dat3 V c).arrAt · cfg3.N) : sProp 𝕄)
      ⊢ Pipeline.arrBufs (Ix := Unit) (Name := ℕ) (U := UR sig nD τ) (Lvl := ℕ) spec3 c W := by
  rw [arrBufs3_eq, arrays3_eq, arrAt3_0, arrAt3_1, arrAt3_2, h7, h31, h90, h91]
  iintro ⟨Hl, Hr, H31, H90, H91⟩
  isplitl [Hl Hr]
  · iapply (pointsTo_share (PosShare.mem_left_op_right fullShare)).2
    isplitl [Hl]; · iexact Hl
    iexact Hr
  isplitl [H31]; · iexact H31
  isplitl [H90]; · iexact H90
  iexact H91

end Cert.Kernel.Hand

end
-- ==== Proof.KRun.lean ====
/-
  The whole run of the program: @main is three stretches of host operations and four kernel regions,

      host (the three biases as rows) · region 0 · host (the two weight matrices side by side) · region 1 · region 2
        · host (the two column bands) · region 3.

  Between two items every unscoped buffer of the core is held whole at known contents: the launch memory, then
  each host stretch's operations applied, then, after a region, the region's result arrays at what its
  write-backs leave and every other buffer as it was. Each region is entered by splitting its windows' arrays
  out of those buffers and left by putting them back; the generator register and the scoped buffers go through
  each region untouched. The run ends with every unscoped buffer at the last of these contents, from which both
  the frame (no argument is ever written) and the results' values are read.
-/
import proofs.«151409_g7215545057700_cont_sun_m_658_3_alg».proof.Proof.KRegion0
import proofs.«151409_g7215545057700_cont_sun_m_658_3_alg».proof.Proof.KRegion1
import proofs.«151409_g7215545057700_cont_sun_m_658_3_alg».proof.Proof.KRegion2
import proofs.«151409_g7215545057700_cont_sun_m_658_3_alg».proof.Proof.KRegion3
import proofs.«151409_g7215545057700_cont_sun_m_658_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1, which is region 2's entry. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After region 2. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the third host stretch: region 3's entry. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- After region 3: its two result arrays at what the pipeline leaves, every other buffer as entered (its input
    arrays, one of them read through two windows, are never written). -/
def W7 (c : Dev nD) : Valuation τ sig (Elt F) :=
  Function.update (Function.update (W6 m ρ c) (Proc.devRef .tc main_v9_0) ((dat3 (V6 m ρ) c).arrAt 3 cfg3.N))
    (Proc.devRef .tc main_v9_1) ((dat3 (V6 m ρ) c).arrAt 4 cfg3.N)
abbrev V7 : (c : Dev nD) → (b : Ref sig .tc) → Buf (Elt F) ((c : Thread nD τ).loc b) := fun c b => W7 m ρ c b
theorem W7_v9_1 (c : Dev nD) : W7 m ρ c (Proc.devRef .tc main_v9_1) = (dat3 (V6 m ρ) c).arrAt 4 cfg3.N := by
  unfold W7; exact Function.update_self ..
theorem W7_v9_0 (c : Dev nD) : W7 m ρ c (Proc.devRef .tc main_v9_0) = (dat3 (V6 m ρ) c).arrAt 3 cfg3.N := by
  unfold W7
  rw [Function.update_of_ne (StableHlo.devRef_ne_of_ne (by decide) : (Proc.devRef .tc main_v9_0 : DevRef τ sig) ≠ Proc.devRef .tc main_v9_1)]
  exact Function.update_self ..
theorem W7_of_ne (c : Dev nD) (b : Ref sig .tc) (h : b ∉ ([main_v9_0, main_v9_1] : List (Ref sig .tc))) :
    W7 m ρ c (Proc.devRef .tc b) = W6 m ρ c (Proc.devRef .tc b) := by
  unfold W7
  rw [Function.update_of_ne (StableHlo.devRef_ne_of_ne (List.ne_of_not_mem_cons (List.not_mem_of_not_mem_cons h)) : (Proc.devRef .tc b : DevRef τ sig) ≠ Proc.devRef .tc main_v9_1),
    Function.update_of_ne (StableHlo.devRef_ne_of_ne (List.ne_of_not_mem_cons h) : (Proc.devRef .tc b : DevRef τ sig) ≠ Proc.devRef .tc main_v9_0)]

/-! ## What each item leaves unchanged

A region writes only its result arrays: an array it reads through an input window ends as it began. -/

theorem W2_keep (c : Dev nD) (b : Ref sig .tc) (hb : b ∉ ([main_v3_0, main_v3_1, main_v3_2] : List (Ref sig .tc))) :
    W2 m ρ c (Proc.devRef .tc b) = W1 m ρ c (Proc.devRef .tc b) := by
  by_cases h : ∃ w, Pipeline.arrRef spec0 w = b
  · obtain ⟨w, rfl⟩ := h
    have hin : (cfg0.win w).isOut = false := by revert hb; revert w; decide
    exact (W2_arr m ρ c w).trans (((dat0 (V1 m ρ) c).arrAt_in w hin _).trans (A_eq0 (V1 m ρ) c w))
  · exact W2_of_ne m ρ c b fun w e => h ⟨w, e⟩
theorem W4_keep (c : Dev nD) (b : Ref sig .tc) (hb : b ∉ ([main_v5] : List (Ref sig .tc))) :
    W4 m ρ c (Proc.devRef .tc b) = W3 m ρ c (Proc.devRef .tc b) := by
  by_cases h : ∃ w, Pipeline.arrRef spec1 w = b
  · obtain ⟨w, rfl⟩ := h
    have hin : (cfg1.win w).isOut = false := by revert hb; revert w; decide
    exact (W4_arr m ρ c w).trans (((dat1 (V3 m ρ) c).arrAt_in w hin _).trans (A_eq1 (V3 m ρ) c w))
  · exact W4_of_ne m ρ c b fun w e => h ⟨w, e⟩
theorem W5_keep (c : Dev nD) (b : Ref sig .tc) (hb : b ∉ ([main_v6] : List (Ref sig .tc))) :
    W5 m ρ c (Proc.devRef .tc b) = W4 m ρ c (Proc.devRef .tc b) := by
  by_cases h : ∃ w, Pipeline.arrRef spec2 w = b
  · obtain ⟨w, rfl⟩ := h
    have hin : (cfg2.win w).isOut = false := by revert hb; revert w; decide
    exact (W5_arr m ρ c w).trans (((dat2 (V4 m ρ) c).arrAt_in w hin _).trans (A_eq2 (V4 m ρ) c w))
  · exact W5_of_ne m ρ c b fun w e => h ⟨w, e⟩
theorem W1_keep (c : Dev nD) (b : Ref sig .tc) (hb : b ∉ hostOps0_W) : W1 m ρ c (Proc.devRef .tc b) = W0 m ρ c (Proc.devRef .tc b) :=
  StableHlo.after_of_writes_sub hostOps0 _ hostOps0_writes hb
theorem W3_keep (c : Dev nD) (b : Ref sig .tc) (hb : b ∉ hostOps1_W) : W3 m ρ c (Proc.devRef .tc b) = W2 m ρ c (Proc.devRef .tc b) :=
  StableHlo.after_of_writes_sub hostOps1 _ hostOps1_writes hb
theorem W6_keep (c : Dev nD) (b : Ref sig .tc) (hb : b ∉ hostOps3_W) : W6 m ρ c (Proc.devRef .tc b) = W5 m ρ c (Proc.devRef .tc b) :=
  StableHlo.after_of_writes_sub hostOps3 _ hostOps3_writes hb

/-- A buffer no item writes ends as launched. -/
theorem W7_keep (c : Dev nD) (b : Ref sig .tc) (h0 : b ∉ hostOps0_W) (h1 : b ∉ ([main_v3_0, main_v3_1, main_v3_2] : List (Ref sig .tc)))
    (h2 : b ∉ hostOps1_W) (h3 : b ∉ ([main_v5] : List (Ref sig .tc))) (h4 : b ∉ ([main_v6] : List (Ref sig .tc)))
    (h5 : b ∉ hostOps3_W) (h6 : b ∉ ([main_v9_0, main_v9_1] : List (Ref sig .tc))) :
    W7 m ρ c (Proc.devRef .tc b) = m ((c : Thread nD τ).loc b) :=
  (W7_of_ne m ρ c b h6).trans <| (W6_keep m ρ c b h5).trans <| (W5_keep m ρ c b h4).trans <| (W4_keep m ρ c b h3).trans <|
    (W3_keep m ρ c b h2).trans <| (W2_keep m ρ c b h1).trans <| (W1_keep m ρ c b h0).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at the exit contents; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at the exit contents; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at the exit contents; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- A buffer that is none of region 3's arrays is not one of its two results. -/
theorem not_out3 (b : Ref sig .tc) (hb : b ∉ Finset.univ.image (Pipeline.arrRef spec3)) : b ∉ ([main_v9_0, main_v9_1] : List (Ref sig .tc)) := fun h => hb (by
  simp only [List.mem_cons, List.not_mem_nil, or_false] at h
  rcases h with rfl | rfl
  · exact Finset.mem_image.mpr ⟨3, Finset.mem_univ _, rfl⟩
  · exact Finset.mem_image.mpr ⟨4, Finset.mem_univ _, rfl⟩)

/-- Region 3's entry: the unscoped buffers are the four buffers behind its windows, divided among the windows, and the rest. -/
theorem entry3 (c : Dev nD) :
    (StableHlo.held (c : Thread nD τ) (Pipeline.ucRefs τ sig) (W6 m ρ c) : sProp 𝕄)
      ⊢ iprop((dat3 (V6 m ρ) c).arrays ((dat3 (V6 m ρ) c).arrAt · 0)
          ∗ Pipeline.unscopedRest (Ix := Unit) (Name := ℕ) (U := UR sig nD τ) (Lvl := ℕ) spec3 c (V6 m ρ c)) := by
  rw [← Pipeline.unscopedBufs_held, Pipeline.unscopedBufs_split₀ cfgs 3 winFacts₀3.arr_unscoped c (V6 m ρ c)]
  exact sep_mono (hsplit3 (V6 m ρ) c) .rfl

/-- Region 3's exit: the windows' holdings at their final contents and the rest are the unscoped buffers at the last
    contents. -/
theorem exit3 (c : Dev nD) :
    iprop((dat3 (V6 m ρ) c).arrays ((dat3 (V6 m ρ) c).arrAt · cfg3.N)
        ∗ Pipeline.unscopedRest (Ix := Unit) (Name := ℕ) (U := UR sig nD τ) (Lvl := ℕ) spec3 c (V6 m ρ c))
      ⊢ (StableHlo.held (c : Thread nD τ) (Pipeline.ucRefs τ sig) (W7 m ρ c) : sProp 𝕄) := by
  rw [← Pipeline.unscopedBufs_held, Pipeline.unscopedBufs_split₀ cfgs 3 winFacts₀3.arr_unscoped c (V7 m ρ c)]
  refine sep_mono (hjoin3 (V6 m ρ) c (V7 m ρ c) ?_ ?_ ?_ ?_) (Entails.of_eq ?_)
  · exact W7_of_ne m ρ c main_v7 (by decide)
  · exact W7_of_ne m ρ c main_v3_1 (by decide)
  · exact W7_v9_0 m ρ c
  · exact W7_v9_1 m ρ c
  · unfold Pipeline.unscopedRest
    exact bigSep_congr fun b hb => by
      rw [show V7 m ρ c b = V6 m ρ c b from W7_of_ne m ρ c b (not_out3 b (Finset.mem_sdiff.mp hb).2)]

set_option backward.isDefEq.respectTransparency.types false in
/-- Region 3, the last item: two of its windows read one array, so its arrays are taken out of the unscoped buffers and
    put back by the two lemmas above instead of the library's, which ask for distinct arrays. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    iintro ⟨⟨Hub, Hp, HO⟩, -, -⟩
    ihave H := (entry3 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit3 m ρ c)
        isplitl [Ha]; · iexact Ha
        iexact Hrest
      iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ) ]
/-- @main is the run of these segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state each unscoped buffer of each core holds the last contents of the fold
    above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- What the run leaves at an unscoped buffer of the TensorCore. -/
theorem run_at {r : PUnit × MemSt nD τ sig (Elt F)} (h : ∀ c : Dev nD, ∀ b ∈ Pipeline.ucRefs τ sig, r.2.mem (((c : Thread nD τ)).1, b) = W7 m ρ c b)
    (c : Dev nD) (b : Ref sig .tc) (hb : ¬ (Proc.devRef .tc b : DevRef τ sig).isScoped) :
    r.2.mem ((c.tc : Thread nD τ).loc b) = W7 m ρ c (Proc.devRef .tc b) :=
  h c _ (mem_uc b hb)

/-- THE FRAME: every argument array ends as launched — no host operation and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(run_at m ρ h c main_arg0 (by decide)).trans (W7_keep m ρ c main_arg0 (by decide) (by decide) (by decide) (by decide) (by decide) (by decide) (by decide)),
     (run_at m ρ h c main_arg1 (by decide)).trans (W7_keep m ρ c main_arg1 (by decide) (by decide) (by decide) (by decide) (by decide) (by decide) (by decide)),
     (run_at m ρ h c main_arg2 (by decide)).trans (W7_keep m ρ c main_arg2 (by decide) (by decide) (by decide) (by decide) (by decide) (by decide) (by decide)),
     (run_at m ρ h c main_arg3 (by decide)).trans (W7_keep m ρ c main_arg3 (by decide) (by decide) (by decide) (by decide) (by decide) (by decide) (by decide)),
     (run_at m ρ h c main_arg4 (by decide)).trans (W7_keep m ρ c main_arg4 (by decide) (by decide) (by decide) (by decide) (by decide) (by decide) (by decide)),
     (run_at m ρ h c main_arg5 (by decide)).trans (W7_keep m ρ c main_arg5 (by decide) (by decide) (by decide) (by decide) (by decide) (by decide) (by decide)),
     (run_at m ρ h c main_arg6 (by decide)).trans (W7_keep m ρ c main_arg6 (by decide) (by decide) (by decide) (by decide) (by decide) (by decide) (by decide)),
     (run_at m ρ h c main_arg7 (by decide)).trans (W7_keep m ρ c main_arg7 (by decide) (by decide) (by decide) (by decide) (by decide) (by decide) (by decide)),
     (run_at m ρ h c main_arg8 (by decide)).trans (W7_keep m ρ c main_arg8 (by decide) (by decide) (by decide) (by decide) (by decide) (by decide) (by decide)),
     (run_at m ρ h c main_arg9 (by decide)).trans (W7_keep m ρ c main_arg9 (by decide) (by decide) (by decide) (by decide) (by decide) (by decide) (by decide)),
     (run_at m ρ h c main_arg10 (by decide)).trans (W7_keep m ρ c main_arg10 (by decide) (by decide) (by decide) (by decide) (by decide) (by decide) (by decide))⟩)
    (run_all m ρ)

end Cert.Kernel.Hand

end
-- ==== Proof.Region0.lean ====
/- Region 0 (the prelude): ONE grid point. From the node features `x` [10000,128] it computes the product with the
   first graph-convolution weights [10000,32], and the attribute branch: `h = tanh(xᵀ·W + b)` [128,32] (the sum runs
   over the 10000 nodes), then the two affine images of `h`, [128,16] each. Eight input windows and three output
   windows, every one its whole array. This module states, for ANY contents `V` of the buffers when the region is
   entered, what each window's staging buffer holds before and after the body, and proves the body's obligation. -/
import proofs.«151409_g7215545057700_cont_sun_m_658_3_alg».proof.Proof.Gen.KernelIdeal.Launch
import proofs.«151409_g7215545057700_cont_sun_m_658_3_alg».proof.Proof.Gen.KernelIdeal.Skeleton
import proofs.«151409_g7215545057700_cont_sun_m_658_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of length 10000 is decided coordinate by coordinate along the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents when the region is entered
variable (V : (c : Dev nD) → (b : Ref sig .tc) → Buf (Elt F) ((c : Thread nD τ).loc b))

/-! ## The windows' blocks -/

/-- The block of window `w` at point `t`: its array at the entry contents `V`, read through the window (here the
    whole array, at the one point there is). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (the node features): what the body finds in its staging buffer is the window's block, for any proof data
    over the entry arrays whose body leaves that buffer alone. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Window 1 (the first graph-convolution weights): what the body finds in its staging buffer is the window's block, for any proof data
    over the entry arrays whose body leaves that buffer alone. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window 2 (the attribute-branch first weights): what the body finds in its staging buffer is the window's block, for any proof data
    over the entry arrays whose body leaves that buffer alone. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window 3 (its bias as a row): what the body finds in its staging buffer is the window's block, for any proof data
    over the entry arrays whose body leaves that buffer alone. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Window 4 (the attribute-branch mean weights): what the body finds in its staging buffer is the window's block, for any proof data
    over the entry arrays whose body leaves that buffer alone. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Window 5 (their bias as a row): what the body finds in its staging buffer is the window's block, for any proof data
    over the entry arrays whose body leaves that buffer alone. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Window 6 (the attribute-branch log-variance weights): what the body finds in its staging buffer is the window's block, for any proof data
    over the entry arrays whose body leaves that buffer alone. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Window 7 (their bias as a row): what the body finds in its staging buffer is the window's block, for any proof data
    over the entry arrays whose body leaves that buffer alone. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written whole; `r0_W` is window `W`'s buffer as one rectangle -/

abbrev r0_0 : Rect S10000x128 := Rect.unit (s := S10000x128) ![0, 0] S10000x128.size inb_S10000x128_S10000x128_0_0
abbrev r0_1 : Rect S128x32 := Rect.unit (s := S128x32) ![0, 0] S128x32.size inb_S128x32_S128x32_0_0
abbrev r0_2 : Rect S10000x32 := Rect.unit (s := S10000x32) ![0, 0] S10000x32.size inb_S10000x32_S10000x32_0_0
abbrev r0_3 : Rect S1x32 := Rect.unit (s := S1x32) ![0, 0] S1x32.size inb_S1x32_S1x32_0_0
abbrev r0_4 : Rect S32x16 := Rect.unit (s := S32x16) ![0, 0] S32x16.size inb_S32x16_S32x16_0_0
abbrev r0_5 : Rect S1x16 := Rect.unit (s := S1x16) ![0, 0] S1x16.size inb_S1x16_S1x16_0_0
abbrev r0_6 : Rect S32x16 := Rect.unit (s := S32x16) ![0, 0] S32x16.size inb_S32x16_S32x16_0_0
abbrev r0_7 : Rect S1x16 := Rect.unit (s := S1x16) ![0, 0] S1x16.size inb_S1x16_S1x16_0_0
abbrev r0_8 : Rect S10000x32 := Rect.unit (s := S10000x32) ![0, 0] S10000x32.size inb_S10000x32_S10000x32_0_0
abbrev r0_9 : Rect S128x16 := Rect.unit (s := S128x16) ![0, 0] S128x16.size inb_S128x16_S128x16_0_0
abbrev r0_10 : Rect S128x16 := Rect.unit (s := S128x16) ![0, 0] S128x16.size inb_S128x16_S128x16_0_0

/-! ## What the body leaves in each output window's buffer -/

/-- Window 8 (features times the graph-convolution weights) after the body: its one store. -/
def out0_8 (x0 : Vec F S10000x128 .f32) (x1 : Vec F S128x32 .f32) : Vec F S10000x32 .f32 :=
  View.canon [⟨r0_8, k0_pay1 (View.ld x0 r0_0) (View.ld x1 r0_1)⟩]

/-- Window 9 (the attribute branch's mean) after the body: its one store. -/
def out0_9 (x0 : Vec F S10000x128 .f32) (x2 : Vec F S10000x32 .f32) (x3 : Vec F S1x32 .f32) (x4 : Vec F S32x16 .f32) (x5 : Vec F S1x16 .f32) :
    Vec F S128x16 .f32 :=
  View.canon [⟨r0_9, k0_pay3 (View.ld x0 r0_0) (View.ld x2 r0_2) (View.ld x3 r0_3) (View.ld x4 r0_4) (View.ld x5 r0_5)⟩]

/-- Window 10 (the attribute branch's log-variance) after the body: its one store. -/
def out0_10 (x0 : Vec F S10000x128 .f32) (x2 : Vec F S10000x32 .f32) (x3 : Vec F S1x32 .f32) (x6 : Vec F S32x16 .f32) (x7 : Vec F S1x16 .f32) :
    Vec F S128x16 .f32 :=
  View.canon [⟨r0_10, k0_pay4 (View.ld x0 r0_0) (View.ld x2 r0_2) (View.ld x3 r0_3) (View.ld x6 r0_6) (View.ld x7 r0_7)⟩]

/-- Each output's one store is of its whole buffer, so every index lies under it. -/
theorem cover0_8 (p0 : Vec F S10000x32 .f32) (y : S10000x32.Idx) :
    ∃ pc ∈ ([⟨r0_8, p0⟩] : List (View.Piece (Elt F) S10000x32 .f32)), y ∈ pc.1.set :=
  View.cover_of_tiled [⟨r0_8, p0⟩] S10000x32.size (by rfl) y
theorem cover0_9 (p0 : Vec F S128x16 .f32) (y : S128x16.Idx) :
    ∃ pc ∈ ([⟨r0_9, p0⟩] : List (View.Piece (Elt F) S128x16 .f32)), y ∈ pc.1.set :=
  View.cover_of_tiled [⟨r0_9, p0⟩] S128x16.size (by rfl) y
theorem cover0_10 (p0 : Vec F S128x16 .f32) (y : S128x16.Idx) :
    ∃ pc ∈ ([⟨r0_10, p0⟩] : List (View.Piece (Elt F) S128x16 .f32)), y ∈ pc.1.set :=
  View.cover_of_tiled [⟨r0_10, p0⟩] S128x16.size (by rfl) y

/-! ## The body's triple -/

set_option maxHeartbeats 4000000 in
/-- The body on whole staging buffers — the eight inputs at contents `x0 … x7`, the three outputs at anything — ends
    with the inputs unchanged and each output at its `out0_W` of the inputs. The body reads each output buffer once
    before storing it; the values read are not used. -/
theorem sound_kernel0 (c : Dev nD) (E : Set ℕ)
    (arg0 : Memref sig .tc .vmem S10000x128 .f32) (harg0 : arg0.IsWhole)
    (arg1 : Memref sig .tc .vmem S128x32 .f32) (harg1 : arg1.IsWhole)
    (arg2 : Memref sig .tc .vmem S10000x32 .f32) (harg2 : arg2.IsWhole)
    (arg3 : Memref sig .tc .vmem S1x32 .f32) (harg3 : arg3.IsWhole)
    (arg4 : Memref sig .tc .vmem S32x16 .f32) (harg4 : arg4.IsWhole)
    (arg5 : Memref sig .tc .vmem S1x16 .f32) (harg5 : arg5.IsWhole)
    (arg6 : Memref sig .tc .vmem S32x16 .f32) (harg6 : arg6.IsWhole)
    (arg7 : Memref sig .tc .vmem S1x16 .f32) (harg7 : arg7.IsWhole)
    (arg8 : Memref sig .tc .vmem S10000x32 .f32) (harg8 : arg8.IsWhole)
    (arg9 : Memref sig .tc .vmem S128x16 .f32) (harg9 : arg9.IsWhole)
    (arg10 : Memref sig .tc .vmem S128x16 .f32) (harg10 : arg10.IsWhole)
    (x0 : Vec F S10000x128 .f32) (x1 : Vec F S128x32 .f32) (x2 : Vec F S10000x32 .f32) (x3 : Vec F S1x32 .f32) (x4 : Vec F S32x16 .f32) (x5 : Vec F S1x16 .f32) (x6 : Vec F S32x16 .f32) (x7 : Vec F S1x16 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out0_8 x0 x1) ∗ owns (c : Thread nD τ) arg9 fullShare (out0_9 x0 x2 x3 x4 x5)
            ∗ owns (c : Thread nD τ) arg10 fullShare (out0_10 x0 x2 x3 x6 x7)) -∗ K ⟨⟩))
      ⊢ wp frame (wpE (defs₀ (F := F)) Variants.none c none) E
          (cc0__prelude_kernel arg0 harg0 arg1 harg1 arg2 harg2 arg3 harg3 arg4 harg4 arg5 harg5 arg6 harg6 arg7 harg7 arg8 harg8 arg9 harg9 arg10 harg10) K := by
  simp only [cc0__prelude_kernel_eq_skeleton]; unfold cc0__prelude_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (cover0_8 _)
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

/-! ## The pipeline's proof data -/

/-- The proof data of region 0 on core `c`: the arrays at the entry contents; after the body every input buffer
    still at its block and each output buffer at its `out0_W` of the input blocks; the invariant is the rest of the
    core's memory, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t)
    | ⟨9, _⟩ => out0_9 (iblk0 V c 0 t) (iblk0 V c 2 t) (iblk0 V c 3 t) (iblk0 V c 4 t) (iblk0 V c 5 t)
    | ⟨10, _⟩ => out0_10 (iblk0 V c 0 t) (iblk0 V c 2 t) (iblk0 V c 3 t) (iblk0 V c 6 t) (iblk0 V c 7 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) :
    (dat0 V c).after 8 t = out0_8 (iblk0 V c 0 t) (iblk0 V c 1 t) := by dsimp only [dat0]
theorem after0_9 (c : Dev nD) (t : Fin cfg0.N) :
    (dat0 V c).after 9 t = out0_9 (iblk0 V c 0 t) (iblk0 V c 2 t) (iblk0 V c 3 t) (iblk0 V c 4 t) (iblk0 V c 5 t) := by
  dsimp only [dat0]
theorem after0_10 (c : Dev nD) (t : Fin cfg0.N) :
    (dat0 V c).after 10 t = out0_10 (iblk0 V c 0 t) (iblk0 V c 2 t) (iblk0 V c 3 t) (iblk0 V c 6 t) (iblk0 V c 7 t) := by
  dsimp only [dat0]

/-- What the body finds in each input buffer: the window's block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-! ## The body obligation -/

/-- What the body is given at point `t`: the invariant, the core's debts, and each window's staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at the point: the input buffers hold their blocks, so the body's triple applies; the invariant and the
    debts are carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of region 0. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Region1.lean ====
/- Region 1 (the first adjacency pass): one grid point multiplies a 400-row block of the adjacency matrix by the whole
   [10000,32] feature matrix, clamps at zero and multiplies by the [32,32] weight pair; 25 points cover the rows.
   This module states, for ANY contents `V` of the buffers when the region is entered, what each window's staging
   buffer holds before and after the body at a point, and proves the body's obligation at every point. -/
import proofs.«151409_g7215545057700_cont_sun_m_658_3_alg».proof.Proof.Gen.KernelIdeal.Launch
import proofs.«151409_g7215545057700_cont_sun_m_658_3_alg».proof.Proof.Gen.KernelIdeal.Skeleton
import proofs.«151409_g7215545057700_cont_sun_m_658_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of length 10000 is decided coordinate by coordinate along the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the buffer contents when the region is entered
variable (V : (c : Dev nD) → (b : Ref sig .tc) → Buf (Elt F) ((c : Thread nD τ).loc b))

/-! ## The windows' blocks -/

/-- The block of window `w` at point `t`: the part of its array (at the entry contents `V`) that the window's index
    map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency row block (window 0, fetched at every point) is what the body finds in its staging buffer: for any
    proof data over the entry arrays whose body leaves that buffer alone. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The feature matrix (window 1) is fetched at the first point only and its block index never moves: at a later
    point the buffer still holds the block, which is the same block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight pair (window 2): likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev r1_0 : Rect S400x10000 := Rect.unit (s := S400x10000) ![0, 0] S400x10000.size inb_S400x10000_S400x10000_0_0
abbrev r1_1 : Rect S10000x32 := Rect.unit (s := S10000x32) ![0, 0] S10000x32.size inb_S10000x32_S10000x32_0_0
abbrev r1_2 : Rect S32x32 := Rect.unit (s := S32x32) ![0, 0] S32x32.size inb_S32x32_S32x32_0_0
abbrev r1_3 : Rect S400x32 := Rect.unit (s := S400x32) ![0, 0] S400x32.size inb_S400x32_S400x32_0_0

/-! ## What the body leaves in the output window's buffer -/

/-- The output staging buffer (window 3) after the body: its one store, of the payload computed from the three input
    blocks as the body loads them. -/
def out1_3 (x0 : Vec F S400x10000 .f32) (x1 : Vec F S10000x32 .f32) (x2 : Vec F S32x32 .f32) : Vec F S400x32 .f32 :=
  View.canon [⟨r1_3, k1_pay1 (View.ld x0 r1_0) (View.ld x1 r1_1) (View.ld x2 r1_2)⟩]

/-- The one store is of the whole [400,32] buffer, so every index lies under it. -/
theorem cover1_3 (p0 : Vec F S400x32 .f32) (y : S400x32.Idx) :
    ∃ pc ∈ ([⟨r1_3, p0⟩] : List (View.Piece (Elt F) S400x32 .f32)), y ∈ pc.1.set :=
  View.cover_of_tiled [⟨r1_3, p0⟩] S400x32.size (by rfl) y

/-! ## The body's triple -/

set_option maxHeartbeats 1000000 in
/-- The body on whole staging buffers — the three inputs at contents `x0 x1 x2`, the output at anything — ends with
    the inputs unchanged and the output at `out1_3 x0 x1 x2`. The body reads the output buffer once before storing
    it; the value read is not used. -/
theorem sound_kernel1 (c : Dev nD) (E : Set ℕ) (i : grid1.Coords)
    (arg1 : Memref sig .tc .vmem S400x10000 .f32) (harg1 : arg1.IsWhole) (arg2 : Memref sig .tc .vmem S10000x32 .f32) (harg2 : arg2.IsWhole)
    (arg3 : Memref sig .tc .vmem S32x32 .f32) (harg3 : arg3.IsWhole) (arg4 : Memref sig .tc .vmem S400x32 .f32) (harg4 : arg4.IsWhole)
    (x0 : Vec F S400x10000 .f32) (x1 : Vec F S10000x32 .f32) (x2 : Vec F S32x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__pass1_kernel i arg1 harg1 arg2 harg2 arg3 harg3 arg4 harg4) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of region 1 on core `c`: the arrays at the entry contents; after the body at point `t` every
    input buffer still at its block and the output buffer at `out1_3` of the three input blocks; the invariant is
    the rest of the core's memory, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- What the body finds in each input buffer: the window's block, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is given at point `t`: the invariant, the core's debts, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and the
    debts are carried across unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Region2.lean ====
/- Region 2 (the second adjacency pass): one grid point multiplies a 400-row block of the adjacency matrix by the whole
   [10000,32] matrix the first pass produced; 25 points cover the rows. This module states, for ANY contents `V` of
   the buffers when the region is entered, what each window's staging buffer holds before and after the body at a
   point, and proves the body's obligation at every point. -/
import proofs.«151409_g7215545057700_cont_sun_m_658_3_alg».proof.Proof.Gen.KernelIdeal.Launch
import proofs.«151409_g7215545057700_cont_sun_m_658_3_alg».proof.Proof.Gen.KernelIdeal.Skeleton
import proofs.«151409_g7215545057700_cont_sun_m_658_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of length 10000 is decided coordinate by coordinate along the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
-- the buffer contents when the region is entered
variable (V : (c : Dev nD) → (b : Ref sig .tc) → Buf (Elt F) ((c : Thread nD τ).loc b))

/-! ## The windows' blocks -/

/-- The block of window `w` at point `t`: the part of its array (at the entry contents `V`) that the window's index
    map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The adjacency row block (window 0, fetched at every point) is what the body finds in its staging buffer: for any
    proof data over the entry arrays whose body leaves that buffer alone. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right-hand matrix (window 1) is fetched at the first point only and its block index never moves: at a later
    point the buffer still holds the block, which is the same block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written whole -/

abbrev r2_0 : Rect S400x10000 := Rect.unit (s := S400x10000) ![0, 0] S400x10000.size inb_S400x10000_S400x10000_0_0
abbrev r2_1 : Rect S10000x32 := Rect.unit (s := S10000x32) ![0, 0] S10000x32.size inb_S10000x32_S10000x32_0_0
abbrev r2_2 : Rect S400x32 := Rect.unit (s := S400x32) ![0, 0] S400x32.size inb_S400x32_S400x32_0_0

/-! ## What the body leaves in the output window's buffer -/

/-- The output staging buffer (window 2) after the body: its one store, of the product of the two input blocks as
    the body loads them. -/
def out2_2 (x0 : Vec F S400x10000 .f32) (x1 : Vec F S10000x32 .f32) : Vec F S400x32 .f32 :=
  View.canon [⟨r2_2, k2_pay1 (View.ld x0 r2_0) (View.ld x1 r2_1)⟩]

/-- The one store is of the whole [400,32] buffer, so every index lies under it. -/
theorem cover2_2 (p0 : Vec F S400x32 .f32) (y : S400x32.Idx) :
    ∃ pc ∈ ([⟨r2_2, p0⟩] : List (View.Piece (Elt F) S400x32 .f32)), y ∈ pc.1.set :=
  View.cover_of_tiled [⟨r2_2, p0⟩] S400x32.size (by rfl) y

/-! ## The body's triple -/

set_option maxHeartbeats 1000000 in
/-- The body on whole staging buffers — the two inputs at contents `x0 x1`, the output at anything — ends with the
    inputs unchanged and the output at `out2_2 x0 x1`. The body reads the output buffer once before storing it; the
    value read is not used. -/
theorem sound_kernel2 (c : Dev nD) (E : Set ℕ) (i : grid2.Coords)
    (arg1 : Memref sig .tc .vmem S400x10000 .f32) (harg1 : arg1.IsWhole) (arg2 : Memref sig .tc .vmem S10000x32 .f32) (harg2 : arg2.IsWhole)
    (arg3 : Memref sig .tc .vmem S400x32 .f32) (harg3 : arg3.IsWhole)
    (x0 : Vec F S400x10000 .f32) (x1 : Vec F S10000x32 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__pass2_kernel i arg1 harg1 arg2 harg2 arg3 harg3) K := by
  simp only [cc2__pass2_kernel_eq_skeleton]; unfold cc2__pass2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of region 2 on core `c`: the arrays at the entry contents; after the body at point `t` every
    input buffer still at its block and the output buffer at `out2_2` of the two input blocks; the invariant is the
    rest of the core's memory, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- What the body finds in each input buffer: the window's block, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is given at point `t`: the invariant, the core's debts, and each window's current staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it gives back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the input buffers hold their blocks, so the body's triple applies; the invariant and the
    debts are carried across unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.Region3.lean ====
/-
  The decoder region (the fourth kernel call): at grid point t it multiplies the block of 400 rows of mu
  by the whole of mu, transposed, and by the whole of mu_a, transposed. Its first two input windows read ONE
  array (mu: a row block of it, and all of it), so the array's ownership is divided between them: the first
  window holds the left half of the full share, the second the right half; nothing ever writes the array
  during the region, and at the exit the two halves make the whole again.

  Stated at a parameter V, the contents of the core's buffers when the region is entered, and for any
  float instance.
-/
import proofs.«151409_g7215545057700_cont_sun_m_658_3_alg».proof.Proof.Gen.KernelIdeal.Launch
import proofs.«151409_g7215545057700_cont_sun_m_658_3_alg».proof.Proof.Gen.KernelIdeal.Skeleton
import proofs.«151409_g7215545057700_cont_sun_m_658_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds the window's block at every point, whether the point fetches it or the
    block index has not moved since it was fetched. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each load and each store is of a whole staging buffer -/

abbrev r3_a : Rect S400x16 := Rect.unit (s := S400x16) ![0, 0] S400x16.size inb_S400x16_S400x16_0_0
abbrev r3_b : Rect S10000x16 := Rect.unit (s := S10000x16) ![0, 0] S10000x16.size inb_S10000x16_S10000x16_0_0
abbrev r3_c : Rect S128x16 := Rect.unit (s := S128x16) ![0, 0] S128x16.size inb_S128x16_S128x16_0_0
abbrev r3_d : Rect S400x10000 := Rect.unit (s := S400x10000) ![0, 0] S400x10000.size inb_S400x10000_S400x10000_0_0
abbrev r3_e : Rect S400x128 := Rect.unit (s := S400x128) ![0, 0] S400x128.size inb_S400x128_S400x128_0_0

/-! ## What the body leaves in the two output buffers -/

/-- The block of adj_pred: the product of the row block of mu with the whole of mu, transposed. -/
def out3_3 (x0 : Vec F S400x16 .f32) (x1 : Vec F S10000x16 .f32) : Vec F S400x10000 .f32 :=
  View.canon [⟨r3_d, k3_pay2 (View.ld x0 r3_a) (View.ld x1 r3_b)⟩]

/-- The block of x_pred: the product of the row block of mu with the whole of mu_a, transposed. -/
def out3_4 (x0 : Vec F S400x16 .f32) (x2 : Vec F S128x16 .f32) : Vec F S400x128 .f32 :=
  View.canon [⟨r3_e, k3_pay3 (View.ld x0 r3_a) (View.ld x2 r3_c)⟩]

theorem cover3_3 (p0 : Vec F S400x10000 .f32) (y : S400x10000.Idx) :
    ∃ pc ∈ ([⟨r3_d, p0⟩] : List (View.Piece (Elt F) S400x10000 .f32)), y ∈ pc.1.set :=
  View.cover_of_tiled [⟨r3_d, p0⟩] S400x10000.size (by rfl) y
theorem cover3_4 (p0 : Vec F S400x128 .f32) (y : S400x128.Idx) :
    ∃ pc ∈ ([⟨r3_e, p0⟩] : List (View.Piece (Elt F) S400x128 .f32)), y ∈ pc.1.set :=
  View.cover_of_tiled [⟨r3_e, p0⟩] S400x128.size (by rfl) y

/-! ## The body's triple -/

set_option maxHeartbeats 1000000 in
/-- The body on whole staging memrefs: the three inputs are read and left as they were, each output buffer (held at
    any contents; the body reads it once and discards what it read) ends at the product stored into it. -/
theorem sound_kernel3 (c : Dev nD) (E : Set ℕ) (i : grid3.Coords)
    (arg1 : Memref sig .tc .vmem S400x16 .f32) (harg1 : arg1.IsWhole) (arg2 : Memref sig .tc .vmem S10000x16 .f32) (harg2 : arg2.IsWhole)
    (arg3 : Memref sig .tc .vmem S128x16 .f32) (harg3 : arg3.IsWhole) (arg4 : Memref sig .tc .vmem S400x10000 .f32) (harg4 : arg4.IsWhole)
    (arg5 : Memref sig .tc .vmem S400x128 .f32) (harg5 : arg5.IsWhole)
    (x0 : Vec F S400x16 .f32) (x1 : Vec F S10000x16 .f32) (x2 : Vec F S128x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1) ∗ owns (c : Thread nD τ) arg5 fullShare (out3_4 x0 x2)) -∗ K ⟨⟩))
      ⊢ wp frame (wpE (defs₀ (F := F)) Variants.none c none) E (cc3__pass3_kernel i arg1 harg1 arg2 harg2 arg3 harg3 arg4 harg4 arg5 harg5) K := by
  simp only [cc3__pass3_kernel_eq_skeleton]; unfold cc3__pass3_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_4 _)

/-! ## The region's proof data -/

/-- The arrays as the region finds them; after the body at point t each input buffer still at its block and each
    output buffer at its product; the invariant is the scoped rest and the generator register, untouched; nothing owed.
    The array the first two windows both read is held half by each. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t)
    | ⟨4, _⟩ => out3_4 (iblk3 V c 0 t) (iblk3 V c 2 t)
  Φ _ := Pipeline.ΦA spec3 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) := by dsimp only [dat3]
theorem after3_4 (c : Dev nD) (t : Fin cfg3.N) : (dat3 V c).after 4 t = out3_4 (iblk3 V c 0 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The arrays at the region's entry and exit

The region's windows stand on four buffers: mu (twice), mu_a, and the two results. -/

/-- The four buffers behind the windows, each held whole, one by one. -/
theorem arrBufs3_eq (c : Dev nD) (W : (b : Ref sig .tc) → Buf (Elt F) ((c : Thread nD τ).loc b)) :
    (Pipeline.arrBufs (Ix := Unit) (Name := ℕ) (U := UR sig nD τ) (Lvl := ℕ) spec3 c W : sProp 𝕄)
      = iprop((((c : Thread nD τ).loc main_v7) ↦{fullShare} W main_v7) ∗ (((c : Thread nD τ).loc main_v3_1) ↦{fullShare} W main_v3_1)
          ∗ (((c : Thread nD τ).loc main_v9_0) ↦{fullShare} W main_v9_0) ∗ (((c : Thread nD τ).loc main_v9_1) ↦{fullShare} W main_v9_1)) := by
  unfold Pipeline.arrBufs
  exact bigSep_eq_bigSepL_of_eq [main_v7, main_v3_1, main_v9_0, main_v9_1] (by decide) (by decide) _

/-- The windows' holdings, one by one: mu is held half by the block window and half by the whole-array window. -/
theorem arrays3_eq (c : Dev nD) (Fw : (w : Fin cfg3.W) → Buf (Elt F) ((cfg3.win w).arr.view.loc (c : Thread nD τ))) :
    ((dat3 V c).arrays Fw : sProp 𝕄)
      = iprop((((c : Thread nD τ).loc main_v7) ↦{fullShare.left} Fw 0) ∗ (((c : Thread nD τ).loc main_v7) ↦{fullShare.right} Fw 1)
          ∗ (((c : Thread nD τ).loc main_v3_1) ↦{fullShare} Fw 2)
          ∗ (((c : Thread nD τ).loc main_v9_0) ↦{fullShare} Fw 3) ∗ (((c : Thread nD τ).loc main_v9_1) ↦{fullShare} Fw 4)) := by
  unfold Dat.arrays
  rw [bigSep_W3, (arr_whole3 0).set_eq_univ, (arr_whole3 2).set_eq_univ, (arr_whole3 3).set_eq_univ, (arr_whole3 4).set_eq_univ]
  rfl

/-- At the entry: the four buffers, each held whole at the entry contents, are the windows' holdings — mu divided
    between its two windows. -/
theorem hsplit3 (c : Dev nD) :
    (Pipeline.arrBufs (Ix := Unit) (Name := ℕ) (U := UR sig nD τ) (Lvl := ℕ) spec3 c (V c) : sProp 𝕄)
      ⊢ (dat3 V c).arrays ((dat3 V c).arrAt · 0) := by
  rw [arrBufs3_eq, arrays3_eq]
  iintro ⟨H7, H31, H90, H91⟩
  ihave H7' := (pointsTo_share (PosShare.mem_left_op_right fullShare)).1 $$ H7
  icases H7' with ⟨Hl, Hr⟩
  isplitl [Hl]; · iexact Hl
  isplitl [Hr]; · iexact Hr
  isplitl [H31]; · iexact H31
  isplitl [H90]; · iexact H90
  iexact H91

/-- The input windows' arrays are never written: after every point's write-backs they hold their entry contents. -/
theorem arrAt3_0 (c : Dev nD) (n : Nat) : (dat3 V c).arrAt 0 n = V c (Pipeline.arrRef spec3 0) :=
  ((dat3 V c).arrAt_in 0 rfl n).trans (A_eq3 V c 0)
theorem arrAt3_1 (c : Dev nD) (n : Nat) : (dat3 V c).arrAt 1 n = V c (Pipeline.arrRef spec3 1) :=
  ((dat3 V c).arrAt_in 1 rfl n).trans (A_eq3 V c 1)
theorem arrAt3_2 (c : Dev nD) (n : Nat) : (dat3 V c).arrAt 2 n = V c (Pipeline.arrRef spec3 2) :=
  ((dat3 V c).arrAt_in 2 rfl n).trans (A_eq3 V c 2)

/-- At the exit: the windows' holdings at their final contents are the four buffers held whole — mu and mu_a as they
    were found, the two results at what the write-backs left — for any valuation W that says so. -/
theorem hjoin3 (c : Dev nD) (W : (b : Ref sig .tc) → Buf (Elt F) ((c : Thread nD τ).loc b))
    (h7 : W main_v7 = V c main_v7) (h31 : W main_v3_1 = V c main_v3_1)
    (h90 : W main_v9_0 = (dat3 V c).arrAt 3 cfg3.N) (h91 : W main_v9_1 = (dat3 V c).arrAt 4 cfg3.N) :
    ((dat3 V c).arrays ((dat3 V c).arrAt · cfg3.N) : sProp 𝕄)
      ⊢ Pipeline.arrBufs (Ix := Unit) (Name := ℕ) (U := UR sig nD τ) (Lvl := ℕ) spec3 c W := by
  rw [arrBufs3_eq, arrays3_eq, arrAt3_0, arrAt3_1, arrAt3_2, h7, h31, h90, h91]
  iintro ⟨Hl, Hr, H31, H90, H91⟩
  isplitl [Hl Hr]
  · iapply (pointsTo_share (PosShare.mem_left_op_right fullShare)).2
    isplitl [Hl]; · iexact Hl
    iexact Hr
  isplitl [H31]; · iexact H31
  isplitl [H90]; · iexact H90
  iexact H91

end Cert.KernelIdeal.Hand

end
-- ==== Proof.Run.lean ====
/-
  The whole run of the program: @main is three stretches of host operations and four kernel regions,

      host (the three biases as rows) · region 0 · host (the two weight matrices side by side) · region 1 · region 2
        · host (the two column bands) · region 3.

  Between two items every unscoped buffer of the core is held whole at known contents: the launch memory, then
  each host stretch's operations applied, then, after a region, the region's result arrays at what its
  write-backs leave and every other buffer as it was. Each region is entered by splitting its windows' arrays
  out of those buffers and left by putting them back; the generator register and the scoped buffers go through
  each region untouched. The run ends with every unscoped buffer at the last of these contents, from which both
  the frame (no argument is ever written) and the results' values are read.
-/
import proofs.«151409_g7215545057700_cont_sun_m_658_3_alg».proof.Proof.Region0
import proofs.«151409_g7215545057700_cont_sun_m_658_3_alg».proof.Proof.Region1
import proofs.«151409_g7215545057700_cont_sun_m_658_3_alg».proof.Proof.Region2
import proofs.«151409_g7215545057700_cont_sun_m_658_3_alg».proof.Proof.Region3
import proofs.«151409_g7215545057700_cont_sun_m_658_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1, which is region 2's entry. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After region 2. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the third host stretch: region 3's entry. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- After region 3: its two result arrays at what the pipeline leaves, every other buffer as entered (its input
    arrays, one of them read through two windows, are never written). -/
def W7 (c : Dev nD) : Valuation τ sig (Elt F) :=
  Function.update (Function.update (W6 m ρ c) (Proc.devRef .tc main_v9_0) ((dat3 (V6 m ρ) c).arrAt 3 cfg3.N))
    (Proc.devRef .tc main_v9_1) ((dat3 (V6 m ρ) c).arrAt 4 cfg3.N)
abbrev V7 : (c : Dev nD) → (b : Ref sig .tc) → Buf (Elt F) ((c : Thread nD τ).loc b) := fun c b => W7 m ρ c b
theorem W7_v9_1 (c : Dev nD) : W7 m ρ c (Proc.devRef .tc main_v9_1) = (dat3 (V6 m ρ) c).arrAt 4 cfg3.N := by
  unfold W7; exact Function.update_self ..
theorem W7_v9_0 (c : Dev nD) : W7 m ρ c (Proc.devRef .tc main_v9_0) = (dat3 (V6 m ρ) c).arrAt 3 cfg3.N := by
  unfold W7
  rw [Function.update_of_ne (StableHlo.devRef_ne_of_ne (by decide) : (Proc.devRef .tc main_v9_0 : DevRef τ sig) ≠ Proc.devRef .tc main_v9_1)]
  exact Function.update_self ..
theorem W7_of_ne (c : Dev nD) (b : Ref sig .tc) (h : b ∉ ([main_v9_0, main_v9_1] : List (Ref sig .tc))) :
    W7 m ρ c (Proc.devRef .tc b) = W6 m ρ c (Proc.devRef .tc b) := by
  unfold W7
  rw [Function.update_of_ne (StableHlo.devRef_ne_of_ne (List.ne_of_not_mem_cons (List.not_mem_of_not_mem_cons h)) : (Proc.devRef .tc b : DevRef τ sig) ≠ Proc.devRef .tc main_v9_1),
    Function.update_of_ne (StableHlo.devRef_ne_of_ne (List.ne_of_not_mem_cons h) : (Proc.devRef .tc b : DevRef τ sig) ≠ Proc.devRef .tc main_v9_0)]

/-! ## What each item leaves unchanged

A region writes only its result arrays: an array it reads through an input window ends as it began. -/

theorem W2_keep (c : Dev nD) (b : Ref sig .tc) (hb : b ∉ ([main_v3_0, main_v3_1, main_v3_2] : List (Ref sig .tc))) :
    W2 m ρ c (Proc.devRef .tc b) = W1 m ρ c (Proc.devRef .tc b) := by
  by_cases h : ∃ w, Pipeline.arrRef spec0 w = b
  · obtain ⟨w, rfl⟩ := h
    have hin : (cfg0.win w).isOut = false := by revert hb; revert w; decide
    exact (W2_arr m ρ c w).trans (((dat0 (V1 m ρ) c).arrAt_in w hin _).trans (A_eq0 (V1 m ρ) c w))
  · exact W2_of_ne m ρ c b fun w e => h ⟨w, e⟩
theorem W4_keep (c : Dev nD) (b : Ref sig .tc) (hb : b ∉ ([main_v5] : List (Ref sig .tc))) :
    W4 m ρ c (Proc.devRef .tc b) = W3 m ρ c (Proc.devRef .tc b) := by
  by_cases h : ∃ w, Pipeline.arrRef spec1 w = b
  · obtain ⟨w, rfl⟩ := h
    have hin : (cfg1.win w).isOut = false := by revert hb; revert w; decide
    exact (W4_arr m ρ c w).trans (((dat1 (V3 m ρ) c).arrAt_in w hin _).trans (A_eq1 (V3 m ρ) c w))
  · exact W4_of_ne m ρ c b fun w e => h ⟨w, e⟩
theorem W5_keep (c : Dev nD) (b : Ref sig .tc) (hb : b ∉ ([main_v6] : List (Ref sig .tc))) :
    W5 m ρ c (Proc.devRef .tc b) = W4 m ρ c (Proc.devRef .tc b) := by
  by_cases h : ∃ w, Pipeline.arrRef spec2 w = b
  · obtain ⟨w, rfl⟩ := h
    have hin : (cfg2.win w).isOut = false := by revert hb; revert w; decide
    exact (W5_arr m ρ c w).trans (((dat2 (V4 m ρ) c).arrAt_in w hin _).trans (A_eq2 (V4 m ρ) c w))
  · exact W5_of_ne m ρ c b fun w e => h ⟨w, e⟩
theorem W1_keep (c : Dev nD) (b : Ref sig .tc) (hb : b ∉ hostOps0_W) : W1 m ρ c (Proc.devRef .tc b) = W0 m ρ c (Proc.devRef .tc b) :=
  StableHlo.after_of_writes_sub hostOps0 _ hostOps0_writes hb
theorem W3_keep (c : Dev nD) (b : Ref sig .tc) (hb : b ∉ hostOps1_W) : W3 m ρ c (Proc.devRef .tc b) = W2 m ρ c (Proc.devRef .tc b) :=
  StableHlo.after_of_writes_sub hostOps1 _ hostOps1_writes hb
theorem W6_keep (c : Dev nD) (b : Ref sig .tc) (hb : b ∉ hostOps3_W) : W6 m ρ c (Proc.devRef .tc b) = W5 m ρ c (Proc.devRef .tc b) :=
  StableHlo.after_of_writes_sub hostOps3 _ hostOps3_writes hb

/-- A buffer no item writes ends as launched. -/
theorem W7_keep (c : Dev nD) (b : Ref sig .tc) (h0 : b ∉ hostOps0_W) (h1 : b ∉ ([main_v3_0, main_v3_1, main_v3_2] : List (Ref sig .tc)))
    (h2 : b ∉ hostOps1_W) (h3 : b ∉ ([main_v5] : List (Ref sig .tc))) (h4 : b ∉ ([main_v6] : List (Ref sig .tc)))
    (h5 : b ∉ hostOps3_W) (h6 : b ∉ ([main_v9_0, main_v9_1] : List (Ref sig .tc))) :
    W7 m ρ c (Proc.devRef .tc b) = m ((c : Thread nD τ).loc b) :=
  (W7_of_ne m ρ c b h6).trans <| (W6_keep m ρ c b h5).trans <| (W5_keep m ρ c b h4).trans <| (W4_keep m ρ c b h3).trans <|
    (W3_keep m ρ c b h2).trans <| (W2_keep m ρ c b h1).trans <| (W1_keep m ρ c b h0).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at the exit contents; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at the exit contents; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at the exit contents; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- A buffer that is none of region 3's arrays is not one of its two results. -/
theorem not_out3 (b : Ref sig .tc) (hb : b ∉ Finset.univ.image (Pipeline.arrRef spec3)) : b ∉ ([main_v9_0, main_v9_1] : List (Ref sig .tc)) := fun h => hb (by
  simp only [List.mem_cons, List.not_mem_nil, or_false] at h
  rcases h with rfl | rfl
  · exact Finset.mem_image.mpr ⟨3, Finset.mem_univ _, rfl⟩
  · exact Finset.mem_image.mpr ⟨4, Finset.mem_univ _, rfl⟩)

/-- Region 3's entry: the unscoped buffers are the four buffers behind its windows, divided among the windows, and the rest. -/
theorem entry3 (c : Dev nD) :
    (StableHlo.held (c : Thread nD τ) (Pipeline.ucRefs τ sig) (W6 m ρ c) : sProp 𝕄)
      ⊢ iprop((dat3 (V6 m ρ) c).arrays ((dat3 (V6 m ρ) c).arrAt · 0)
          ∗ Pipeline.unscopedRest (Ix := Unit) (Name := ℕ) (U := UR sig nD τ) (Lvl := ℕ) spec3 c (V6 m ρ c)) := by
  rw [← Pipeline.unscopedBufs_held, Pipeline.unscopedBufs_split₀ cfgs 3 winFacts₀3.arr_unscoped c (V6 m ρ c)]
  exact sep_mono (hsplit3 (V6 m ρ) c) .rfl

/-- Region 3's exit: the windows' holdings at their final contents and the rest are the unscoped buffers at the last
    contents. -/
theorem exit3 (c : Dev nD) :
    iprop((dat3 (V6 m ρ) c).arrays ((dat3 (V6 m ρ) c).arrAt · cfg3.N)
        ∗ Pipeline.unscopedRest (Ix := Unit) (Name := ℕ) (U := UR sig nD τ) (Lvl := ℕ) spec3 c (V6 m ρ c))
      ⊢ (StableHlo.held (c : Thread nD τ) (Pipeline.ucRefs τ sig) (W7 m ρ c) : sProp 𝕄) := by
  rw [← Pipeline.unscopedBufs_held, Pipeline.unscopedBufs_split₀ cfgs 3 winFacts₀3.arr_unscoped c (V7 m ρ c)]
  refine sep_mono (hjoin3 (V6 m ρ) c (V7 m ρ c) ?_ ?_ ?_ ?_) (Entails.of_eq ?_)
  · exact W7_of_ne m ρ c main_v7 (by decide)
  · exact W7_of_ne m ρ c main_v3_1 (by decide)
  · exact W7_v9_0 m ρ c
  · exact W7_v9_1 m ρ c
  · unfold Pipeline.unscopedRest
    exact bigSep_congr fun b hb => by
      rw [show V7 m ρ c b = V6 m ρ c b from W7_of_ne m ρ c b (not_out3 b (Finset.mem_sdiff.mp hb).2)]

set_option backward.isDefEq.respectTransparency.types false in
/-- Region 3, the last item: two of its windows read one array, so its arrays are taken out of the unscoped buffers and
    put back by the two lemmas above instead of the library's, which ask for distinct arrays. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    iintro ⟨⟨Hub, Hp, HO⟩, -, -⟩
    ihave H := (entry3 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit3 m ρ c)
        isplitl [Ha]; · iexact Ha
        iexact Hrest
      iexact HY
    unfold Pipeline.Dat.owesAt Pipeline.owesWithin
    icases HO with ⟨%W, -, HO⟩; iexists W; iexact HO

/-! ## @main as segments, and the launch -/

/-- @main's seven items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ) ]
/-- @main is the run of these segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and in every final state each unscoped buffer of each core holds the last contents of the fold
    above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- What the run leaves at an unscoped buffer of the TensorCore. -/
theorem run_at {r : PUnit × MemSt nD τ sig (Elt F)} (h : ∀ c : Dev nD, ∀ b ∈ Pipeline.ucRefs τ sig, r.2.mem (((c : Thread nD τ)).1, b) = W7 m ρ c b)
    (c : Dev nD) (b : Ref sig .tc) (hb : ¬ (Proc.devRef .tc b : DevRef τ sig).isScoped) :
    r.2.mem ((c.tc : Thread nD τ).loc b) = W7 m ρ c (Proc.devRef .tc b) :=
  h c _ (mem_uc b hb)

/-- THE FRAME: every argument array ends as launched — no host operation and no region writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(run_at m ρ h c main_arg0 (by decide)).trans (W7_keep m ρ c main_arg0 (by decide) (by decide) (by decide) (by decide) (by decide) (by decide) (by decide)),
     (run_at m ρ h c main_arg1 (by decide)).trans (W7_keep m ρ c main_arg1 (by decide) (by decide) (by decide) (by decide) (by decide) (by decide) (by decide)),
     (run_at m ρ h c main_arg2 (by decide)).trans (W7_keep m ρ c main_arg2 (by decide) (by decide) (by decide) (by decide) (by decide) (by decide) (by decide)),
     (run_at m ρ h c main_arg3 (by decide)).trans (W7_keep m ρ c main_arg3 (by decide) (by decide) (by decide) (by decide) (by decide) (by decide) (by decide)),
     (run_at m ρ h c main_arg4 (by decide)).trans (W7_keep m ρ c main_arg4 (by decide) (by decide) (by decide) (by decide) (by decide) (by decide) (by decide)),
     (run_at m ρ h c main_arg5 (by decide)).trans (W7_keep m ρ c main_arg5 (by decide) (by decide) (by decide) (by decide) (by decide) (by decide) (by decide)),
     (run_at m ρ h c main_arg6 (by decide)).trans (W7_keep m ρ c main_arg6 (by decide) (by decide) (by decide) (by decide) (by decide) (by decide) (by decide)),
     (run_at m ρ h c main_arg7 (by decide)).trans (W7_keep m ρ c main_arg7 (by decide) (by decide) (by decide) (by decide) (by decide) (by decide) (by decide)),
     (run_at m ρ h c main_arg8 (by decide)).trans (W7_keep m ρ c main_arg8 (by decide) (by decide) (by decide) (by decide) (by decide) (by decide) (by decide)),
     (run_at m ρ h c main_arg9 (by decide)).trans (W7_keep m ρ c main_arg9 (by decide) (by decide) (by decide) (by decide) (by decide) (by decide) (by decide)),
     (run_at m ρ h c main_arg10 (by decide)).trans (W7_keep m ρ c main_arg10 (by decide) (by decide) (by decide) (by decide) (by decide) (by decide) (by decide))⟩)
    (run_all m ρ)

end Cert.KernelIdeal.Hand

end
-- ==== Proof.Spec.lean ====
/-
  THE SPECIFICATION. The computation both programs perform, written as mathematics on arrays of extended reals,
  one stage at a time and index by index. No program is imported here: every stage is a function of arrays
  `(⟨2, ![m, n]⟩ : Shape).Idx → EReal` (rank 2, `m` rows, `n` columns) or `(⟨1, ![n]⟩ : Shape).Idx → EReal` (a vector),
  its sums run over a literal `Fin K`, and its indices are built from their coordinates with `ix2` / `ix1`.

  The network: with node features `x` [10000, 128], adjacency `adj` [10000, 10000] and weights `W1` [128, 32],
  `W2`, `W3` [32, 16],
      xw1    = x · W1                      h1     = max (adj · xw1) 0
      mu     = adj · (h1 · W2)             logvar = adj · (h1 · W3)
  and on the attribute side, with `Wa1` [10000, 32], `ba1` [32], `Wa2`, `Wa3` [32, 16], `ba2`, `ba3` [16],
      ha     = tanh (xᵀ · Wa1 + ba1)       mua    = ha · Wa2 + ba2        logvara = ha · Wa3 + ba3
  and the two inner-product reconstructions
      adjp   = mu · muᵀ                    xp     = mu · muaᵀ.
  Every product is the plain sum of products over the contracted axis in the order of that axis; nothing is
  re-associated, so the statements hold on all extended reals, the infinities included.

  Two laws about columns close the file: the product with two [32, 16] weight arrays set side by side is, on its
  first 16 columns, the product with the first and, on its last 16, the product with the second (the sums are equal
  term by term); and taking a band of columns commutes with a product on the left.
-/
import Idealize.ShloMosaic.PureOps.Ideal
import Idealize.ShloMosaic.Lib.ValueIdx

noncomputable section

open scoped BigOperators

namespace Cert.Spec

open Idealize.ShloMosaic Idealize.ShloMosaic.ValueIdx

/-- An `m` by `n` array of extended reals. -/
abbrev A2 (m n : Nat) : Type := (⟨2, ![m, n]⟩ : Shape).Idx → EReal
/-- A vector of `n` extended reals. -/
abbrev A1 (n : Nat) : Type := (⟨1, ![n]⟩ : Shape).Idx → EReal

/-! ## The stages -/

/-- The plain product: entry `(p, q)` is `Σ k, l (p, k) * r (k, q)`. -/
def mm {m K n : Nat} (l : A2 m K) (r : A2 K n) : A2 m n :=
  fun i => ∑ k : Fin K, l (ix2 (n0 := m) (n1 := K) (i 0) k) * r (ix2 (n0 := K) (n1 := n) k (i 1))
theorem mm_apply {m K n : Nat} (l : A2 m K) (r : A2 K n) (p : Fin m) (q : Fin n) :
    mm l r (ix2 p q) = ∑ k : Fin K, l (ix2 p k) * r (ix2 k q) := rfl

/-- The product contracting the FIRST axis of both operands (`lᵀ · r`): entry `(i, q)` is `Σ n, l (n, i) * r (n, q)`. -/
def mmT0 {N m n : Nat} (l : A2 N m) (r : A2 N n) : A2 m n :=
  fun i => ∑ k : Fin N, l (ix2 (n0 := N) (n1 := m) k (i 0)) * r (ix2 (n0 := N) (n1 := n) k (i 1))
theorem mmT0_apply {N m n : Nat} (l : A2 N m) (r : A2 N n) (p : Fin m) (q : Fin n) :
    mmT0 l r (ix2 p q) = ∑ k : Fin N, l (ix2 k p) * r (ix2 k q) := rfl

/-- The product contracting the SECOND axis of both operands (`l · rᵀ`): entry `(p, q)` is `Σ k, l (p, k) * r (q, k)`. -/
def mmT1 {m n K : Nat} (l : A2 m K) (r : A2 n K) : A2 m n :=
  fun i => ∑ k : Fin K, l (ix2 (n0 := m) (n1 := K) (i 0) k) * r (ix2 (n0 := n) (n1 := K) (i 1) k)
theorem mmT1_apply {m n K : Nat} (l : A2 m K) (r : A2 n K) (p : Fin m) (q : Fin n) :
    mmT1 l r (ix2 p q) = ∑ k : Fin K, l (ix2 p k) * r (ix2 q k) := rfl

/-- The rectifier: entry `i` is `max (a i) 0`. -/
def relu0 {m n : Nat} (a : A2 m n) : A2 m n := fun i => max (a i) 0
theorem relu0_apply {m n : Nat} (a : A2 m n) (i : (⟨2, ![m, n]⟩ : Shape).Idx) : relu0 a i = max (a i) 0 := rfl

/-- A vector added to every row: entry `(p, q)` is `a (p, q) + v q`. -/
def addRow {m n : Nat} (a : A2 m n) (v : A1 n) : A2 m n := fun i => a i + v (ix1 (n := n) (i 1))
theorem addRow_apply {m n : Nat} (a : A2 m n) (v : A1 n) (p : Fin m) (q : Fin n) :
    addRow a v (ix2 p q) = a (ix2 p q) + v (ix1 q) := rfl

/-- The hyperbolic tangent of every entry (on the extended reals: `-1` at `⊥`, `1` at `⊤`). -/
def tanhA {m n : Nat} (a : A2 m n) : A2 m n := fun i => Ideal.tanh (a i)
theorem tanhA_apply {m n : Nat} (a : A2 m n) (i : (⟨2, ![m, n]⟩ : Shape).Idx) : tanhA a i = Ideal.tanh (a i) := rfl

/-- The band of 16 columns of a 32-column array that starts at column `c` (`c = 0` or `c = 16`):
    entry `(p, j)` is `a (p, c + j)`. -/
def cols {m : Nat} (c : Nat) (hc : c + 16 ≤ 32) (a : A2 m 32) : A2 m 16 :=
  fun i => a (ix2 (n0 := m) (n1 := 32) (i 0) ⟨c + (i 1).val, by have := idx2_lt1 i; omega⟩)
theorem cols_apply {m : Nat} (c : Nat) (hc : c + 16 ≤ 32) (a : A2 m 32) (p : Fin m) (j : Fin 16) :
    cols c hc a (ix2 p j) = a (ix2 p ⟨c + j.val, by omega⟩) := rfl

/-- Two 16-column arrays side by side: entry `(p, c)` is `a (p, c)` for `c < 16` and `b (p, c - 16)` otherwise. -/
def concat16 {m : Nat} (a b : A2 m 16) : A2 m 32 :=
  fun i => if h : (i 1).val < 16 then a (ix2 (n0 := m) (n1 := 16) (i 0) ⟨(i 1).val, h⟩)
    else b (ix2 (n0 := m) (n1 := 16) (i 0) ⟨(i 1).val - 16, by have := idx2_lt1 i; omega⟩)
theorem concat16_of_lt {m : Nat} (a b : A2 m 16) (p : Fin m) (c : Fin 32) (h : c.val < 16) :
    concat16 a b (ix2 p c) = a (ix2 p ⟨c.val, h⟩) := dif_pos h
theorem concat16_of_ge {m : Nat} (a b : A2 m 16) (p : Fin m) (c : Fin 32) (h : 16 ≤ c.val) :
    concat16 a b (ix2 p c) = b (ix2 p ⟨c.val - 16, by omega⟩) := dif_neg (by show ¬ c.val < 16; omega)
/-- Column `0 + j` of the pair is column `j` of the first array. -/
theorem concat16_lo {m : Nat} (a b : A2 m 16) (p : Fin m) (j : Fin 16) :
    concat16 a b (ix2 p ⟨0 + j.val, by omega⟩) = a (ix2 p j) := by
  rw [concat16_of_lt a b p ⟨0 + j.val, by omega⟩ (by show 0 + j.val < 16; omega)]
  exact congrArg (fun c => a (ix2 p c)) (Fin.ext (Nat.zero_add _))
/-- Column `16 + j` of the pair is column `j` of the second array. -/
theorem concat16_hi {m : Nat} (a b : A2 m 16) (p : Fin m) (j : Fin 16) :
    concat16 a b (ix2 p ⟨16 + j.val, by omega⟩) = b (ix2 p j) := by
  rw [concat16_of_ge a b p ⟨16 + j.val, by omega⟩ (by show 16 ≤ 16 + j.val; omega)]
  exact congrArg (fun c => b (ix2 p c)) (Fin.ext (Nat.add_sub_cancel_left 16 j.val))

/-! ## The six results, and the stages on the way to them -/

/-- `x · W1`. -/
def xw1 (x : A2 10000 128) (W1 : A2 128 32) : A2 10000 32 := mm x W1
/-- `max (adj · (x · W1)) 0`. -/
def h1 (x : A2 10000 128) (adj : A2 10000 10000) (W1 : A2 128 32) : A2 10000 32 := relu0 (mm adj (xw1 x W1))
/-- `adj · (h1 · W2)`. -/
def mu (x : A2 10000 128) (adj : A2 10000 10000) (W1 : A2 128 32) (W2 : A2 32 16) : A2 10000 16 :=
  mm adj (mm (h1 x adj W1) W2)
/-- `adj · (h1 · W3)`. -/
def logvar (x : A2 10000 128) (adj : A2 10000 10000) (W1 : A2 128 32) (W3 : A2 32 16) : A2 10000 16 :=
  mm adj (mm (h1 x adj W1) W3)
/-- `tanh (xᵀ · Wa1 + ba1)`. -/
def ha (x : A2 10000 128) (Wa1 : A2 10000 32) (ba1 : A1 32) : A2 128 32 := tanhA (addRow (mmT0 x Wa1) ba1)
/-- `ha · Wa2 + ba2`. -/
def mua (x : A2 10000 128) (Wa1 : A2 10000 32) (ba1 : A1 32) (Wa2 : A2 32 16) (ba2 : A1 16) : A2 128 16 :=
  addRow (mm (ha x Wa1 ba1) Wa2) ba2
/-- `ha · Wa3 + ba3`. -/
def logvara (x : A2 10000 128) (Wa1 : A2 10000 32) (ba1 : A1 32) (Wa3 : A2 32 16) (ba3 : A1 16) : A2 128 16 :=
  addRow (mm (ha x Wa1 ba1) Wa3) ba3
/-- `mu · muᵀ`. -/
def adjp (x : A2 10000 128) (adj : A2 10000 10000) (W1 : A2 128 32) (W2 : A2 32 16) : A2 10000 10000 :=
  mmT1 (mu x adj W1 W2) (mu x adj W1 W2)
/-- `mu · muaᵀ`. -/
def xp (x : A2 10000 128) (adj : A2 10000 10000) (W1 : A2 128 32) (W2 : A2 32 16)
    (Wa1 : A2 10000 32) (ba1 : A1 32) (Wa2 : A2 32 16) (ba2 : A1 16) : A2 10000 128 :=
  mmT1 (mu x adj W1 W2) (mua x Wa1 ba1 Wa2 ba2)

/-! ## Two laws about columns -/

/-- The first 16 columns of `h · [W2 | W3]` are `h · W2`: the two sums are equal term by term. -/
theorem cols_mm_concat16_lo {m : Nat} (h : A2 m 32) (W2 W3 : A2 32 16) :
    cols 0 (by decide) (mm h (concat16 W2 W3)) = mm h W2 := by
  funext i
  obtain ⟨p, j, rfl⟩ : ∃ (p : Fin m) (j : Fin 16), i = ix2 p j := ⟨i 0, i 1, eq_ix2 i⟩
  rw [cols_apply, mm_apply, mm_apply]
  refine Finset.sum_congr rfl fun k _ => ?_
  rw [concat16_lo]

/-- The last 16 columns of `h · [W2 | W3]` are `h · W3`: the two sums are equal term by term. -/
theorem cols_mm_concat16_hi {m : Nat} (h : A2 m 32) (W2 W3 : A2 32 16) :
    cols 16 (by decide) (mm h (concat16 W2 W3)) = mm h W3 := by
  funext i
  obtain ⟨p, j, rfl⟩ : ∃ (p : Fin m) (j : Fin 16), i = ix2 p j := ⟨i 0, i 1, eq_ix2 i⟩
  rw [cols_apply, mm_apply, mm_apply]
  refine Finset.sum_congr rfl fun k _ => ?_
  rw [concat16_hi]

/-- A band of columns of a product is the product with that band of the right operand. -/
theorem cols_mm {m K : Nat} (c : Nat) (hc : c + 16 ≤ 32) (l : A2 m K) (z : A2 K 32) :
    cols c hc (mm l z) = mm l (cols c hc z) := by
  funext i
  obtain ⟨p, j, rfl⟩ : ∃ (p : Fin m) (j : Fin 16), i = ix2 p j := ⟨i 0, i 1, eq_ix2 i⟩
  rw [cols_apply, mm_apply, mm_apply]
  refine Finset.sum_congr rfl fun k _ => ?_
  rw [cols_apply]

end Cert.Spec

end
-- ==== Proof.Pay0.lean ====
/-
  The first region's payloads as mathematics. The region computes, from whole arrays, the features times the first
  graph-convolution weights, and the attribute branch: the hidden layer `tanh (xᵀ · Wa1 + ba1)` and, from it, the mean
  and the log-variance `hidden · Wa + ba`. Read at an index on the extended reals, each matrix product is the plain
  sum of products over the contracted axis (its accumulator starts at zero), a bias held as a one-row array and
  broadcast along rows reads its entry of that row, and the hyperbolic tangent and the sums act entry by entry; so
  each payload is the corresponding composition of the specification's stages.
-/
import proofs.«151409_g7215545057700_cont_sun_m_658_3_alg».proof.Proof.Gen.KernelIdeal.Skeleton
import proofs.«151409_g7215545057700_cont_sun_m_658_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx

/-! ## The three matrix products at an index -/

/-- Features times weights, `[10000, 128] · [128, 32]`, at `(p, q)`: the sum over the 128 columns of the left operand. -/
theorem pay0_dot_feat (l : Vec Ideal S10000x128 .f32) (r : Vec Ideal S128x32 .f32) (p : Fin 10000) (q : Fin 32) :
    matmul (F := Ideal) (φ₁ := .f32) (φ₂ := .f32) dot_S10000x128_S128x32_S10000x32_1_0_0_1_n_n none l r (constant (F := Ideal) S10000x32 .f32 0x00000000#32) (ix2 p q)
      = ∑ k : Fin 128, l (ix2 p k) * r (ix2 k q) := by
  refine (Ideal.matmul_constant_zero_apply dot_S10000x128_S128x32_S10000x32_1_0_0_1_n_n none l r (ix2 p q)).trans ?_
  rw [← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx (ix2 p q) ((ValueIdx.contrEquiv1 dot_S10000x128_S128x32_S10000x32_1_0_0_1_n_n 128 rfl rfl).symm k) = ix2 p k := funext fun a => Fin.ext (by
    match a with
    | ⟨0, _⟩ =>
      show (dot_S10000x128_S128x32_S10000x32_1_0_0_1_n_n.lhsIdx (ix2 p q) _ 0).val = p.val
      unfold DotDims.lhsIdx
      rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
      rfl
    | ⟨1, _⟩ => exact (dot_S10000x128_S128x32_S10000x32_1_0_0_1_n_n.lhsIdx_val_of_single rfl _ _).trans hk)
  have er : dot_S10000x128_S128x32_S10000x32_1_0_0_1_n_n.rhsIdx (ix2 p q) ((ValueIdx.contrEquiv1 dot_S10000x128_S128x32_S10000x32_1_0_0_1_n_n 128 rfl rfl).symm k) = ix2 k q := funext fun a => Fin.ext (by
    match a with
    | ⟨0, _⟩ => exact (dot_S10000x128_S128x32_S10000x32_1_0_0_1_n_n.rhsIdx_val_of_single rfl _ _).trans hk
    | ⟨1, _⟩ =>
      show (dot_S10000x128_S128x32_S10000x32_1_0_0_1_n_n.rhsIdx (ix2 p q) _ 1).val = q.val
      unfold DotDims.rhsIdx
      rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
      rfl)
  rw [el, er]

/-- The transposed features times the attribute weights, contracting the 10000 rows of both operands, at `(p, q)`. -/
theorem pay0_dot_attr (l : Vec Ideal S10000x128 .f32) (r : Vec Ideal S10000x32 .f32) (p : Fin 128) (q : Fin 32) :
    matmul (F := Ideal) (φ₁ := .f32) (φ₂ := .f32) dot_S10000x128_S10000x32_S128x32_0_0_1_1_n_n none l r (constant (F := Ideal) S128x32 .f32 0x00000000#32) (ix2 p q)
      = ∑ k : Fin 10000, l (ix2 k p) * r (ix2 k q) := by
  refine (Ideal.matmul_constant_zero_apply dot_S10000x128_S10000x32_S128x32_0_0_1_1_n_n none l r (ix2 p q)).trans ?_
  rw [← Equiv.sum_comp (ValueIdx.contrEquiv1 dot_S10000x128_S10000x32_S128x32_0_0_1_1_n_n 10000 rfl rfl).symm]
  refine Finset.sum_congr rfl fun k _ => ?_
  have hk := ValueIdx.contrEquiv1_symm_val dot_S10000x128_S10000x32_S128x32_0_0_1_1_n_n 10000 rfl rfl k
  have el : dot_S10000x128_S10000x32_S128x32_0_0_1_1_n_n.lhsIdx (ix2 p q) ((ValueIdx.contrEquiv1 dot_S10000x128_S10000x32_S128x32_0_0_1_1_n_n 10000 rfl rfl).symm k) = ix2 k p := funext fun a => Fin.ext (by
    match a with
    | ⟨0, _⟩ => exact (dot_S10000x128_S10000x32_S128x32_0_0_1_1_n_n.lhsIdx_val_of_single rfl _ _).trans hk
    | ⟨1, _⟩ =>
      show (dot_S10000x128_S10000x32_S128x32_0_0_1_1_n_n.lhsIdx (ix2 p q) _ 1).val = p.val
      unfold DotDims.lhsIdx
      rw [dif_neg (show ¬(1 : Fin S10000x128.rank) ∈ dot_S10000x128_S10000x32_S128x32_0_0_1_1_n_n.lhsBatch by decide), dif_pos (show (1 : Fin S10000x128.rank) ∈ dot_S10000x128_S10000x32_S128x32_0_0_1_1_n_n.lhsNonContracting by decide)]
      rfl)
  have er : dot_S10000x128_S10000x32_S128x32_0_0_1_1_n_n.rhsIdx (ix2 p q) ((ValueIdx.contrEquiv1 dot_S10000x128_S10000x32_S128x32_0_0_1_1_n_n 10000 rfl rfl).symm k) = ix2 k q := funext fun a => Fin.ext (by
    match a with
    | ⟨0, _⟩ => exact (dot_S10000x128_S10000x32_S128x32_0_0_1_1_n_n.rhsIdx_val_of_single rfl _ _).trans hk
    | ⟨1, _⟩ =>
      show (dot_S10000x128_S10000x32_S128x32_0_0_1_1_n_n.rhsIdx (ix2 p q) _ 1).val = q.val
      unfold DotDims.rhsIdx
      rw [dif_neg (show ¬(1 : Fin S10000x32.rank) ∈ dot_S10000x128_S10000x32_S128x32_0_0_1_1_n_n.rhsBatch by decide), dif_pos (show (1 : Fin S10000x32.rank) ∈ dot_S10000x128_S10000x32_S128x32_0_0_1_1_n_n.rhsNonContracting by decide)]
      rfl)
  rw [el, er]

/-- The hidden layer times a `[32, 16]` weight array at `(p, q)`: the sum over the 32 hidden units. -/
theorem pay0_dot_hidden (l : Vec Ideal S128x32 .f32) (r : Vec Ideal S32x16 .f32) (p : Fin 128) (q : Fin 16) :
    matmul (F := Ideal) (φ₁ := .f32) (φ₂ := .f32) dot_S128x32_S32x16_S128x16_1_0_0_1_n_n none l r (constant (F := Ideal) S128x16 .f32 0x00000000#32) (ix2 p q)
      = ∑ k : Fin 32, l (ix2 p k) * r (ix2 k q) := by
  refine (Ideal.matmul_constant_zero_apply dot_S128x32_S32x16_S128x16_1_0_0_1_n_n none l r (ix2 p q)).trans ?_
  rw [← Equiv.sum_comp (ValueIdx.contrEquiv1 dot_S128x32_S32x16_S128x16_1_0_0_1_n_n 32 rfl rfl).symm]
  refine Finset.sum_congr rfl fun k _ => ?_
  have hk := ValueIdx.contrEquiv1_symm_val dot_S128x32_S32x16_S128x16_1_0_0_1_n_n 32 rfl rfl k
  have el : dot_S128x32_S32x16_S128x16_1_0_0_1_n_n.lhsIdx (ix2 p q) ((ValueIdx.contrEquiv1 dot_S128x32_S32x16_S128x16_1_0_0_1_n_n 32 rfl rfl).symm k) = ix2 p k := funext fun a => Fin.ext (by
    match a with
    | ⟨0, _⟩ =>
      show (dot_S128x32_S32x16_S128x16_1_0_0_1_n_n.lhsIdx (ix2 p q) _ 0).val = p.val
      unfold DotDims.lhsIdx
      rw [dif_neg (show ¬(0 : Fin S128x32.rank) ∈ dot_S128x32_S32x16_S128x16_1_0_0_1_n_n.lhsBatch by decide), dif_pos (show (0 : Fin S128x32.rank) ∈ dot_S128x32_S32x16_S128x16_1_0_0_1_n_n.lhsNonContracting by decide)]
      rfl
    | ⟨1, _⟩ => exact (dot_S128x32_S32x16_S128x16_1_0_0_1_n_n.lhsIdx_val_of_single rfl _ _).trans hk)
  have er : dot_S128x32_S32x16_S128x16_1_0_0_1_n_n.rhsIdx (ix2 p q) ((ValueIdx.contrEquiv1 dot_S128x32_S32x16_S128x16_1_0_0_1_n_n 32 rfl rfl).symm k) = ix2 k q := funext fun a => Fin.ext (by
    match a with
    | ⟨0, _⟩ => exact (dot_S128x32_S32x16_S128x16_1_0_0_1_n_n.rhsIdx_val_of_single rfl _ _).trans hk
    | ⟨1, _⟩ =>
      show (dot_S128x32_S32x16_S128x16_1_0_0_1_n_n.rhsIdx (ix2 p q) _ 1).val = q.val
      unfold DotDims.rhsIdx
      rw [dif_neg (show ¬(1 : Fin S32x16.rank) ∈ dot_S128x32_S32x16_S128x16_1_0_0_1_n_n.rhsBatch by decide), dif_pos (show (1 : Fin S32x16.rank) ∈ dot_S128x32_S32x16_S128x16_1_0_0_1_n_n.rhsNonContracting by decide)]
      rfl)
  rw [el, er]

/-! ## The payloads -/

/-- The first payload is the plain product of the features and the weights. -/
theorem pay0_1_eq (x0 : Vec Ideal S10000x128 .f32) (x1 : Vec Ideal S128x32 .f32) :
    k0_pay1 (F := Ideal) x0 x1 = Cert.Spec.mm (m := 10000) (K := 128) (n := 32) x0 x1 := by
  funext i
  obtain ⟨p, q, rfl⟩ : ∃ (p : Fin 10000) (q : Fin 32), i = ix2 p q := ⟨i 0, i 1, eq_ix2 i⟩
  rw [Spec.mm_apply]
  unfold k0_pay1
  exact pay0_dot_feat x0 x1 p q

/-- The hidden layer: `tanh (xᵀ · Wa1 + ba1)`, the bias a one-row array read at its row `0`. -/
theorem pay0_2_eq (x0 : Vec Ideal S10000x128 .f32) (x4 : Vec Ideal S10000x32 .f32) (x6 : Vec Ideal S1x32 .f32) :
    k0_pay2 (F := Ideal) x0 x4 x6
      = Cert.Spec.tanhA (Cert.Spec.addRow (Cert.Spec.mmT0 (N := 10000) (m := 128) (n := 32) x0 x4)
          (fun i => x6 (ix2 (n0 := 1) (n1 := 32) 0 (i 0)))) := by
  funext i
  obtain ⟨p, q, rfl⟩ : ∃ (p : Fin 128) (q : Fin 32), i = ix2 p q := ⟨i 0, i 1, eq_ix2 i⟩
  unfold k0_pay2
  simp only [shapeCast_self]
  show Ideal.tanh (matmul (F := Ideal) (φ₁ := .f32) (φ₂ := .f32) dot_S10000x128_S10000x32_S128x32_0_0_1_1_n_n none x0 x4 (constant (F := Ideal) S128x32 .f32 0x00000000#32) (ix2 p q)
        + broadcastTo S128x32 x6 broadcasts_S1x32_S128x32 (ix2 p q))
      = Ideal.tanh ((∑ k : Fin 10000, x0 (ix2 k p) * x4 (ix2 k q)) + x6 (ix2 (n0 := 1) (n1 := 32) 0 q))
  exact congrArg Ideal.tanh (congrArg₂ (· + ·) (pay0_dot_attr x0 x4 p q)
    (broadcastTo_apply x6 broadcasts_S1x32_S128x32 (ix2 p q) (ix2 (n0 := 1) (n1 := 32) 0 q) (fun a => match a with
      | ⟨0, _⟩ => by show (0 : Nat) = if (1 : Nat) = 1 then 0 else p.val; rw [if_pos rfl]
      | ⟨1, _⟩ => by show q.val = if (32 : Nat) = 1 then 0 else q.val; rw [if_neg (by decide)])))

/-- The payload of the attribute branch's mean: the hidden layer times the weights, plus the bias along rows. -/
theorem pay0_3_eq (x0 : Vec Ideal S10000x128 .f32) (x4 : Vec Ideal S10000x32 .f32) (x6 : Vec Ideal S1x32 .f32)
    (x11 : Vec Ideal S32x16 .f32) (x13 : Vec Ideal S1x16 .f32) :
    k0_pay3 (F := Ideal) x0 x4 x6 x11 x13
      = Cert.Spec.addRow (Cert.Spec.mm (m := 128) (K := 32) (n := 16) (k0_pay2 (F := Ideal) x0 x4 x6) x11)
          (fun i => x13 (ix2 (n0 := 1) (n1 := 16) 0 (i 0))) := by
  funext i
  obtain ⟨p, q, rfl⟩ : ∃ (p : Fin 128) (q : Fin 16), i = ix2 p q := ⟨i 0, i 1, eq_ix2 i⟩
  unfold k0_pay3
  simp only [shapeCast_self]
  show matmul (F := Ideal) (φ₁ := .f32) (φ₂ := .f32) dot_S128x32_S32x16_S128x16_1_0_0_1_n_n none (k0_pay2 (F := Ideal) x0 x4 x6) x11 (constant (F := Ideal) S128x16 .f32 0x00000000#32) (ix2 p q)
        + broadcastTo S128x16 x13 broadcasts_S1x16_S128x16 (ix2 p q)
      = (∑ k : Fin 32, k0_pay2 (F := Ideal) x0 x4 x6 (ix2 p k) * x11 (ix2 k q)) + x13 (ix2 (n0 := 1) (n1 := 16) 0 q)
  exact congrArg₂ (· + ·) (pay0_dot_hidden _ x11 p q)
    (broadcastTo_apply x13 broadcasts_S1x16_S128x16 (ix2 p q) (ix2 (n0 := 1) (n1 := 16) 0 q) (fun a => match a with
      | ⟨0, _⟩ => by show (0 : Nat) = if (1 : Nat) = 1 then 0 else p.val; rw [if_pos rfl]
      | ⟨1, _⟩ => by show q.val = if (16 : Nat) = 1 then 0 else q.val; rw [if_neg (by decide)]))

/-- The same with the hidden layer written out. -/
theorem pay0_3_spec (x0 : Vec Ideal S10000x128 .f32) (x4 : Vec Ideal S10000x32 .f32) (x6 : Vec Ideal S1x32 .f32)
    (x11 : Vec Ideal S32x16 .f32) (x13 : Vec Ideal S1x16 .f32) :
    k0_pay3 (F := Ideal) x0 x4 x6 x11 x13
      = Cert.Spec.addRow (Cert.Spec.mm (m := 128) (K := 32) (n := 16)
          (Cert.Spec.tanhA (Cert.Spec.addRow (Cert.Spec.mmT0 (N := 10000) (m := 128) (n := 32) x0 x4)
            (fun i => x6 (ix2 (n0 := 1) (n1 := 32) 0 (i 0))))) x11)
          (fun i => x13 (ix2 (n0 := 1) (n1 := 16) 0 (i 0))) := by
  rw [pay0_3_eq, pay0_2_eq]

/-- The payload of the attribute branch's log-variance: the hidden layer times the weights, plus the bias along rows. -/
theorem pay0_4_eq (x0 : Vec Ideal S10000x128 .f32) (x4 : Vec Ideal S10000x32 .f32) (x6 : Vec Ideal S1x32 .f32)
    (x18 : Vec Ideal S32x16 .f32) (x20 : Vec Ideal S1x16 .f32) :
    k0_pay4 (F := Ideal) x0 x4 x6 x18 x20
      = Cert.Spec.addRow (Cert.Spec.mm (m := 128) (K := 32) (n := 16) (k0_pay2 (F := Ideal) x0 x4 x6) x18)
          (fun i => x20 (ix2 (n0 := 1) (n1 := 16) 0 (i 0))) := by
  funext i
  obtain ⟨p, q, rfl⟩ : ∃ (p : Fin 128) (q : Fin 16), i = ix2 p q := ⟨i 0, i 1, eq_ix2 i⟩
  unfold k0_pay4
  simp only [shapeCast_self]
  show matmul (F := Ideal) (φ₁ := .f32) (φ₂ := .f32) dot_S128x32_S32x16_S128x16_1_0_0_1_n_n none (k0_pay2 (F := Ideal) x0 x4 x6) x18 (constant (F := Ideal) S128x16 .f32 0x00000000#32) (ix2 p q)
        + broadcastTo S128x16 x20 broadcasts_S1x16_S128x16 (ix2 p q)
      = (∑ k : Fin 32, k0_pay2 (F := Ideal) x0 x4 x6 (ix2 p k) * x18 (ix2 k q)) + x20 (ix2 (n0 := 1) (n1 := 16) 0 q)
  exact congrArg₂ (· + ·) (pay0_dot_hidden _ x18 p q)
    (broadcastTo_apply x20 broadcasts_S1x16_S128x16 (ix2 p q) (ix2 (n0 := 1) (n1 := 16) 0 q) (fun a => match a with
      | ⟨0, _⟩ => by show (0 : Nat) = if (1 : Nat) = 1 then 0 else p.val; rw [if_pos rfl]
      | ⟨1, _⟩ => by show q.val = if (16 : Nat) = 1 then 0 else q.val; rw [if_neg (by decide)]))

/-- The same with the hidden layer written out. -/
theorem pay0_4_spec (x0 : Vec Ideal S10000x128 .f32) (x4 : Vec Ideal S10000x32 .f32) (x6 : Vec Ideal S1x32 .f32)
    (x18 : Vec Ideal S32x16 .f32) (x20 : Vec Ideal S1x16 .f32) :
    k0_pay4 (F := Ideal) x0 x4 x6 x18 x20
      = Cert.Spec.addRow (Cert.Spec.mm (m := 128) (K := 32) (n := 16)
          (Cert.Spec.tanhA (Cert.Spec.addRow (Cert.Spec.mmT0 (N := 10000) (m := 128) (n := 32) x0 x4)
            (fun i => x6 (ix2 (n0 := 1) (n1 := 32) 0 (i 0))))) x18)
          (fun i => x20 (ix2 (n0 := 1) (n1 := 16) 0 (i 0))) := by
  rw [pay0_4_eq, pay0_2_eq]

end Cert.KernelIdeal.Hand

end
-- ==== Proof.Final0.lean ====
/- Region 0, read as mathematics at the ideal values: after its one point the three result arrays hold the product of
   the node features with the first graph-convolution weights, and the attribute branch's mean and log-variance
   `tanh (xᵀ · Wa1 + ba1) · Wa + ba`.

   Every window of the region is its whole array and there is one grid point, so the steps are short. Each block the
   body reads is the whole of its array as the region finds it. The body's one store to each result buffer is of the
   whole buffer, so the buffer ends at the payload of the arrays. What the point writes back, read through the
   window's block, is that payload; the block covers the array; so the array ends holding the payload, which is the
   specification's composition of stages. -/
import proofs.«151409_g7215545057700_cont_sun_m_658_3_alg».proof.Proof.Region0
import proofs.«151409_g7215545057700_cont_sun_m_658_3_alg».proof.Proof.Spec
import proofs.«151409_g7215545057700_cont_sun_m_658_3_alg».proof.Proof.Pay0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx
open Idealize.ShloMosaic.Pipeline (Dat)

/-! ## A bias row as a vector -/

/-- The one row of a `[1, n]` array, as a vector of `n` entries. -/
def rowOf {n : Nat} (r : Cert.Spec.A2 1 n) : Cert.Spec.A1 n := fun i => r (ix2 (n0 := 1) (n1 := n) 0 (i 0))
theorem rowOf_apply {n : Nat} (r : Cert.Spec.A2 1 n) (q : Fin n) : rowOf r (ix1 q) = r (ix2 0 q) := rfl

/-! ## Whole-buffer accesses -/

/-- The two zero offsets of a whole-buffer access, as the constant function. -/
theorem f0_zero_off : (![0, 0] : Fin 2 → Nat) = fun _ => 0 := funext fun a => by fin_cases a <;> rfl

section AnyInstance
variable {F : FTy → Type} [FloatOps F]

/-- One store of a whole buffer, of a payload computed from whole-buffer loads, leaves the payload of the buffers'
    contents. -/
theorem f0_out8_eq (x0 : Vec F S10000x128 .f32) (x1 : Vec F S128x32 .f32) : out0_8 x0 x1 = k0_pay1 x0 x1 := by
  unfold out0_8
  rw [View.canon_unit_zero f0_zero_off]
  simp only [View.ld_unit_zero (S := S10000x128) f0_zero_off, View.ld_unit_zero (S := S128x32) f0_zero_off]
theorem f0_out9_eq (x0 : Vec F S10000x128 .f32) (x2 : Vec F S10000x32 .f32) (x3 : Vec F S1x32 .f32) (x4 : Vec F S32x16 .f32) (x5 : Vec F S1x16 .f32) :
    out0_9 x0 x2 x3 x4 x5 = k0_pay3 x0 x2 x3 x4 x5 := by
  unfold out0_9
  rw [View.canon_unit_zero f0_zero_off]
  simp only [View.ld_unit_zero (S := S10000x128) f0_zero_off, View.ld_unit_zero (S := S10000x32) f0_zero_off,
    View.ld_unit_zero (S := S1x32) f0_zero_off, View.ld_unit_zero (S := S32x16) f0_zero_off, View.ld_unit_zero (S := S1x16) f0_zero_off]
theorem f0_out10_eq (x0 : Vec F S10000x128 .f32) (x2 : Vec F S10000x32 .f32) (x3 : Vec F S1x32 .f32) (x6 : Vec F S32x16 .f32) (x7 : Vec F S1x16 .f32) :
    out0_10 x0 x2 x3 x6 x7 = k0_pay4 x0 x2 x3 x6 x7 := by
  unfold out0_10
  rw [View.canon_unit_zero f0_zero_off]
  simp only [View.ld_unit_zero (S := S10000x128) f0_zero_off, View.ld_unit_zero (S := S10000x32) f0_zero_off,
    View.ld_unit_zero (S := S1x32) f0_zero_off, View.ld_unit_zero (S := S32x16) f0_zero_off, View.ld_unit_zero (S := S1x16) f0_zero_off]

variable (V : (c : Dev nD) → (b : Ref sig .tc) → Buf (Elt F) ((c : Thread nD τ).loc b))

/-! ## Every block of region 0 is its whole array -/

/-- Window 0's block at the point is the whole of its array: the block index is zero on both axes and the block has
    the array's extents. -/
theorem f0_iblk0 (c : Dev nD) (t : Fin cfg0.N) : (iblk0 V c 0 t : Vec F S10000x128 .f32) = V c main_arg0 := by
  have hz : (fun a => win0_0.index t a * main_arg0.ty.shape.size a) = fun _ => 0 := funext fun a => Nat.zero_mul _
  exact Memref.read_access_unit_zero (Elt F) main_arg0 hz (fun a => by rw [congrFun hz a]; simp) (V c main_arg0)
/-- Window 1's block at the point is the whole of its array: the block index is zero on both axes and the block has
    the array's extents. -/
theorem f0_iblk1 (c : Dev nD) (t : Fin cfg0.N) : (iblk0 V c 1 t : Vec F S128x32 .f32) = V c main_arg2 := by
  have hz : (fun a => win0_1.index t a * main_arg2.ty.shape.size a) = fun _ => 0 := funext fun a => Nat.zero_mul _
  exact Memref.read_access_unit_zero (Elt F) main_arg2 hz (fun a => by rw [congrFun hz a]; simp) (V c main_arg2)
/-- Window 2's block at the point is the whole of its array: the block index is zero on both axes and the block has
    the array's extents. -/
theorem f0_iblk2 (c : Dev nD) (t : Fin cfg0.N) : (iblk0 V c 2 t : Vec F S10000x32 .f32) = V c main_arg5 := by
  have hz : (fun a => win0_2.index t a * main_arg5.ty.shape.size a) = fun _ => 0 := funext fun a => Nat.zero_mul _
  exact Memref.read_access_unit_zero (Elt F) main_arg5 hz (fun a => by rw [congrFun hz a]; simp) (V c main_arg5)
/-- Window 3's block at the point is the whole of its array: the block index is zero on both axes and the block has
    the array's extents. -/
theorem f0_iblk3 (c : Dev nD) (t : Fin cfg0.N) : (iblk0 V c 3 t : Vec F S1x32 .f32) = V c main_v0 := by
  have hz : (fun a => win0_3.index t a * main_v0.ty.shape.size a) = fun _ => 0 := funext fun a => Nat.zero_mul _
  exact Memref.read_access_unit_zero (Elt F) main_v0 hz (fun a => by rw [congrFun hz a]; simp) (V c main_v0)
/-- Window 4's block at the point is the whole of its array: the block index is zero on both axes and the block has
    the array's extents. -/
theorem f0_iblk4 (c : Dev nD) (t : Fin cfg0.N) : (iblk0 V c 4 t : Vec F S32x16 .f32) = V c main_arg7 := by
  have hz : (fun a => win0_4.index t a * main_arg7.ty.shape.size a) = fun _ => 0 := funext fun a => Nat.zero_mul _
  exact Memref.read_access_unit_zero (Elt F) main_arg7 hz (fun a => by rw [congrFun hz a]; simp) (V c main_arg7)
/-- Window 5's block at the point is the whole of its array: the block index is zero on both axes and the block has
    the array's extents. -/
theorem f0_iblk5 (c : Dev nD) (t : Fin cfg0.N) : (iblk0 V c 5 t : Vec F S1x16 .f32) = V c main_v1 := by
  have hz : (fun a => win0_5.index t a * main_v1.ty.shape.size a) = fun _ => 0 := funext fun a => Nat.zero_mul _
  exact Memref.read_access_unit_zero (Elt F) main_v1 hz (fun a => by rw [congrFun hz a]; simp) (V c main_v1)
/-- Window 6's block at the point is the whole of its array: the block index is zero on both axes and the block has
    the array's extents. -/
theorem f0_iblk6 (c : Dev nD) (t : Fin cfg0.N) : (iblk0 V c 6 t : Vec F S32x16 .f32) = V c main_arg9 := by
  have hz : (fun a => win0_6.index t a * main_arg9.ty.shape.size a) = fun _ => 0 := funext fun a => Nat.zero_mul _
  exact Memref.read_access_unit_zero (Elt F) main_arg9 hz (fun a => by rw [congrFun hz a]; simp) (V c main_arg9)
/-- Window 7's block at the point is the whole of its array: the block index is zero on both axes and the block has
    the array's extents. -/
theorem f0_iblk7 (c : Dev nD) (t : Fin cfg0.N) : (iblk0 V c 7 t : Vec F S1x16 .f32) = V c main_v2 := by
  have hz : (fun a => win0_7.index t a * main_v2.ty.shape.size a) = fun _ => 0 := funext fun a => Nat.zero_mul _
  exact Memref.read_access_unit_zero (Elt F) main_v2 hz (fun a => by rw [congrFun hz a]; simp) (V c main_v2)

/-- Read through window 8's block at the point, contents of its array are read whole. -/
theorem f0_blk8_read (t : Fin cfg0.N) (c : Dev nD) (X : Buf (Elt F) ((c : Thread nD τ).loc main_v3_0)) :
    ((cfg0.win 8).blk t).view.read (Elt F) X = X := by
  have hz : (fun a => win0_8.index t a * main_v3_0.ty.shape.size a) = fun _ => 0 := funext fun a => Nat.zero_mul _
  exact Memref.read_access_unit_zero (Elt F) main_v3_0 hz (fun a => by rw [congrFun hz a]; simp) X
/-- and every index of the array lies in that block. -/
theorem f0_blk8_mem (t : Fin cfg0.N) (i : S10000x32.Idx) : i ∈ ((cfg0.win 8).blk t).view.set := by
  show i ∈ ((View.whole main_v3_0).slice (win0_8.rect t)).set
  rw [View.set_slice_whole]
  have hz : (fun a => win0_8.index t a * main_v3_0.ty.shape.size a) = fun _ => 0 := funext fun a => Nat.zero_mul _
  exact View.mem_set_unit_zero (S := S10000x32) hz _ i
/-- Read through window 9's block at the point, contents of its array are read whole. -/
theorem f0_blk9_read (t : Fin cfg0.N) (c : Dev nD) (X : Buf (Elt F) ((c : Thread nD τ).loc main_v3_1)) :
    ((cfg0.win 9).blk t).view.read (Elt F) X = X := by
  have hz : (fun a => win0_9.index t a * main_v3_1.ty.shape.size a) = fun _ => 0 := funext fun a => Nat.zero_mul _
  exact Memref.read_access_unit_zero (Elt F) main_v3_1 hz (fun a => by rw [congrFun hz a]; simp) X
/-- and every index of the array lies in that block. -/
theorem f0_blk9_mem (t : Fin cfg0.N) (i : S128x16.Idx) : i ∈ ((cfg0.win 9).blk t).view.set := by
  show i ∈ ((View.whole main_v3_1).slice (win0_9.rect t)).set
  rw [View.set_slice_whole]
  have hz : (fun a => win0_9.index t a * main_v3_1.ty.shape.size a) = fun _ => 0 := funext fun a => Nat.zero_mul _
  exact View.mem_set_unit_zero (S := S128x16) hz _ i
/-- Read through window 10's block at the point, contents of its array are read whole. -/
theorem f0_blk10_read (t : Fin cfg0.N) (c : Dev nD) (X : Buf (Elt F) ((c : Thread nD τ).loc main_v3_2)) :
    ((cfg0.win 10).blk t).view.read (Elt F) X = X := by
  have hz : (fun a => win0_10.index t a * main_v3_2.ty.shape.size a) = fun _ => 0 := funext fun a => Nat.zero_mul _
  exact Memref.read_access_unit_zero (Elt F) main_v3_2 hz (fun a => by rw [congrFun hz a]; simp) X
/-- and every index of the array lies in that block. -/
theorem f0_blk10_mem (t : Fin cfg0.N) (i : S128x16.Idx) : i ∈ ((cfg0.win 10).blk t).view.set := by
  show i ∈ ((View.whole main_v3_2).slice (win0_10.rect t)).set
  rw [View.set_slice_whole]
  have hz : (fun a => win0_10.index t a * main_v3_2.ty.shape.size a) = fun _ => 0 := funext fun a => Nat.zero_mul _
  exact View.mem_set_unit_zero (S := S128x16) hz _ i

end AnyInstance

/-! ## What the region leaves in its three result arrays, at the ideal values -/

section AtIdeal
variable (V : (c : Dev nD) → (b : Ref sig .tc) → Buf (Elt Ideal) ((c : Thread nD τ).loc b))

/-- What the one point writes back to window 8 is the plain product of the features and the graph-convolution
    weights, read through the window's block. -/
theorem f0_flushed8 (c : Dev nD) (t : Fin cfg0.N) :
    (dat0 V c).flushed 8 t = ((cfg0.win 8).blk t).view.read (Elt Ideal) (Cert.Spec.mm (V c main_arg0) (V c main_arg2)) := by
  rw [f0_blk8_read t c]
  show (cfg0.win 8).cut (grid0.coords t) ((dat0 V c).after 8 t) = _
  rw [after0_8, f0_iblk0, f0_iblk1, f0_out8_eq, pay0_1_eq]
  rfl

/-- The first result array of region 0 ends holding `x · W`. -/
theorem final0_8 (c : Dev nD) : (dat0 V c).arrAt 8 cfg0.N = Cert.Spec.mm (V c main_arg0) (V c main_arg2) :=
  (dat0 V c).arrAt_eq_of_cover 8 _ (fun t _ => f0_flushed8 V c t) fun i => ⟨t0_0, flush0_8 t0_0, f0_blk8_mem t0_0 i⟩

/-- What the one point writes back to window 9 is `tanh (xᵀ · Wa1 + ba1) · Wa2 + ba2`, read through the window's block. -/
theorem f0_flushed9 (c : Dev nD) (t : Fin cfg0.N) :
    (dat0 V c).flushed 9 t = ((cfg0.win 9).blk t).view.read (Elt Ideal)
      (Cert.Spec.addRow (Cert.Spec.mm (Cert.Spec.tanhA (Cert.Spec.addRow (Cert.Spec.mmT0 (V c main_arg0) (V c main_arg5)) (rowOf (V c main_v0)))) (V c main_arg7)) (rowOf (V c main_v1))) := by
  rw [f0_blk9_read t c]
  show (cfg0.win 9).cut (grid0.coords t) ((dat0 V c).after 9 t) = _
  rw [after0_9, f0_iblk0, f0_iblk2, f0_iblk3, f0_iblk4, f0_iblk5, f0_out9_eq, pay0_3_eq, pay0_2_eq]
  rfl

/-- The second result array of region 0 ends holding the attribute branch's mean. -/
theorem final0_9 (c : Dev nD) : (dat0 V c).arrAt 9 cfg0.N
    = Cert.Spec.addRow (Cert.Spec.mm (Cert.Spec.tanhA (Cert.Spec.addRow (Cert.Spec.mmT0 (V c main_arg0) (V c main_arg5)) (rowOf (V c main_v0)))) (V c main_arg7)) (rowOf (V c main_v1)) :=
  (dat0 V c).arrAt_eq_of_cover 9 _ (fun t _ => f0_flushed9 V c t) fun i => ⟨t0_0, flush0_9 t0_0, f0_blk9_mem t0_0 i⟩

/-- What the one point writes back to window 10 is `tanh (xᵀ · Wa1 + ba1) · Wa3 + ba3`, read through the window's block. -/
theorem f0_flushed10 (c : Dev nD) (t : Fin cfg0.N) :
    (dat0 V c).flushed 10 t = ((cfg0.win 10).blk t).view.read (Elt Ideal)
      (Cert.Spec.addRow (Cert.Spec.mm (Cert.Spec.tanhA (Cert.Spec.addRow (Cert.Spec.mmT0 (V c main_arg0) (V c main_arg5)) (rowOf (V c main_v0)))) (V c main_arg9)) (rowOf (V c main_v2))) := by
  rw [f0_blk10_read t c]
  show (cfg0.win 10).cut (grid0.coords t) ((dat0 V c).after 10 t) = _
  rw [after0_10, f0_iblk0, f0_iblk2, f0_iblk3, f0_iblk6, f0_iblk7, f0_out10_eq, pay0_4_eq, pay0_2_eq]
  rfl

/-- The third result array of region 0 ends holding the attribute branch's log-variance. -/
theorem final0_10 (c : Dev nD) : (dat0 V c).arrAt 10 cfg0.N
    = Cert.Spec.addRow (Cert.Spec.mm (Cert.Spec.tanhA (Cert.Spec.addRow (Cert.Spec.mmT0 (V c main_arg0) (V c main_arg5)) (rowOf (V c main_v0)))) (V c main_arg9)) (rowOf (V c main_v2)) :=
  (dat0 V c).arrAt_eq_of_cover 10 _ (fun t _ => f0_flushed10 V c t) fun i => ⟨t0_0, flush0_10 t0_0, f0_blk10_mem t0_0 i⟩

end AtIdeal

end Cert.KernelIdeal.Hand

end
-- ==== Proof.Final1.lean ====
/- Region 1, read as mathematics at the ideal values: after its 25 points the result array is
   `max (adj · xw) 0 · w`, for the adjacency matrix `adj`, the [10000,32] matrix `xw` and the [32,32] matrix `w` the
   region was given.

   Three steps. At one entry the body's payload is `Σ j, max (Σ k, x0 (p, k) * x1 (k, j)) 0 * x2 (j, q)`: two sums of
   products along the contracted axes with the rectifier between them. At grid point `t` the adjacency block is rows
   `400 t … 400 t + 399` of the adjacency matrix and the other two blocks are their whole matrices, so what the point
   writes back is rows `400 t … 400 t + 399` of the result. Row `r` lies in the block of point `r / 400`, so the 25
   blocks cover the array. -/
import proofs.«151409_g7215545057700_cont_sun_m_658_3_alg».proof.Proof.Region1
import proofs.«151409_g7215545057700_cont_sun_m_658_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx
open Idealize.ShloMosaic.Pipeline (Dat)

/-! ## The payload at an entry -/

/-- The two zero offsets of a whole-buffer access, as the constant function. -/
theorem hz1 : (![0, 0] : Fin 2 → Nat) = fun _ => 0 := funext fun a => by fin_cases a <;> rfl

theorem dot1a_lhs0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem dot1a_lhs1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem dot1a_rhs0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem dot1a_rhs1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

theorem dot1b_lhs0 (i : S400x32.Idx) (q : dot_S400x32_S32x32_S400x32_1_0_0_1_n_n.contr.Idx) :
    (dot_S400x32_S32x32_S400x32_1_0_0_1_n_n.lhsIdx i q 0).val = (i 0).val := by
  unfold DotDims.lhsIdx
  rw [dif_neg (show ¬(0 : Fin S400x32.rank) ∈ dot_S400x32_S32x32_S400x32_1_0_0_1_n_n.lhsBatch by decide), dif_pos (show (0 : Fin S400x32.rank) ∈ dot_S400x32_S32x32_S400x32_1_0_0_1_n_n.lhsNonContracting by decide)]
  rfl
theorem dot1b_lhs1 (i : S400x32.Idx) (q : dot_S400x32_S32x32_S400x32_1_0_0_1_n_n.contr.Idx) :
    (dot_S400x32_S32x32_S400x32_1_0_0_1_n_n.lhsIdx i q 1).val = (q ⟨0, by decide⟩).val :=
  dot_S400x32_S32x32_S400x32_1_0_0_1_n_n.lhsIdx_val_of_single rfl i q
theorem dot1b_rhs0 (i : S400x32.Idx) (q : dot_S400x32_S32x32_S400x32_1_0_0_1_n_n.contr.Idx) :
    (dot_S400x32_S32x32_S400x32_1_0_0_1_n_n.rhsIdx i q 0).val = (q ⟨0, by decide⟩).val :=
  dot_S400x32_S32x32_S400x32_1_0_0_1_n_n.rhsIdx_val_of_single rfl i q
theorem dot1b_rhs1 (i : S400x32.Idx) (q : dot_S400x32_S32x32_S400x32_1_0_0_1_n_n.contr.Idx) :
    (dot_S400x32_S32x32_S400x32_1_0_0_1_n_n.rhsIdx i q 1).val = (i 1).val := by
  unfold DotDims.rhsIdx
  rw [dif_neg (show ¬(1 : Fin S32x32.rank) ∈ dot_S400x32_S32x32_S400x32_1_0_0_1_n_n.rhsBatch by decide), dif_pos (show (1 : Fin S32x32.rank) ∈ dot_S400x32_S32x32_S400x32_1_0_0_1_n_n.rhsNonContracting by decide)]
  rfl

/-- The first product into the zero splat, at entry `(p, q)`: `Σ k, l (p, k) * r (k, q)` over the 10000 columns. -/
theorem mm1a_apply (l : FVec Ideal S400x10000 .f32) (r : FVec Ideal S10000x32 .f32) (p : Fin 400) (q : Fin 32) :
    FloatOps.matmul (φ₁ := .f32) (φ₂ := .f32) dot_S400x10000_S10000x32_S400x32_1_0_0_1_n_n none l r (constant (F := Ideal) S400x32 .f32 0x00000000#32) (ix2 p q)
      = ∑ k : Fin 10000, l (ix2 p k) * r (ix2 k q) := by
  refine (Ideal.matmul_constant_zero_apply dot_S400x10000_S10000x32_S400x32_1_0_0_1_n_n none l r (ix2 p q)).trans ?_
  rw [← Equiv.sum_comp (contrEquiv1 dot_S400x10000_S10000x32_S400x32_1_0_0_1_n_n 10000 rfl rfl).symm]
  refine Finset.sum_congr rfl fun k _ => ?_
  have hk := contrEquiv1_symm_val dot_S400x10000_S10000x32_S400x32_1_0_0_1_n_n 10000 rfl rfl k
  have el : dot_S400x10000_S10000x32_S400x32_1_0_0_1_n_n.lhsIdx (ix2 p q) ((contrEquiv1 dot_S400x10000_S10000x32_S400x32_1_0_0_1_n_n 10000 rfl rfl).symm k) = ix2 p k := funext fun a => Fin.ext (by
    match a with
    | ⟨0, _⟩ => exact dot1a_lhs0 _ _
    | ⟨1, _⟩ => exact (dot1a_lhs1 _ _).trans hk)
  have er : dot_S400x10000_S10000x32_S400x32_1_0_0_1_n_n.rhsIdx (ix2 p q) ((contrEquiv1 dot_S400x10000_S10000x32_S400x32_1_0_0_1_n_n 10000 rfl rfl).symm k) = ix2 k q := funext fun a => Fin.ext (by
    match a with
    | ⟨0, _⟩ => exact (dot1a_rhs0 _ _).trans hk
    | ⟨1, _⟩ => exact dot1a_rhs1 _ _)
  rw [el, er]

/-- The second product into the zero splat, at entry `(p, q)`: `Σ k, l (p, k) * r (k, q)` over the 32 columns. -/
theorem mm1b_apply (l : FVec Ideal S400x32 .f32) (r : FVec Ideal S32x32 .f32) (p : Fin 400) (q : Fin 32) :
    FloatOps.matmul (φ₁ := .f32) (φ₂ := .f32) dot_S400x32_S32x32_S400x32_1_0_0_1_n_n none l r (constant (F := Ideal) S400x32 .f32 0x00000000#32) (ix2 p q)
      = ∑ k : Fin 32, l (ix2 p k) * r (ix2 k q) := by
  refine (Ideal.matmul_constant_zero_apply dot_S400x32_S32x32_S400x32_1_0_0_1_n_n none l r (ix2 p q)).trans ?_
  rw [← Equiv.sum_comp (contrEquiv1 dot_S400x32_S32x32_S400x32_1_0_0_1_n_n 32 rfl rfl).symm]
  refine Finset.sum_congr rfl fun k _ => ?_
  have hk := contrEquiv1_symm_val dot_S400x32_S32x32_S400x32_1_0_0_1_n_n 32 rfl rfl k
  have el : dot_S400x32_S32x32_S400x32_1_0_0_1_n_n.lhsIdx (ix2 p q) ((contrEquiv1 dot_S400x32_S32x32_S400x32_1_0_0_1_n_n 32 rfl rfl).symm k) = ix2 p k := funext fun a => Fin.ext (by
    match a with
    | ⟨0, _⟩ => exact dot1b_lhs0 _ _
    | ⟨1, _⟩ => exact (dot1b_lhs1 _ _).trans hk)
  have er : dot_S400x32_S32x32_S400x32_1_0_0_1_n_n.rhsIdx (ix2 p q) ((contrEquiv1 dot_S400x32_S32x32_S400x32_1_0_0_1_n_n 32 rfl rfl).symm k) = ix2 k q := funext fun a => Fin.ext (by
    match a with
    | ⟨0, _⟩ => exact (dot1b_rhs0 _ _).trans hk
    | ⟨1, _⟩ => exact dot1b_rhs1 _ _)
  rw [el, er]

/-- Entry `(p, q)` of the payload: the rectified first product, multiplied into the [32,32] block. -/
theorem pay1_apply (x0 : Vec Ideal S400x10000 .f32) (x1 : Vec Ideal S10000x32 .f32) (x2 : Vec Ideal S32x32 .f32)
    (p : Fin 400) (q : Fin 32) :
    k1_pay1 (F := Ideal) x0 x1 x2 (ix2 p q)
      = ∑ j : Fin 32, max (∑ k : Fin 10000, x0 (ix2 p k) * x1 (ix2 k j)) 0 * x2 (ix2 j q) := by
  unfold k1_pay1
  simp only [matmul]
  rw [shapeCast_self, shapeCast_self]
  refine (mm1b_apply _ x2 p q).trans ?_
  refine Finset.sum_congr rfl fun j _ => ?_
  refine congrArg (· * x2 (ix2 j q)) ?_
  show max (FloatOps.matmul (φ₁ := .f32) (φ₂ := .f32) dot_S400x10000_S10000x32_S400x32_1_0_0_1_n_n none x0 x1 (constant (F := Ideal) S400x32 .f32 0x00000000#32) (ix2 p j))
    (Ideal.ofBits .f32 0x00000000#32) = _
  rw [Ideal.ofBits_zero_f32, mm1a_apply]

/-- What the body leaves in the output buffer, at an entry: when the left block is rows `400 b + p` of `A` and the other
    two blocks are `X` and `W`, entry `(p, q)` is entry `(400 b + p, q)` of `max (A · X) 0 · W`. -/
theorem out1_3_apply (A : Cert.Spec.A2 10000 10000) (X : Cert.Spec.A2 10000 32) (W : Cert.Spec.A2 32 32)
    (x0 : Vec Ideal S400x10000 .f32) (x1 : Vec Ideal S10000x32 .f32) (x2 : Vec Ideal S32x32 .f32) (b : Nat) (hb : b < 25)
    (h0 : ∀ (p : Fin 400) (k : Fin 10000), x0 (ix2 p k) = A (ix2 ⟨b * 400 + p.val, by omega⟩ k))
    (h1 : ∀ (k : Fin 10000) (q : Fin 32), x1 (ix2 k q) = X (ix2 k q))
    (h2 : ∀ (k : Fin 32) (q : Fin 32), x2 (ix2 k q) = W (ix2 k q)) (p : Fin 400) (q : Fin 32) :
    out1_3 (F := Ideal) x0 x1 x2 (ix2 p q)
      = Cert.Spec.mm (Cert.Spec.relu0 (Cert.Spec.mm A X)) W (ix2 ⟨b * 400 + p.val, by omega⟩ q) := by
  unfold out1_3
  rw [View.canon_unit_zero hz1]
  simp only [View.ld_unit_zero (S := S400x10000) hz1, View.ld_unit_zero (S := S10000x32) hz1, View.ld_unit_zero (S := S32x32) hz1]
  rw [pay1_apply, Cert.Spec.mm_apply]
  refine Finset.sum_congr rfl fun j _ => ?_
  rw [Cert.Spec.relu0_apply, Cert.Spec.mm_apply, h2]
  refine congrArg (fun s => max s 0 * W (ix2 j q)) ?_
  refine Finset.sum_congr rfl fun k _ => ?_
  rw [h0, h1]

/-! ## The blocks of the four windows -/

section Blocks
variable (V : (c : Dev nD) → (b : Ref sig .tc) → Buf (Elt Ideal) ((c : Thread nD τ).loc b))

/-- The windows' index maps over the grid: the adjacency window and the result window are at block row `t`, block column
    0; the other two windows stay at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The adjacency block at point `t` is rows `400 t … 400 t + 399` of the adjacency matrix. -/
theorem iblk1_0_apply (c : Dev nD) (t : Fin cfg1.N) (p : Fin 400) (k : Fin 10000) :
    (iblk1 V c 0 t : Vec Ideal S400x10000 .f32) (ix2 p k)
      = (V c main_arg1 : Cert.Spec.A2 10000 10000) (ix2 ⟨t.val * 400 + p.val, by have ht : t.val < 25 := t.isLt; omega⟩ k) := by
  obtain ⟨e0, e1, -⟩ := idx_facts1 t
  unfold iblk1
  rw [View.read_apply]
  show V c main_arg1 _ = V c main_arg1 _
  congr 1
  funext a
  apply Fin.ext
  match a with
  | ⟨0, _⟩ => show win1_0.index t (0 : Fin 2) * 400 + 1 * p.val = t.val * 400 + p.val; rw [e0]; omega
  | ⟨1, _⟩ => show win1_0.index t (1 : Fin 2) * 10000 + 1 * k.val = k.val; rw [e1]; omega

/-- The [10000,32] block at every point is the whole [10000,32] matrix. -/
theorem iblk1_1_apply (c : Dev nD) (t : Fin cfg1.N) (k : Fin 10000) (q : Fin 32) :
    (iblk1 V c 1 t : Vec Ideal S10000x32 .f32) (ix2 k q) = (V c main_v3_0 : Cert.Spec.A2 10000 32) (ix2 k q) := by
  obtain ⟨-, -, e0, e1, -⟩ := idx_facts1 t
  unfold iblk1
  rw [View.read_apply]
  show V c main_v3_0 _ = V c main_v3_0 _
  congr 1
  funext a
  apply Fin.ext
  match a with
  | ⟨0, _⟩ => show win1_1.index t (0 : Fin 2) * 10000 + 1 * k.val = k.val; rw [e0]; omega
  | ⟨1, _⟩ => show win1_1.index t (1 : Fin 2) * 32 + 1 * q.val = q.val; rw [e1]; omega

/-- The [32,32] block at every point is the whole [32,32] matrix. -/
theorem iblk1_2_apply (c : Dev nD) (t : Fin cfg1.N) (k : Fin 32) (q : Fin 32) :
    (iblk1 V c 2 t : Vec Ideal S32x32 .f32) (ix2 k q) = (V c main_v4 : Cert.Spec.A2 32 32) (ix2 k q) := by
  obtain ⟨-, -, -, -, e0, e1, -⟩ := idx_facts1 t
  unfold iblk1
  rw [View.read_apply]
  show V c main_v4 _ = V c main_v4 _
  congr 1
  funext a
  apply Fin.ext
  match a with
  | ⟨0, _⟩ => show win1_2.index t (0 : Fin 2) * 32 + 1 * k.val = k.val; rw [e0]; omega
  | ⟨1, _⟩ => show win1_2.index t (1 : Fin 2) * 32 + 1 * q.val = q.val; rw [e1]; omega

/-! ## What a point writes back, and the array after the region -/

/-- Point `t` writes back block `t` of the result: rows `400 t … 400 t + 399`. -/
theorem flushed1_eq (c : Dev nD) (t : Fin cfg1.N) :
    (dat1 V c).flushed 3 t
      = ((cfg1.win 3).blk t).view.read (Elt Ideal) (Cert.Spec.mm (Cert.Spec.relu0 (Cert.Spec.mm (V c main_arg1 : Cert.Spec.A2 10000 10000) (V c main_v3_0 : Cert.Spec.A2 10000 32))) (V c main_v4 : Cert.Spec.A2 32 32)) := by
  show (cfg1.win 3).cut (grid1.coords t) ((dat1 V c).after 3 t) = _
  rw [after1_3]
  obtain ⟨-, -, -, -, -, -, e0, e1⟩ := idx_facts1 t
  have ht : t.val < 25 := t.isLt
  funext j
  obtain ⟨p, q, rfl⟩ : ∃ (p : Fin 400) (q : Fin 32), j = ix2 p q := ⟨j 0, j 1, eq_ix2 j⟩
  refine (out1_3_apply (V c main_arg1) (V c main_v3_0) (V c main_v4) (iblk1 V c 0 t) (iblk1 V c 1 t) (iblk1 V c 2 t) t.val ht
    (iblk1_0_apply V c t) (iblk1_1_apply V c t) (iblk1_2_apply V c t) p q).trans ?_
  rw [View.read_apply]
  congr 1
  funext a
  apply Fin.ext
  match a with
  | ⟨0, _⟩ => show t.val * 400 + p.val = win1_3.index t (0 : Fin 2) * 400 + 1 * p.val; rw [e0]; omega
  | ⟨1, _⟩ => show q.val = win1_3.index t (1 : Fin 2) * 32 + 1 * q.val; rw [e1]; omega

/-- An index of the result array is in point `t`'s block iff each coordinate is in the block's range on its axis. -/
theorem mem_blk1 (t : Fin cfg1.N) (i : S10000x32.Idx) :
    i ∈ ((cfg1.win 3).blk t).view.set ↔ ∀ a : Fin 2, win1_3.index t a * S400x32.size a ≤ (i a).val ∧ (i a).val < win1_3.index t a * S400x32.size a + S400x32.size a := by
  show i ∈ ((View.whole main_v5).slice (win1_3.rect t)).set ↔ _
  rw [View.set_slice_whole, Rect.mem_set_unit]
  exact Iff.rfl

/-- Row `r` of the result lies in the block of point `r / 400`. -/
theorem cover1 (i : S10000x32.Idx) :
    ∃ t : Fin cfg1.N, (cfg1.win 3).flush t = true ∧ i ∈ ((cfg1.win 3).blk t).view.set := by
  have hi0 : (i 0).val < 10000 := (i 0).isLt
  have hi1 : (i 1).val < 32 := (i 1).isLt
  let t : Fin cfg1.N := ⟨(i 0).val / 400, by show (i 0).val / 400 < 25; omega⟩
  obtain ⟨-, -, -, -, -, -, e0, e1⟩ := idx_facts1 t
  have htv : t.val = (i 0).val / 400 := rfl
  refine ⟨t, flush1_3 t, ?_⟩
  rw [mem_blk1]
  intro a
  match a with
  | ⟨0, _⟩ => show win1_3.index t (0 : Fin 2) * 400 ≤ (i 0).val ∧ (i 0).val < win1_3.index t (0 : Fin 2) * 400 + 400; rw [e0, htv]; omega
  | ⟨1, _⟩ => show win1_3.index t (1 : Fin 2) * 32 ≤ (i 1).val ∧ (i 1).val < win1_3.index t (1 : Fin 2) * 32 + 32; rw [e1]; omega

/-- THE RESULT ARRAY after region 1 is `max (adj · xw) 0 · w` of the three arrays as the region found them. -/
theorem final1_3 (c : Dev nD) :
    (dat1 V c).arrAt 3 cfg1.N = Cert.Spec.mm (Cert.Spec.relu0 (Cert.Spec.mm (V c main_arg1 : Cert.Spec.A2 10000 10000) (V c main_v3_0 : Cert.Spec.A2 10000 32))) (V c main_v4 : Cert.Spec.A2 32 32) :=
  (dat1 V c).arrAt_eq_of_cover 3 (Cert.Spec.mm (Cert.Spec.relu0 (Cert.Spec.mm (V c main_arg1 : Cert.Spec.A2 10000 10000) (V c main_v3_0 : Cert.Spec.A2 10000 32))) (V c main_v4 : Cert.Spec.A2 32 32))
    (fun t _ => flushed1_eq V c t) cover1

end Blocks

end Cert.KernelIdeal.Hand

end
-- ==== Proof.Final2.lean ====
/- Region 2, read as mathematics at the ideal values: after its 25 points the result array is the plain product of the
   adjacency matrix and the [10000,32] matrix the region was given.

   Three steps. At one entry the body's payload is the sum of products along the contracted axis. At grid point `t` the
   adjacency block is rows `400 t … 400 t + 399` of the adjacency matrix and the right-hand block is the whole right-hand
   matrix, so what the point writes back is rows `400 t … 400 t + 399` of the product. Row `r` of the result lies in the
   block of point `r / 400`, so the 25 blocks cover the array and it ends holding the product. -/
import proofs.«151409_g7215545057700_cont_sun_m_658_3_alg».proof.Proof.Region2
import proofs.«151409_g7215545057700_cont_sun_m_658_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx
open Idealize.ShloMosaic.Pipeline (Dat)

/-! ## The payload at an entry -/

/-- The two zero offsets of a whole-buffer access, as the constant function. -/
theorem hz2 : (![0, 0] : Fin 2 → Nat) = fun _ => 0 := funext fun a => by fin_cases a <;> rfl

theorem dot2_lhs0 (i : S400x32.Idx) (q : dot_S400x10000_S10000x32_S400x32_1_0_0_1_n_n.contr.Idx) :
    (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem dot2_lhs1 (i : S400x32.Idx) (q : dot_S400x10000_S10000x32_S400x32_1_0_0_1_n_n.contr.Idx) :
    (dot_S400x10000_S10000x32_S400x32_1_0_0_1_n_n.lhsIdx i q 1).val = (q ⟨0, by decide⟩).val :=
  dot_S400x10000_S10000x32_S400x32_1_0_0_1_n_n.lhsIdx_val_of_single rfl i q
theorem dot2_rhs0 (i : S400x32.Idx) (q : dot_S400x10000_S10000x32_S400x32_1_0_0_1_n_n.contr.Idx) :
    (dot_S400x10000_S10000x32_S400x32_1_0_0_1_n_n.rhsIdx i q 0).val = (q ⟨0, by decide⟩).val :=
  dot_S400x10000_S10000x32_S400x32_1_0_0_1_n_n.rhsIdx_val_of_single rfl i q
theorem dot2_rhs1 (i : S400x32.Idx) (q : dot_S400x10000_S10000x32_S400x32_1_0_0_1_n_n.contr.Idx) :
    (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- Entry `(p, q)` of the payload is `Σ k, x0 (p, k) * x1 (k, q)`: the accumulator is the zero splat and the contraction
    index is its one coordinate. -/
theorem pay2_apply (x0 : Vec Ideal S400x10000 .f32) (x1 : Vec Ideal S10000x32 .f32) (p : Fin 400) (q : Fin 32) :
    k2_pay1 (F := Ideal) x0 x1 (ix2 p q) = ∑ k : Fin 10000, x0 (ix2 p k) * x1 (ix2 k q) := by
  unfold k2_pay1
  simp only [matmul]
  rw [shapeCast_self]
  refine (Ideal.matmul_constant_zero_apply dot_S400x10000_S10000x32_S400x32_1_0_0_1_n_n none x0 x1 (ix2 p q)).trans ?_
  rw [← Equiv.sum_comp (contrEquiv1 dot_S400x10000_S10000x32_S400x32_1_0_0_1_n_n 10000 rfl rfl).symm]
  refine Finset.sum_congr rfl fun k _ => ?_
  have hk := contrEquiv1_symm_val dot_S400x10000_S10000x32_S400x32_1_0_0_1_n_n 10000 rfl rfl k
  have el : dot_S400x10000_S10000x32_S400x32_1_0_0_1_n_n.lhsIdx (ix2 p q) ((contrEquiv1 dot_S400x10000_S10000x32_S400x32_1_0_0_1_n_n 10000 rfl rfl).symm k) = ix2 p k := funext fun a => Fin.ext (by
    match a with
    | ⟨0, _⟩ => exact dot2_lhs0 _ _
    | ⟨1, _⟩ => exact (dot2_lhs1 _ _).trans hk)
  have er : dot_S400x10000_S10000x32_S400x32_1_0_0_1_n_n.rhsIdx (ix2 p q) ((contrEquiv1 dot_S400x10000_S10000x32_S400x32_1_0_0_1_n_n 10000 rfl rfl).symm k) = ix2 k q := funext fun a => Fin.ext (by
    match a with
    | ⟨0, _⟩ => exact (dot2_rhs0 _ _).trans hk
    | ⟨1, _⟩ => exact dot2_rhs1 _ _)
  rw [el, er]

/-- What the body leaves in the output buffer, at an entry: when the left block is rows `400 b + p` of `A` and the right
    block is `B`, entry `(p, q)` is entry `(400 b + p, q)` of the product `A · B`. -/
theorem out2_2_apply (A : Cert.Spec.A2 10000 10000) (B : Cert.Spec.A2 10000 32)
    (x0 : Vec Ideal S400x10000 .f32) (x1 : Vec Ideal S10000x32 .f32) (b : Nat) (hb : b < 25)
    (h0 : ∀ (p : Fin 400) (k : Fin 10000), x0 (ix2 p k) = A (ix2 ⟨b * 400 + p.val, by omega⟩ k))
    (h1 : ∀ (k : Fin 10000) (q : Fin 32), x1 (ix2 k q) = B (ix2 k q)) (p : Fin 400) (q : Fin 32) :
    out2_2 (F := Ideal) x0 x1 (ix2 p q) = Cert.Spec.mm A B (ix2 ⟨b * 400 + p.val, by omega⟩ q) := by
  unfold out2_2
  rw [View.canon_unit_zero hz2]
  simp only [View.ld_unit_zero (S := S400x10000) hz2, View.ld_unit_zero (S := S10000x32) hz2]
  rw [pay2_apply, Cert.Spec.mm_apply]
  refine Finset.sum_congr rfl fun k _ => ?_
  rw [h0, h1]

/-! ## The blocks of the three windows -/

section Blocks
variable (V : (c : Dev nD) → (b : Ref sig .tc) → Buf (Elt Ideal) ((c : Thread nD τ).loc b))

/-- The windows' index maps over the grid: the adjacency window and the result window are at block row `t`, block column
    0; the right-hand window stays at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem N2 : cfg2.N = 25 := rfl

/-- The adjacency block at point `t` is rows `400 t … 400 t + 399` of the adjacency matrix. -/
theorem iblk2_0_apply (c : Dev nD) (t : Fin cfg2.N) (p : Fin 400) (k : Fin 10000) :
    (iblk2 V c 0 t : Vec Ideal S400x10000 .f32) (ix2 p k)
      = (V c main_arg1 : Cert.Spec.A2 10000 10000) (ix2 ⟨t.val * 400 + p.val, by have ht : t.val < 25 := t.isLt; omega⟩ k) := by
  obtain ⟨e0, e1, -⟩ := idx_facts2 t
  unfold iblk2
  rw [View.read_apply]
  show V c main_arg1 _ = V c main_arg1 _
  congr 1
  funext a
  apply Fin.ext
  match a with
  | ⟨0, _⟩ => show win2_0.index t (0 : Fin 2) * 400 + 1 * p.val = t.val * 400 + p.val; rw [e0]; omega
  | ⟨1, _⟩ => show win2_0.index t (1 : Fin 2) * 10000 + 1 * k.val = k.val; rw [e1]; omega

/-- The right-hand block at every point is the whole right-hand matrix. -/
theorem iblk2_1_apply (c : Dev nD) (t : Fin cfg2.N) (k : Fin 10000) (q : Fin 32) :
    (iblk2 V c 1 t : Vec Ideal S10000x32 .f32) (ix2 k q) = (V c main_v5 : Cert.Spec.A2 10000 32) (ix2 k q) := by
  obtain ⟨-, -, e0, e1, -⟩ := idx_facts2 t
  unfold iblk2
  rw [View.read_apply]
  show V c main_v5 _ = V c main_v5 _
  congr 1
  funext a
  apply Fin.ext
  match a with
  | ⟨0, _⟩ => show win2_1.index t (0 : Fin 2) * 10000 + 1 * k.val = k.val; rw [e0]; omega
  | ⟨1, _⟩ => show win2_1.index t (1 : Fin 2) * 32 + 1 * q.val = q.val; rw [e1]; omega

/-! ## What a point writes back, and the array after the region -/

/-- Point `t` writes back block `t` of the product: rows `400 t … 400 t + 399`. -/
theorem flushed2_eq (c : Dev nD) (t : Fin cfg2.N) :
    (dat2 V c).flushed 2 t
      = ((cfg2.win 2).blk t).view.read (Elt Ideal) (Cert.Spec.mm (V c main_arg1 : Cert.Spec.A2 10000 10000) (V c main_v5 : Cert.Spec.A2 10000 32)) := by
  show (cfg2.win 2).cut (grid2.coords t) ((dat2 V c).after 2 t) = _
  rw [after2_2]
  obtain ⟨-, -, -, -, e0, e1⟩ := idx_facts2 t
  have ht : t.val < 25 := t.isLt
  funext j
  obtain ⟨p, q, rfl⟩ : ∃ (p : Fin 400) (q : Fin 32), j = ix2 p q := ⟨j 0, j 1, eq_ix2 j⟩
  refine (out2_2_apply (V c main_arg1) (V c main_v5) (iblk2 V c 0 t) (iblk2 V c 1 t) t.val ht
    (iblk2_0_apply V c t) (iblk2_1_apply V c t) p q).trans ?_
  rw [View.read_apply]
  congr 1
  funext a
  apply Fin.ext
  match a with
  | ⟨0, _⟩ => show t.val * 400 + p.val = win2_2.index t (0 : Fin 2) * 400 + 1 * p.val; rw [e0]; omega
  | ⟨1, _⟩ => show q.val = win2_2.index t (1 : Fin 2) * 32 + 1 * q.val; rw [e1]; omega

/-- An index of the result array is in point `t`'s block iff each coordinate is in the block's range on its axis. -/
theorem mem_blk2 (t : Fin cfg2.N) (i : S10000x32.Idx) :
    i ∈ ((cfg2.win 2).blk t).view.set ↔ ∀ a : Fin 2, win2_2.index t a * S400x32.size a ≤ (i a).val ∧ (i a).val < win2_2.index t a * S400x32.size a + S400x32.size a := by
  show i ∈ ((View.whole main_v6).slice (win2_2.rect t)).set ↔ _
  rw [View.set_slice_whole, Rect.mem_set_unit]
  exact Iff.rfl

/-- Row `r` of the result lies in the block of point `r / 400`. -/
theorem cover2 (i : S10000x32.Idx) :
    ∃ t : Fin cfg2.N, (cfg2.win 2).flush t = true ∧ i ∈ ((cfg2.win 2).blk t).view.set := by
  have hi0 : (i 0).val < 10000 := (i 0).isLt
  have hi1 : (i 1).val < 32 := (i 1).isLt
  let t : Fin cfg2.N := ⟨(i 0).val / 400, by show (i 0).val / 400 < 25; omega⟩
  obtain ⟨-, -, -, -, e0, e1⟩ := idx_facts2 t
  have htv : t.val = (i 0).val / 400 := rfl
  refine ⟨t, flush2_2 t, ?_⟩
  rw [mem_blk2]
  intro a
  match a with
  | ⟨0, _⟩ => show win2_2.index t (0 : Fin 2) * 400 ≤ (i 0).val ∧ (i 0).val < win2_2.index t (0 : Fin 2) * 400 + 400; rw [e0, htv]; omega
  | ⟨1, _⟩ => show win2_2.index t (1 : Fin 2) * 32 ≤ (i 1).val ∧ (i 1).val < win2_2.index t (1 : Fin 2) * 32 + 32; rw [e1]; omega

/-- THE RESULT ARRAY after region 2 is the product of the adjacency matrix and the right-hand matrix, as the region
    found them. -/
theorem final2_2 (c : Dev nD) :
    (dat2 V c).arrAt 2 cfg2.N = Cert.Spec.mm (V c main_arg1 : Cert.Spec.A2 10000 10000) (V c main_v5 : Cert.Spec.A2 10000 32) :=
  (dat2 V c).arrAt_eq_of_cover 2 (Cert.Spec.mm (V c main_arg1 : Cert.Spec.A2 10000 10000) (V c main_v5 : Cert.Spec.A2 10000 32))
    (fun t _ => flushed2_eq V c t) cover2

end Blocks

end Cert.KernelIdeal.Hand

end
-- ==== Proof.Final3.lean ====
/-
  The decoder region's two results as whole arrays. At grid point t the region multiplies rows 400 t … 400 t + 399
  of mu by the whole of mu, transposed, and by the whole of mu_a, transposed, and writes the two products back as
  the same rows of the two result arrays. Read at an index, each product is the sum over the 16 columns of the
  products of a row of mu with a row of the other operand; the 25 row blocks tile the 10000 rows (row r is in
  block r / 400); so after the last point the two arrays hold `mu · muᵀ` and `mu · mu_aᵀ` of the arrays the region
  found, index by index, on the extended reals.
-/
import proofs.«151409_g7215545057700_cont_sun_m_658_3_alg».proof.Proof.Region3
import proofs.«151409_g7215545057700_cont_sun_m_658_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

theorem zero_off2 : (![0, 0] : Fin 2 → Nat) = fun _ => 0 := funext fun a => by fin_cases a <;> rfl

/-! ## The two products at an index -/

/-- The product's payload at an index: the sum over the 16 columns of the products of row `p` of the first block with
    row `q` of the second (the narrowing of the operands is the identity on the extended reals, and the accumulator
    the product starts from is zero). -/
theorem pay3_2_apply (x0 : Vec Ideal S400x16 .f32) (x1 : Vec Ideal S10000x16 .f32) (p : Fin 400) (q : Fin 10000) :
    k3_pay2 (F := Ideal) x0 x1 (ix2 p q) = ∑ k : Fin 16, x0 (ix2 p k) * x1 (ix2 q k) := by
  unfold k3_pay2 k3_pay1
  simp only [shapeCast_self]
  refine (Ideal.matmul_constant_zero_apply dot_S400x16_S10000x16_S400x10000_1_1_0_0_n_n none _ _ (ix2 p q)).trans ?_
  rw [← Equiv.sum_comp (ValueIdx.contrEquiv1 dot_S400x16_S10000x16_S400x10000_1_1_0_0_n_n 16 rfl rfl).symm]
  refine Finset.sum_congr rfl fun k _ => ?_
  have hk := ValueIdx.contrEquiv1_symm_val dot_S400x16_S10000x16_S400x10000_1_1_0_0_n_n 16 rfl rfl k
  have el : dot_S400x16_S10000x16_S400x10000_1_1_0_0_n_n.lhsIdx (ix2 p q) ((ValueIdx.contrEquiv1 dot_S400x16_S10000x16_S400x10000_1_1_0_0_n_n 16 rfl rfl).symm k) = ix2 p k := funext fun a => Fin.ext (by
    match a with
    | ⟨0, _⟩ =>
      show (dot_S400x16_S10000x16_S400x10000_1_1_0_0_n_n.lhsIdx (ix2 p q) _ 0).val = p.val
      unfold DotDims.lhsIdx
      rw [dif_neg (show ¬(0 : Fin S400x16.rank) ∈ dot_S400x16_S10000x16_S400x10000_1_1_0_0_n_n.lhsBatch by decide), dif_pos (show (0 : Fin S400x16.rank) ∈ dot_S400x16_S10000x16_S400x10000_1_1_0_0_n_n.lhsNonContracting by decide)]
      rfl
    | ⟨1, _⟩ => exact (dot_S400x16_S10000x16_S400x10000_1_1_0_0_n_n.lhsIdx_val_of_single rfl _ _).trans hk)
  have er : dot_S400x16_S10000x16_S400x10000_1_1_0_0_n_n.rhsIdx (ix2 p q) ((ValueIdx.contrEquiv1 dot_S400x16_S10000x16_S400x10000_1_1_0_0_n_n 16 rfl rfl).symm k) = ix2 q k := funext fun a => Fin.ext (by
    match a with
    | ⟨0, _⟩ =>
      show (dot_S400x16_S10000x16_S400x10000_1_1_0_0_n_n.rhsIdx (ix2 p q) _ 0).val = q.val
      unfold DotDims.rhsIdx
      rw [dif_neg (show ¬(0 : Fin S10000x16.rank) ∈ dot_S400x16_S10000x16_S400x10000_1_1_0_0_n_n.rhsBatch by decide), dif_pos (show (0 : Fin S10000x16.rank) ∈ dot_S400x16_S10000x16_S400x10000_1_1_0_0_n_n.rhsNonContracting by decide)]
      rfl
    | ⟨1, _⟩ => exact (dot_S400x16_S10000x16_S400x10000_1_1_0_0_n_n.rhsIdx_val_of_single rfl _ _).trans hk)
  show x0 (dot_S400x16_S10000x16_S400x10000_1_1_0_0_n_n.lhsIdx (ix2 p q) _) * x1 (dot_S400x16_S10000x16_S400x10000_1_1_0_0_n_n.rhsIdx (ix2 p q) _) = _
  rw [el, er]

/-- The product's payload at an index: the sum over the 16 columns of the products of row `p` of the first block with
    row `q` of the second (the narrowing of the operands is the identity on the extended reals, and the accumulator
    the product starts from is zero). -/
theorem pay3_3_apply (x0 : Vec Ideal S400x16 .f32) (x1 : Vec Ideal S128x16 .f32) (p : Fin 400) (q : Fin 128) :
    k3_pay3 (F := Ideal) x0 x1 (ix2 p q) = ∑ k : Fin 16, x0 (ix2 p k) * x1 (ix2 q k) := by
  unfold k3_pay3 k3_pay1
  simp only [shapeCast_self]
  refine (Ideal.matmul_constant_zero_apply dot_S400x16_S128x16_S400x128_1_1_0_0_n_n none _ _ (ix2 p q)).trans ?_
  rw [← Equiv.sum_comp (ValueIdx.contrEquiv1 dot_S400x16_S128x16_S400x128_1_1_0_0_n_n 16 rfl rfl).symm]
  refine Finset.sum_congr rfl fun k _ => ?_
  have hk := ValueIdx.contrEquiv1_symm_val dot_S400x16_S128x16_S400x128_1_1_0_0_n_n 16 rfl rfl k
  have el : dot_S400x16_S128x16_S400x128_1_1_0_0_n_n.lhsIdx (ix2 p q) ((ValueIdx.contrEquiv1 dot_S400x16_S128x16_S400x128_1_1_0_0_n_n 16 rfl rfl).symm k) = ix2 p k := funext fun a => Fin.ext (by
    match a with
    | ⟨0, _⟩ =>
      show (dot_S400x16_S128x16_S400x128_1_1_0_0_n_n.lhsIdx (ix2 p q) _ 0).val = p.val
      unfold DotDims.lhsIdx
      rw [dif_neg (show ¬(0 : Fin S400x16.rank) ∈ dot_S400x16_S128x16_S400x128_1_1_0_0_n_n.lhsBatch by decide), dif_pos (show (0 : Fin S400x16.rank) ∈ dot_S400x16_S128x16_S400x128_1_1_0_0_n_n.lhsNonContracting by decide)]
      rfl
    | ⟨1, _⟩ => exact (dot_S400x16_S128x16_S400x128_1_1_0_0_n_n.lhsIdx_val_of_single rfl _ _).trans hk)
  have er : dot_S400x16_S128x16_S400x128_1_1_0_0_n_n.rhsIdx (ix2 p q) ((ValueIdx.contrEquiv1 dot_S400x16_S128x16_S400x128_1_1_0_0_n_n 16 rfl rfl).symm k) = ix2 q k := funext fun a => Fin.ext (by
    match a with
    | ⟨0, _⟩ =>
      show (dot_S400x16_S128x16_S400x128_1_1_0_0_n_n.rhsIdx (ix2 p q) _ 0).val = q.val
      unfold DotDims.rhsIdx
      rw [dif_neg (show ¬(0 : Fin S128x16.rank) ∈ dot_S400x16_S128x16_S400x128_1_1_0_0_n_n.rhsBatch by decide), dif_pos (show (0 : Fin S128x16.rank) ∈ dot_S400x16_S128x16_S400x128_1_1_0_0_n_n.rhsNonContracting by decide)]
      rfl
    | ⟨1, _⟩ => exact (dot_S400x16_S128x16_S400x128_1_1_0_0_n_n.rhsIdx_val_of_single rfl _ _).trans hk)
  show x0 (dot_S400x16_S128x16_S400x128_1_1_0_0_n_n.lhsIdx (ix2 p q) _) * x1 (dot_S400x16_S128x16_S400x128_1_1_0_0_n_n.rhsIdx (ix2 p q) _) = _
  rw [el, er]

/-! ## Where the windows' blocks sit -/

/-- The block indices at point t: the three row-block windows (the rows of mu read, the two results written) sit at
    block (t, 0), the two whole-array windows at block (0, 0). -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem lt25 (t : Fin cfg3.N) : t.val < 25 := Nat.lt_of_lt_of_eq t.isLt N_3

/-- The first window's block at point t is rows 400 t … 400 t + 399 of mu. -/
theorem iblk3_0_apply (c : Dev nD) (t : Fin cfg3.N) (p : Fin 400) (k : Fin 16) (i : S10000x16.Idx)
    (hi0 : (i 0).val = t.val * 400 + p.val) (hi1 : (i 1).val = k.val) :
    (iblk3 V c 0 t : Vec Ideal S400x16 .f32) (ix2 p k) = (V c main_v7 : S10000x16.Idx → EReal) i := by
  obtain ⟨e0, e1, -⟩ := idx3 t
  unfold iblk3
  rw [View.read_apply]
  show V c main_v7 _ = V c main_v7 _
  congr 1
  funext a; apply Fin.ext
  match a with
  | ⟨0, _⟩ => show win3_0.index t 0 * 400 + 1 * p.val = (i 0).val; rw [e0, hi0]; omega
  | ⟨1, _⟩ => show win3_0.index t 1 * 16 + 1 * k.val = (i 1).val; rw [e1, hi1]; omega

/-- The second window's block is the whole of mu at every point. -/
theorem iblk3_1_apply (c : Dev nD) (t : Fin cfg3.N) (q : Fin 10000) (k : Fin 16) :
    (iblk3 V c 1 t : Vec Ideal S10000x16 .f32) (ix2 q k) = (V c main_v7 : S10000x16.Idx → EReal) (ix2 q k) := by
  obtain ⟨-, -, e0, e1, -⟩ := idx3 t
  unfold iblk3
  rw [View.read_apply]
  show V c main_v7 _ = V c main_v7 _
  congr 1
  funext a; apply Fin.ext
  match a with
  | ⟨0, _⟩ => show win3_1.index t 0 * 10000 + 1 * q.val = q.val; rw [e0]; omega
  | ⟨1, _⟩ => show win3_1.index t 1 * 16 + 1 * k.val = k.val; rw [e1]; omega

/-- The third window's block is the whole of mu_a at every point. -/
theorem iblk3_2_apply (c : Dev nD) (t : Fin cfg3.N) (q : Fin 128) (k : Fin 16) :
    (iblk3 V c 2 t : Vec Ideal S128x16 .f32) (ix2 q k) = (V c main_v3_1 : S128x16.Idx → EReal) (ix2 q k) := by
  obtain ⟨-, -, -, -, e0, e1, -⟩ := idx3 t
  unfold iblk3
  rw [View.read_apply]
  show V c main_v3_1 _ = V c main_v3_1 _
  congr 1
  funext a; apply Fin.ext
  match a with
  | ⟨0, _⟩ => show win3_2.index t 0 * 128 + 1 * q.val = q.val; rw [e0]; omega
  | ⟨1, _⟩ => show win3_2.index t 1 * 16 + 1 * k.val = k.val; rw [e1]; omega

/-! ## What each point writes back -/

/-- Point t writes back, as rows 400 t … 400 t + 399 of the first result, those rows of `mu · muᵀ`. -/
theorem flushed3_3_eq (c : Dev nD) (t : Fin cfg3.N) :
    (dat3 V c).flushed 3 t = ((cfg3.win 3).blk t).view.read (Elt Ideal)
      (Spec.mmT1 (m := 10000) (n := 10000) (K := 16) (V c main_v7) (V c main_v7)) := by
  show (cfg3.win 3).cut (grid3.coords t) ((dat3 V c).after 3 t) = _
  rw [after3_3]
  unfold out3_3
  rw [View.canon_unit_zero zero_off2]
  simp only [View.ld_unit_zero (S := S400x16) zero_off2, View.ld_unit_zero (S := S10000x16) zero_off2]
  obtain ⟨-, -, -, -, -, -, e0, e1, -⟩ := idx3 t
  have ht := lt25 t
  funext j
  obtain ⟨p, q, rfl⟩ : ∃ (p : Fin 400) (q : Fin 10000), j = ix2 p q := ⟨j 0, j 1, eq_ix2 j⟩
  show k3_pay2 (F := Ideal) (iblk3 V c 0 t) (iblk3 V c 1 t) (ix2 p q)
    = Spec.mmT1 (m := 10000) (n := 10000) (K := 16) (V c main_v7) (V c main_v7) (((cfg3.win 3).blk t).view.emb (ix2 p q))
  have hemb : ((cfg3.win 3).blk t).view.emb (ix2 p q)
      = (ix2 (⟨t.val * 400 + p.val, by omega⟩ : Fin 10000) q : S10000x10000.Idx) := by
    funext a; apply Fin.ext
    match a with
    | ⟨0, _⟩ => show win3_3.index t 0 * 400 + 1 * p.val = t.val * 400 + p.val; rw [e0]; omega
    | ⟨1, _⟩ => show win3_3.index t 1 * 10000 + 1 * q.val = q.val; rw [e1]; omega
  rw [hemb, Spec.mmT1_apply]
  refine (pay3_2_apply _ _ p q).trans (Finset.sum_congr rfl fun k _ => ?_)
  rw [iblk3_0_apply V c t p k (ix2 (⟨t.val * 400 + p.val, by omega⟩ : Fin 10000) k) rfl rfl, iblk3_1_apply V c t q k]

/-- Point t writes back, as rows 400 t … 400 t + 399 of the second result, those rows of `mu · mu_aᵀ`. -/
theorem flushed3_4_eq (c : Dev nD) (t : Fin cfg3.N) :
    (dat3 V c).flushed 4 t = ((cfg3.win 4).blk t).view.read (Elt Ideal)
      (Spec.mmT1 (m := 10000) (n := 128) (K := 16) (V c main_v7) (V c main_v3_1)) := by
  show (cfg3.win 4).cut (grid3.coords t) ((dat3 V c).after 4 t) = _
  rw [after3_4]
  unfold out3_4
  rw [View.canon_unit_zero zero_off2]
  simp only [View.ld_unit_zero (S := S400x16) zero_off2, View.ld_unit_zero (S := S128x16) zero_off2]
  obtain ⟨-, -, -, -, -, -, -, -, e0, e1⟩ := idx3 t
  have ht := lt25 t
  funext j
  obtain ⟨p, q, rfl⟩ : ∃ (p : Fin 400) (q : Fin 128), j = ix2 p q := ⟨j 0, j 1, eq_ix2 j⟩
  show k3_pay3 (F := Ideal) (iblk3 V c 0 t) (iblk3 V c 2 t) (ix2 p q)
    = Spec.mmT1 (m := 10000) (n := 128) (K := 16) (V c main_v7) (V c main_v3_1) (((cfg3.win 4).blk t).view.emb (ix2 p q))
  have hemb : ((cfg3.win 4).blk t).view.emb (ix2 p q)
      = (ix2 (⟨t.val * 400 + p.val, by omega⟩ : Fin 10000) q : S10000x128.Idx) := by
    funext a; apply Fin.ext
    match a with
    | ⟨0, _⟩ => show win3_4.index t 0 * 400 + 1 * p.val = t.val * 400 + p.val; rw [e0]; omega
    | ⟨1, _⟩ => show win3_4.index t 1 * 128 + 1 * q.val = q.val; rw [e1]; omega
  rw [hemb, Spec.mmT1_apply]
  refine (pay3_3_apply _ _ p q).trans (Finset.sum_congr rfl fun k _ => ?_)
  rw [iblk3_0_apply V c t p k (ix2 (⟨t.val * 400 + p.val, by omega⟩ : Fin 10000) k) rfl rfl, iblk3_2_apply V c t q k]

/-! ## The row blocks tile the results -/

/-- An index of the first result is in point t's block iff each coordinate is in the block's range on its axis. -/
theorem mem_blk3_3 (t : Fin cfg3.N) (i : S10000x10000.Idx) :
    i ∈ ((cfg3.win 3).blk t).view.set ↔ ∀ a : Fin 2, win3_3.index t a * S400x10000.size a ≤ (i a).val
      ∧ (i a).val < win3_3.index t a * S400x10000.size a + S400x10000.size a := by
  show i ∈ ((View.whole main_v9_0).slice (win3_3.rect t)).set ↔ _
  rw [View.set_slice_whole, Rect.mem_set_unit]
  exact Iff.rfl

theorem mem_blk3_4 (t : Fin cfg3.N) (i : S10000x128.Idx) :
    i ∈ ((cfg3.win 4).blk t).view.set ↔ ∀ a : Fin 2, win3_4.index t a * S400x128.size a ≤ (i a).val
      ∧ (i a).val < win3_4.index t a * S400x128.size a + S400x128.size a := by
  show i ∈ ((View.whole main_v9_1).slice (win3_4.rect t)).set ↔ _
  rw [View.set_slice_whole, Rect.mem_set_unit]
  exact Iff.rfl

/-- Row r of the first result is written by point r / 400. -/
theorem tiles3_3 (i : S10000x10000.Idx) :
    ∃ t : Fin cfg3.N, (cfg3.win 3).flush t = true ∧ i ∈ ((cfg3.win 3).blk t).view.set := by
  have h0 : (i 0).val < 10000 := (i 0).isLt
  have h1 : (i 1).val < 10000 := (i 1).isLt
  obtain ⟨t, ht⟩ : ∃ t : Fin cfg3.N, t.val = (i 0).val / 400 :=
    ⟨⟨(i 0).val / 400, by rw [show cfg3.N = 25 from N_3]; omega⟩, rfl⟩
  obtain ⟨-, -, -, -, -, -, e0, e1, -⟩ := idx3 t
  refine ⟨t, flush3_3 t, ?_⟩
  rw [mem_blk3_3]
  intro a
  match a with
  | ⟨0, _⟩ => show win3_3.index t 0 * 400 ≤ (i 0).val ∧ (i 0).val < win3_3.index t 0 * 400 + 400; rw [e0, ht]; omega
  | ⟨1, _⟩ => show win3_3.index t 1 * 10000 ≤ (i 1).val ∧ (i 1).val < win3_3.index t 1 * 10000 + 10000; rw [e1]; omega

/-- Row r of the second result is written by point r / 400. -/
theorem tiles3_4 (i : S10000x128.Idx) :
    ∃ t : Fin cfg3.N, (cfg3.win 4).flush t = true ∧ i ∈ ((cfg3.win 4).blk t).view.set := by
  have h0 : (i 0).val < 10000 := (i 0).isLt
  have h1 : (i 1).val < 128 := (i 1).isLt
  obtain ⟨t, ht⟩ : ∃ t : Fin cfg3.N, t.val = (i 0).val / 400 :=
    ⟨⟨(i 0).val / 400, by rw [show cfg3.N = 25 from N_3]; omega⟩, rfl⟩
  obtain ⟨-, -, -, -, -, -, -, -, e0, e1⟩ := idx3 t
  refine ⟨t, flush3_4 t, ?_⟩
  rw [mem_blk3_4]
  intro a
  match a with
  | ⟨0, _⟩ => show win3_4.index t 0 * 400 ≤ (i 0).val ∧ (i 0).val < win3_4.index t 0 * 400 + 400; rw [e0, ht]; omega
  | ⟨1, _⟩ => show win3_4.index t 1 * 128 ≤ (i 1).val ∧ (i 1).val < win3_4.index t 1 * 128 + 128; rw [e1]; omega

/-! ## The two results after the last point -/

/-- The first result ends holding `mu · muᵀ` of the mu the region found. -/
theorem final3_3 (c : Dev nD) :
    (dat3 V c).arrAt 3 cfg3.N = Cert.Spec.mmT1 (m := 10000) (n := 10000) (K := 16) (V c main_v7) (V c main_v7) :=
  (dat3 V c).arrAt_eq_of_cover 3 _ (fun t _ => flushed3_3_eq V c t) tiles3_3

/-- The second result ends holding `mu · mu_aᵀ` of the mu and mu_a the region found. -/
theorem final3_4 (c : Dev nD) :
    (dat3 V c).arrAt 4 cfg3.N = Cert.Spec.mmT1 (m := 10000) (n := 128) (K := 16) (V c main_v7) (V c main_v3_1) :=
  (dat3 V c).arrAt_eq_of_cover 4 _ (fun t _ => flushed3_4_eq V c t) tiles3_4

end Cert.KernelIdeal.Hand

end
-- ==== Proof.HostReads.lean ====
/-
  The host operations between the kernel regions, read at an index: a vector viewed as a one-row matrix, two
  16-column matrices set side by side, and a band of 16 columns cut out of a 32-column matrix, each identified
  with the specification's own stage.
-/
import proofs.«151409_g7215545057700_cont_sun_m_658_3_alg».proof.Proof.Spec
import Idealize.ShloMosaic.Lib.Pipeline.Value
import Idealize.ShloMosaic.Lib.ValueIdx
import Idealize.ShloMosaic.Lib.ValueLayout

noncomputable section

namespace Cert.HostReads

open Idealize.ShloMosaic Idealize.ShloMosaic.ValueIdx Cert.Spec

/-- A vector of n entries viewed as a [1, n] matrix has the vector's entry q at (0, q). -/
theorem row_of_cast {n : Nat} (a : A1 n) (h : (⟨1, ![n]⟩ : Shape).ShapeCasts ⟨2, ![1, n]⟩) :
    (fun i : (⟨1, ![n]⟩ : Shape).Idx => shapeCast (⟨2, ![1, n]⟩ : Shape) a h (ix2 (n0 := 1) (n1 := n) 0 (i 0))) = a := by
  funext i
  obtain ⟨q, rfl⟩ : ∃ q : Fin n, i = ix1 q := ⟨i 0, eq_ix1 i⟩
  refine (shapeCast_addUnit_apply ![n] a h (ix2 (n0 := 1) (n1 := n) 0 q)).trans ?_
  exact congrArg a (funext fun d => by match d with | ⟨0, _⟩ => rfl)

/-- Two [m, 16] matrices concatenated along the columns are the specification's pair. -/
theorem concat_eq {m : Nat} (a b : A2 m 16) (h : Shape.Concatenates [(⟨2, ![m, 16]⟩ : Shape), (⟨2, ![m, 16]⟩ : Shape)] (⟨2, ![m, 32]⟩ : Shape) 1) :
    concatenate (⟨2, ![m, 32]⟩ : Shape) 1 [⟨(⟨2, ![m, 16]⟩ : Shape), a⟩, ⟨(⟨2, ![m, 16]⟩ : Shape), b⟩] h = concat16 a b := by
  funext i
  obtain ⟨p, c, rfl⟩ : ∃ (p : Fin m) (c : Fin 32), i = ix2 p c := ⟨i 0, i 1, eq_ix2 i⟩
  by_cases hc : c.val < 16
  · rw [concat16_of_lt a b p c hc]
    refine concatenate_pair_apply_left (1 : Fin 2) a b h (ix2 p c) rfl (ix2 p ⟨c.val, hc⟩) fun d => ?_
    match d with
    | ⟨0, _⟩ => rfl
    | ⟨1, _⟩ => rfl
  · have hc' : 16 ≤ c.val := Nat.le_of_not_lt hc
    rw [concat16_of_ge a b p c hc']
    refine concatenate_pair_apply_right (1 : Fin 2) a b h (ix2 p c) rfl rfl (ix2 p ⟨c.val - 16, by omega⟩) (fun d hd => ?_) ?_
    · match d with
      | ⟨0, _⟩ => rfl
      | ⟨1, _⟩ => exact absurd rfl hd
    · show (c.val - 16) + 16 = c.val
      omega

/-- The band of 16 columns from column c0 of an [m, 32] matrix, cut out as a unit-stride slice, is the specification's band. -/
theorem slice_eq {m : Nat} (c0 : Nat) (hc : c0 + 16 ≤ 32) (x : A2 m 32)
    (h : (⟨2, ![m, 32]⟩ : Shape).Slices ![0, c0] (⟨2, ![m, 16]⟩ : Shape)) :
    extractStridedSlice (⟨2, ![m, 16]⟩ : Shape) ![0, c0] x h = cols c0 hc x := by
  funext i
  obtain ⟨p, j, rfl⟩ : ∃ (p : Fin m) (j : Fin 16), i = ix2 p j := ⟨i 0, i 1, eq_ix2 i⟩
  rw [cols_apply]
  refine extractStridedSlice_apply ![0, c0] x h (ix2 p j) (ix2 p ⟨c0 + j.val, by omega⟩) fun d => ?_
  match d with
  | ⟨0, _⟩ => exact (Nat.zero_add _).symm
  | ⟨1, _⟩ => rfl

end Cert.HostReads

end
-- ==== Proof.Values.lean ====
/-
  What the run leaves in the six result arrays, at the ideal values, as the specification's functions of the
  argument arrays. The contents between the items (Run) are followed from the launch to the end: a host stretch's
  result is its operation of the contents before it, a region's result array is what the region's value lemma says
  of the region's entry contents, and every other buffer is carried along unchanged. The one algebraic step is on
  the way from the second pass to the third: the first (last) 16 columns of adj · (h1 · [W2 | W3]) are adj · (h1 · W2)
  (adj · (h1 · W3)), the sums being equal term by term.
-/
import proofs.«151409_g7215545057700_cont_sun_m_658_3_alg».proof.Proof.Run
import proofs.«151409_g7215545057700_cont_sun_m_658_3_alg».proof.Proof.Final0
import proofs.«151409_g7215545057700_cont_sun_m_658_3_alg».proof.Proof.Final1
import proofs.«151409_g7215545057700_cont_sun_m_658_3_alg».proof.Proof.Final2
import proofs.«151409_g7215545057700_cont_sun_m_658_3_alg».proof.Proof.Final3
import proofs.«151409_g7215545057700_cont_sun_m_658_3_alg».proof.Proof.HostReads
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo Idealize.ShloMosaic.ValueIdx
open Idealize.SL.Sem
open Cert.Spec

variable (m : (ℓ : Loc nD τ sig) → Buf (Elt Ideal) ℓ) (ρ : Dev nD → PrngReg) (c : Dev nD)

/-! ## The arguments, as the specification's arrays -/

abbrev aX : A2 10000 128 := m ((c : Thread nD τ).loc main_arg0)
abbrev aAdj : A2 10000 10000 := m ((c : Thread nD τ).loc main_arg1)
abbrev aW1 : A2 128 32 := m ((c : Thread nD τ).loc main_arg2)
abbrev aW2 : A2 32 16 := m ((c : Thread nD τ).loc main_arg3)
abbrev aW3 : A2 32 16 := m ((c : Thread nD τ).loc main_arg4)
abbrev aWa1 : A2 10000 32 := m ((c : Thread nD τ).loc main_arg5)
abbrev aBa1 : A1 32 := m ((c : Thread nD τ).loc main_arg6)
abbrev aWa2 : A2 32 16 := m ((c : Thread nD τ).loc main_arg7)
abbrev aBa2 : A1 16 := m ((c : Thread nD τ).loc main_arg8)
abbrev aWa3 : A2 32 16 := m ((c : Thread nD τ).loc main_arg9)
abbrev aBa3 : A1 16 := m ((c : Thread nD τ).loc main_arg10)

/-! ## The host stretches' results -/

theorem W1_v0 : W1 m ρ c (Proc.devRef .tc main_v0) = shapeCast S1x32 (m ((c : Thread nD τ).loc main_arg6)) shapeCasts_S32_S1x32 := by
  show StableHlo.after hostOps0 (fun b => m (c, b)) (Proc.devRef .tc main_v0) = _
  after_results
  rfl
theorem W1_v1 : W1 m ρ c (Proc.devRef .tc main_v1) = shapeCast S1x16 (m ((c : Thread nD τ).loc main_arg8)) shapeCasts_S16_S1x16 := by
  show StableHlo.after hostOps0 (fun b => m (c, b)) (Proc.devRef .tc main_v1) = _
  after_results
  rfl
theorem W1_v2 : W1 m ρ c (Proc.devRef .tc main_v2) = shapeCast S1x16 (m ((c : Thread nD τ).loc main_arg10)) shapeCasts_S16_S1x16 := by
  show StableHlo.after hostOps0 (fun b => m (c, b)) (Proc.devRef .tc main_v2) = _
  after_results
  rfl
theorem W3_v4 : W3 m ρ c (Proc.devRef .tc main_v4)
    = concatenate S32x32 1 [⟨S32x16, W2 m ρ c (Proc.devRef .tc main_arg3)⟩, ⟨S32x16, W2 m ρ c (Proc.devRef .tc main_arg4)⟩] concatenates_S32x16_S32x16_S32x32_d1 := by
  show StableHlo.after hostOps1 (W2 m ρ c) (Proc.devRef .tc main_v4) = _
  after_results
theorem W6_v7 : W6 m ρ c (Proc.devRef .tc main_v7)
    = extractStridedSlice S10000x16 ![0, 0] (W5 m ρ c (Proc.devRef .tc main_v6)) slices_S10000x32_S10000x16_0_0 := by
  show StableHlo.after hostOps3 (W5 m ρ c) (Proc.devRef .tc main_v7) = _
  after_results
theorem W6_v8 : W6 m ρ c (Proc.devRef .tc main_v8)
    = extractStridedSlice S10000x16 ![0, 16] (W5 m ρ c (Proc.devRef .tc main_v6)) slices_S10000x32_S10000x16_0_16 := by
  show StableHlo.after hostOps3 (W5 m ρ c) (Proc.devRef .tc main_v8) = _
  after_results

/-! ## An argument is found unchanged at every region's entry -/

theorem V1_arg (b : Ref sig .tc) (h0 : b ∉ hostOps0_W) : V1 m ρ c b = m ((c : Thread nD τ).loc b) :=
  (W1_keep m ρ c b h0).trans rfl
theorem V3_arg (b : Ref sig .tc) (h0 : b ∉ hostOps0_W) (h1 : b ∉ ([main_v3_0, main_v3_1, main_v3_2] : List (Ref sig .tc))) (h2 : b ∉ hostOps1_W) :
    V3 m ρ c b = m ((c : Thread nD τ).loc b) :=
  (W3_keep m ρ c b h2).trans <| (W2_keep m ρ c b h1).trans <| V1_arg m ρ c b h0
theorem W2_arg (b : Ref sig .tc) (h0 : b ∉ hostOps0_W) (h1 : b ∉ ([main_v3_0, main_v3_1, main_v3_2] : List (Ref sig .tc))) :
    W2 m ρ c (Proc.devRef .tc b) = m ((c : Thread nD τ).loc b) :=
  (W2_keep m ρ c b h1).trans <| V1_arg m ρ c b h0
theorem V4_arg (b : Ref sig .tc) (h0 : b ∉ hostOps0_W) (h1 : b ∉ ([main_v3_0, main_v3_1, main_v3_2] : List (Ref sig .tc))) (h2 : b ∉ hostOps1_W)
    (h3 : b ∉ ([main_v5] : List (Ref sig .tc))) : V4 m ρ c b = m ((c : Thread nD τ).loc b) :=
  (W4_keep m ρ c b h3).trans <| V3_arg m ρ c b h0 h1 h2

/-! ## Region 0: x · W1, mu_a and logvar_a -/

theorem row_v0 : rowOf (V1 m ρ c main_v0 : A2 1 32) = aBa1 m c := by
  rw [show (V1 m ρ c main_v0 : A2 1 32) = shapeCast S1x32 (aBa1 m c) shapeCasts_S32_S1x32 from W1_v0 m ρ c]
  exact Cert.HostReads.row_of_cast (aBa1 m c) shapeCasts_S32_S1x32
theorem row_v1 : rowOf (V1 m ρ c main_v1 : A2 1 16) = aBa2 m c := by
  rw [show (V1 m ρ c main_v1 : A2 1 16) = shapeCast S1x16 (aBa2 m c) shapeCasts_S16_S1x16 from W1_v1 m ρ c]
  exact Cert.HostReads.row_of_cast (aBa2 m c) shapeCasts_S16_S1x16
theorem row_v2 : rowOf (V1 m ρ c main_v2 : A2 1 16) = aBa3 m c := by
  rw [show (V1 m ρ c main_v2 : A2 1 16) = shapeCast S1x16 (aBa3 m c) shapeCasts_S16_S1x16 from W1_v2 m ρ c]
  exact Cert.HostReads.row_of_cast (aBa3 m c) shapeCasts_S16_S1x16

theorem xw1_at : W2 m ρ c (Proc.devRef .tc main_v3_0) = xw1 (aX m c) (aW1 m c) := by
  refine (W2_arr m ρ c 8).trans ((final0_8 (V1 m ρ) c).trans ?_)
  rw [V1_arg m ρ c main_arg0 (by decide), V1_arg m ρ c main_arg2 (by decide)]
  rfl
theorem mua_at : W2 m ρ c (Proc.devRef .tc main_v3_1) = mua (aX m c) (aWa1 m c) (aBa1 m c) (aWa2 m c) (aBa2 m c) := by
  refine (W2_arr m ρ c 9).trans ((final0_9 (V1 m ρ) c).trans ?_)
  rw [row_v0, row_v1, V1_arg m ρ c main_arg0 (by decide), V1_arg m ρ c main_arg5 (by decide), V1_arg m ρ c main_arg7 (by decide)]
  rfl
theorem logvara_at : W2 m ρ c (Proc.devRef .tc main_v3_2) = logvara (aX m c) (aWa1 m c) (aBa1 m c) (aWa3 m c) (aBa3 m c) := by
  refine (W2_arr m ρ c 10).trans ((final0_10 (V1 m ρ) c).trans ?_)
  rw [row_v0, row_v2, V1_arg m ρ c main_arg0 (by decide), V1_arg m ρ c main_arg5 (by decide), V1_arg m ρ c main_arg9 (by decide)]
  rfl

/-! ## Region 1: relu (adj · xw1) · [W2 | W3] -/

theorem V3_v3_0 : V3 m ρ c main_v3_0 = xw1 (aX m c) (aW1 m c) :=
  (W3_keep m ρ c main_v3_0 (by decide)).trans (xw1_at m ρ c)
theorem V3_v4 : V3 m ρ c main_v4 = concat16 (aW2 m c) (aW3 m c) := by
  refine (W3_v4 m ρ c).trans ?_
  rw [W2_arg m ρ c main_arg3 (by decide) (by decide), W2_arg m ρ c main_arg4 (by decide) (by decide)]
  exact Cert.HostReads.concat_eq (aW2 m c) (aW3 m c) concatenates_S32x16_S32x16_S32x32_d1
/-- The [10000, 32] matrix the first pass leaves. -/
abbrev h23 : A2 10000 32 := mm (h1 (aX m c) (aAdj m c) (aW1 m c)) (concat16 (aW2 m c) (aW3 m c))
theorem h23_at : W4 m ρ c (Proc.devRef .tc main_v5) = h23 m c := by
  refine (W4_arr m ρ c 3).trans ((final1_3 (V3 m ρ) c).trans ?_)
  rw [V3_v3_0, V3_v4, V3_arg m ρ c main_arg1 (by decide) (by decide) (by decide)]
  rfl

/-! ## Region 2: adj · h23, and its two column bands -/

theorem mulv_at : W5 m ρ c (Proc.devRef .tc main_v6) = mm (aAdj m c) (h23 m c) := by
  refine (W5_arr m ρ c 2).trans ((final2_2 (V4 m ρ) c).trans ?_)
  rw [show V4 m ρ c main_v5 = h23 m c from h23_at m ρ c, V4_arg m ρ c main_arg1 (by decide) (by decide) (by decide) (by decide)]
theorem mu_at6 : W6 m ρ c (Proc.devRef .tc main_v7) = mu (aX m c) (aAdj m c) (aW1 m c) (aW2 m c) := by
  refine (W6_v7 m ρ c).trans ?_
  rw [mulv_at]
  refine (Cert.HostReads.slice_eq 0 (by decide) _ slices_S10000x32_S10000x16_0_0).trans ?_
  rw [cols_mm, cols_mm_concat16_lo]
  rfl
theorem logvar_at6 : W6 m ρ c (Proc.devRef .tc main_v8) = logvar (aX m c) (aAdj m c) (aW1 m c) (aW3 m c) := by
  refine (W6_v8 m ρ c).trans ?_
  rw [mulv_at]
  refine (Cert.HostReads.slice_eq 16 (by decide) _ slices_S10000x32_S10000x16_0_16).trans ?_
  rw [cols_mm, cols_mm_concat16_hi]
  rfl

/-! ## Region 3: mu · muᵀ and mu · mu_aᵀ -/

theorem V6_v3_1 : V6 m ρ c main_v3_1 = mua (aX m c) (aWa1 m c) (aBa1 m c) (aWa2 m c) (aBa2 m c) :=
  (W6_keep m ρ c main_v3_1 (by decide)).trans <| (W5_keep m ρ c main_v3_1 (by decide)).trans <| (W4_keep m ρ c main_v3_1 (by decide)).trans <|
    (W3_keep m ρ c main_v3_1 (by decide)).trans (mua_at m ρ c)
theorem adjp_at : W7 m ρ c (Proc.devRef .tc main_v9_0) = adjp (aX m c) (aAdj m c) (aW1 m c) (aW2 m c) := by
  refine (W7_v9_0 m ρ c).trans ((final3_3 (V6 m ρ) c).trans ?_)
  rw [show V6 m ρ c main_v7 = mu (aX m c) (aAdj m c) (aW1 m c) (aW2 m c) from mu_at6 m ρ c]
  rfl
theorem xp_at : W7 m ρ c (Proc.devRef .tc main_v9_1)
    = xp (aX m c) (aAdj m c) (aW1 m c) (aW2 m c) (aWa1 m c) (aBa1 m c) (aWa2 m c) (aBa2 m c) := by
  refine (W7_v9_1 m ρ c).trans ((final3_4 (V6 m ρ) c).trans ?_)
  rw [show V6 m ρ c main_v7 = mu (aX m c) (aAdj m c) (aW1 m c) (aW2 m c) from mu_at6 m ρ c, V6_v3_1]
  rfl

/-! ## The four results no later item writes -/

theorem mu_at : W7 m ρ c (Proc.devRef .tc main_v7) = mu (aX m c) (aAdj m c) (aW1 m c) (aW2 m c) :=
  (W7_of_ne m ρ c main_v7 (by decide)).trans (mu_at6 m ρ c)
theorem logvar_at : W7 m ρ c (Proc.devRef .tc main_v8) = logvar (aX m c) (aAdj m c) (aW1 m c) (aW3 m c) :=
  (W7_of_ne m ρ c main_v8 (by decide)).trans (logvar_at6 m ρ c)
theorem mua_at7 : W7 m ρ c (Proc.devRef .tc main_v3_1) = mua (aX m c) (aWa1 m c) (aBa1 m c) (aWa2 m c) (aBa2 m c) :=
  (W7_of_ne m ρ c main_v3_1 (by decide)).trans (V6_v3_1 m ρ c)
theorem logvara_at7 : W7 m ρ c (Proc.devRef .tc main_v3_2) = logvara (aX m c) (aWa1 m c) (aBa1 m c) (aWa3 m c) (aBa3 m c) :=
  (W7_of_ne m ρ c main_v3_2 (by decide)).trans <| (W6_keep m ρ c main_v3_2 (by decide)).trans <| (W5_keep m ρ c main_v3_2 (by decide)).trans <|
    (W4_keep m ρ c main_v3_2 (by decide)).trans <| (W3_keep m ρ c main_v3_2 (by decide)).trans (logvara_at m ρ c)

end Cert.KernelIdeal.Hand

end
-- ==== Proof.RefIsSpec.lean ====
/-
  THE REFERENCE IS THE SPECIFICATION. The reference program's run, read one operation at a time at the extended
  reals, is the specification of Spec.lean: each of its six results is, as a function of the argument arrays, the
  corresponding composition of products, the rectifier, the row-wise sum with a vector and the hyperbolic tangent.

  Every product of the reference contracts the second axis of its left operand with the first of its right one, so
  read at an index it is the plain sum `Σ k, l (p, k) * r (k, q)` (`eq_mm`); where the right (or left) operand is a
  transpose, reading the transpose at its index turns the sum into the one that contracts the same axis of both
  operands. A broadcast of a vector along rows, read at `(p, q)`, is the vector at `q`. The constant of the rectifier
  is the extended real `0`. No sum is re-associated and no product re-ordered: the equalities are term by term.
-/
import proofs.«151409_g7215545057700_cont_sun_m_658_3_alg».proof.Proof.Gen.ReferenceIdeal.Read
import proofs.«151409_g7215545057700_cont_sun_m_658_3_alg».proof.Proof.Spec

noncomputable section

open scoped BigOperators

open Idealize.ShloMosaic Idealize.ShloMosaic.TcCoe Idealize.SL.Sem

namespace Cert.ReferenceIdeal.RefValue

open Cert.ReferenceIdeal Idealize.ShloMosaic.ValueIdx

/-- Two rank-2 indices with the same coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

/-- An array that, at every index, is the sum over `k` of `l` at `(row, k)` times `r` at `(k, column)` is the plain
    product of `l` and `r`. -/
theorem eq_mm {m K n : Nat} {f : Spec.A2 m n} {l : Spec.A2 m K} {r : Spec.A2 K n}
    {lidx : (⟨2, ![m, n]⟩ : Shape).Idx → Fin K → (⟨2, ![m, K]⟩ : Shape).Idx}
    {ridx : (⟨2, ![m, n]⟩ : Shape).Idx → Fin K → (⟨2, ![K, n]⟩ : Shape).Idx}
    (hf : ∀ i, f i = ∑ k : Fin K, l (lidx i k) * r (ridx i k))
    (hl : ∀ (p : Fin m) (q : Fin n) (k : Fin K), lidx (ix2 p q) k = ix2 p k)
    (hr : ∀ (p : Fin m) (q : Fin n) (k : Fin K), ridx (ix2 p q) k = ix2 k q) : f = Spec.mm l r := by
  funext i
  obtain ⟨p, q, rfl⟩ : ∃ (p : Fin m) (q : Fin n), i = ix2 p q := ⟨i 0, i 1, eq_ix2 i⟩
  rw [hf, Spec.mm_apply]
  exact Finset.sum_congr rfl fun k _ => by rw [hl, hr]

section
variable (x0 : Spec.A2 10000 128) (x1 : Spec.A2 10000 10000) (x2 : Spec.A2 128 32) (x3 x4 : Spec.A2 32 16)
  (x5 : Spec.A2 10000 32) (x6 : Spec.A1 32) (x7 : Spec.A2 32 16) (x8 : Spec.A1 16) (x9 : Spec.A2 32 16) (x10 : Spec.A1 16)

/-! ## The graph side: `mu` and `logvar` -/

/-- `%0 = x · W1`. -/
theorem r_v0 : Read.val_main_v0 (F := Ideal) x0 x2 = Spec.xw1 x0 x2 :=
  eq_mm (l := x0) (r := x2) (lidx := Read.lidx_main_v0) (ridx := Read.ridx_main_v0)
    (Read.val_main_v0_apply x0 x2) (fun p q k => by idx2) (fun p q k => by idx2)

/-- `%1 = adj · (x · W1)`. -/
theorem r_v1 : Read.val_main_v1 (F := Ideal) x0 x1 x2 = Spec.mm x1 (Spec.xw1 x0 x2) :=
  eq_mm (l := x1) (r := Spec.xw1 x0 x2) (lidx := Read.lidx_main_v1) (ridx := Read.ridx_main_v1)
    (fun i => by rw [Read.val_main_v1_apply, r_v0]) (fun p q k => by idx2) (fun p q k => by idx2)

/-- `%2 = max %1 0`: the rectifier's constant is the extended real `0`. -/
theorem r_v2 : Read.val_main_v2 (F := Ideal) x0 x1 x2 = Spec.h1 x0 x1 x2 := by
  funext i
  rw [Read.val_main_v2_apply, r_v1, Read.val_main_call0_v0_apply, Read.val_main_call0_cst_apply]
  simp only [Ideal.maximumf_def, Ideal.ofBits_def, Ideal.ofBits_zero_f32]
  rfl

/-- `%3 = h1 · W2`. -/
theorem r_v3 : Read.val_main_v3 (F := Ideal) x0 x1 x2 x3 = Spec.mm (Spec.h1 x0 x1 x2) x3 :=
  eq_mm (l := Spec.h1 x0 x1 x2) (r := x3) (lidx := Read.lidx_main_v3) (ridx := Read.ridx_main_v3)
    (fun i => by rw [Read.val_main_v3_apply, r_v2]) (fun p q k => by idx2) (fun p q k => by idx2)

/-- The reference's `mu` (`%4 = adj · (h1 · W2)`) is the specification's. -/
theorem ref_mu : Read.val_main_v4 (F := Ideal) x0 x1 x2 x3 = Cert.Spec.mu x0 x1 x2 x3 :=
  eq_mm (l := x1) (r := Spec.mm (Spec.h1 x0 x1 x2) x3) (lidx := Read.lidx_main_v4) (ridx := Read.ridx_main_v4)
    (fun i => by rw [Read.val_main_v4_apply, r_v3]) (fun p q k => by idx2) (fun p q k => by idx2)

/-- `%5 = h1 · W3`. -/
theorem r_v5 : Read.val_main_v5 (F := Ideal) x0 x1 x2 x4 = Spec.mm (Spec.h1 x0 x1 x2) x4 :=
  eq_mm (l := Spec.h1 x0 x1 x2) (r := x4) (lidx := Read.lidx_main_v5) (ridx := Read.ridx_main_v5)
    (fun i => by rw [Read.val_main_v5_apply, r_v2]) (fun p q k => by idx2) (fun p q k => by idx2)

/-- The reference's `logvar` (`%6 = adj · (h1 · W3)`) is the specification's. -/
theorem ref_logvar : Read.val_main_v6 (F := Ideal) x0 x1 x2 x4 = Cert.Spec.logvar x0 x1 x2 x4 :=
  eq_mm (l := x1) (r := Spec.mm (Spec.h1 x0 x1 x2) x4) (lidx := Read.lidx_main_v6) (ridx := Read.ridx_main_v6)
    (fun i => by rw [Read.val_main_v6_apply, r_v5]) (fun p q k => by idx2) (fun p q k => by idx2)

/-! ## The attribute side: `mu_a` and `logvar_a` -/

/-- `%8 = xᵀ · Wa1`: the transpose read at its index makes the sum contract the first axis of both arrays. -/
theorem r_v8 : Read.val_main_v8 (F := Ideal) x0 x5 = Spec.mmT0 x0 x5 := by
  funext i
  obtain ⟨p, q, rfl⟩ : ∃ (p : Fin 128) (q : Fin 32), i = ix2 p q := ⟨i 0, i 1, eq_ix2 i⟩
  rw [Read.val_main_v8_apply, Spec.mmT0_apply]
  refine Finset.sum_congr rfl fun k _ => ?_
  rw [Read.val_main_v7_apply,
    show Read.idx_main_v7 (Read.lidx_main_v8 (ix2 p q) k) = ix2 k p from by idx2,
    show Read.ridx_main_v8 (ix2 p q) k = ix2 k q from by idx2]

/-- `%10`, the vector `ba1` along rows, at `(p, q)` is `ba1 q`. -/
theorem r_v10 (p : Fin 128) (q : Fin 32) : Read.val_main_v10 (F := Ideal) x6 (ix2 p q) = x6 (ix1 q) := by
  rw [Read.val_main_v10_apply, Read.val_main_v9_apply]
  exact congrArg x6 (by idx1)

/-- `%12 = tanh (xᵀ · Wa1 + ba1)`. -/
theorem r_v12 : Read.val_main_v12 (F := Ideal) x0 x5 x6 = Spec.ha x0 x5 x6 := by
  funext i
  obtain ⟨p, q, rfl⟩ : ∃ (p : Fin 128) (q : Fin 32), i = ix2 p q := ⟨i 0, i 1, eq_ix2 i⟩
  rw [Read.val_main_v12_apply, Read.val_main_v11_apply, r_v8, r_v10]
  simp only [Ideal.hostUnary_tanh_def, Ideal.addf_def]
  rfl

/-- `%13 = ha · Wa2`. -/
theorem r_v13 : Read.val_main_v13 (F := Ideal) x0 x5 x6 x7 = Spec.mm (Spec.ha x0 x5 x6) x7 :=
  eq_mm (l := Spec.ha x0 x5 x6) (r := x7) (lidx := Read.lidx_main_v13) (ridx := Read.ridx_main_v13)
    (fun i => by rw [Read.val_main_v13_apply, r_v12]) (fun p q k => by idx2) (fun p q k => by idx2)

/-- `%15`, the vector `ba2` along rows, at `(p, q)` is `ba2 q`. -/
theorem r_v15 (p : Fin 128) (q : Fin 16) : Read.val_main_v15 (F := Ideal) x8 (ix2 p q) = x8 (ix1 q) := by
  rw [Read.val_main_v15_apply, Read.val_main_v14_apply]
  exact congrArg x8 (by idx1)

/-- The reference's `mu_a` (`%16 = ha · Wa2 + ba2`) is the specification's. -/
theorem ref_mua : Read.val_main_v16 (F := Ideal) x0 x5 x6 x7 x8 = Cert.Spec.mua x0 x5 x6 x7 x8 := by
  funext i
  obtain ⟨p, q, rfl⟩ : ∃ (p : Fin 128) (q : Fin 16), i = ix2 p q := ⟨i 0, i 1, eq_ix2 i⟩
  rw [Read.val_main_v16_apply, r_v13, r_v15]
  simp only [Ideal.addf_def]
  rfl

/-- `%17 = ha · Wa3`. -/
theorem r_v17 : Read.val_main_v17 (F := Ideal) x0 x5 x6 x9 = Spec.mm (Spec.ha x0 x5 x6) x9 :=
  eq_mm (l := Spec.ha x0 x5 x6) (r := x9) (lidx := Read.lidx_main_v17) (ridx := Read.ridx_main_v17)
    (fun i => by rw [Read.val_main_v17_apply, r_v12]) (fun p q k => by idx2) (fun p q k => by idx2)

/-- `%19`, the vector `ba3` along rows, at `(p, q)` is `ba3 q`. -/
theorem r_v19 (p : Fin 128) (q : Fin 16) : Read.val_main_v19 (F := Ideal) x10 (ix2 p q) = x10 (ix1 q) := by
  rw [Read.val_main_v19_apply, Read.val_main_v18_apply]
  exact congrArg x10 (by idx1)

/-- The reference's `logvar_a` (`%20 = ha · Wa3 + ba3`) is the specification's. -/
theorem ref_logvara : Read.val_main_v20 (F := Ideal) x0 x5 x6 x9 x10 = Cert.Spec.logvara x0 x5 x6 x9 x10 := by
  funext i
  obtain ⟨p, q, rfl⟩ : ∃ (p : Fin 128) (q : Fin 16), i = ix2 p q := ⟨i 0, i 1, eq_ix2 i⟩
  rw [Read.val_main_v20_apply, r_v17, r_v19]
  simp only [Ideal.addf_def]
  rfl

/-! ## The two reconstructions -/

/-- The reference's `adj_pred` (`%22 = mu · muᵀ`) is the specification's: the transpose read at its index makes the
    sum contract the second axis of both arrays. -/
theorem ref_adjp : Read.val_main_v22 (F := Ideal) x0 x1 x2 x3 = Cert.Spec.adjp x0 x1 x2 x3 := by
  funext i
  obtain ⟨p, q, rfl⟩ : ∃ (p : Fin 10000) (q : Fin 10000), i = ix2 p q := ⟨i 0, i 1, eq_ix2 i⟩
  rw [Read.val_main_v22_apply]
  show _ = Spec.mmT1 (Spec.mu x0 x1 x2 x3) (Spec.mu x0 x1 x2 x3) (ix2 p q)
  rw [Spec.mmT1_apply]
  refine Finset.sum_congr rfl fun k _ => ?_
  rw [Read.val_main_v21_apply, ref_mu,
    show Read.lidx_main_v22 (ix2 p q) k = ix2 p k from by idx2,
    show Read.idx_main_v21 (Read.ridx_main_v22 (ix2 p q) k) = ix2 q k from by idx2]

/-- The reference's `x_pred` (`%24 = mu · mu_aᵀ`) is the specification's. -/
theorem ref_xp : Read.val_main_v24 (F := Ideal) x0 x1 x2 x3 x5 x6 x7 x8 = Cert.Spec.xp x0 x1 x2 x3 x5 x6 x7 x8 := by
  funext i
  obtain ⟨p, q, rfl⟩ : ∃ (p : Fin 10000) (q : Fin 128), i = ix2 p q := ⟨i 0, i 1, eq_ix2 i⟩
  rw [Read.val_main_v24_apply]
  show _ = Spec.mmT1 (Spec.mu x0 x1 x2 x3) (Spec.mua x0 x5 x6 x7 x8) (ix2 p q)
  rw [Spec.mmT1_apply]
  refine Finset.sum_congr rfl fun k _ => ?_
  rw [Read.val_main_v23_apply, ref_mu, ref_mua,
    show Read.lidx_main_v24 (ix2 p q) k = ix2 p k from by idx2,
    show Read.idx_main_v23 (Read.ridx_main_v24 (ix2 p q) k) = ix2 q k from by idx2]

end

end Cert.ReferenceIdeal.RefValue

end
-- ==== Proof.lean ====
/-
  The certificate. Both kernel programs run four kernel regions among three stretches of host operations; their
  frames come from the run of @main as a list of segments, each region entered with its windows' arrays split
  out of the core's unscoped buffers (the last region reads one array through two windows, which share its
  ownership). The idealization rewrote nothing, so it is the program's own text read at the ideal values. At
  those values the kernel computes, region by region,
      xw1 = x · W1,   mu_a = tanh (xᵀ · Wa1 + ba1) · Wa2 + ba2,   logvar_a likewise with Wa3, ba3,
      h23 = max (adj · xw1) 0 · [W2 | W3],   [mu | logvar] = adj · h23,
      adj_pred = mu · muᵀ,   x_pred = mu · mu_aᵀ,
  and the reference the same products with mu = adj · (h1 · W2) and logvar = adj · (h1 · W3): the two agree because
  a band of columns of a product is the product with that band of columns, term by term. No sum is re-associated
  and nothing is cancelled, so the equality holds on all extended reals and finiteness of the inputs is not used.
-/
import proofs.«151409_g7215545057700_cont_sun_m_658_3_alg».proof.Defs
import proofs.«151409_g7215545057700_cont_sun_m_658_3_alg».proof.Proof.Gen.Kernel
import proofs.«151409_g7215545057700_cont_sun_m_658_3_alg».proof.Proof.Gen.KernelIdeal
import proofs.«151409_g7215545057700_cont_sun_m_658_3_alg».proof.Proof.Gen.ReferenceIdeal
import proofs.«151409_g7215545057700_cont_sun_m_658_3_alg».proof.Proof.Gen.ReferenceIdeal.Run
import proofs.«151409_g7215545057700_cont_sun_m_658_3_alg».proof.Proof.Gen.ReferenceIdeal.Read
import proofs.«151409_g7215545057700_cont_sun_m_658_3_alg».proof.Proof.Gen.Pre_finite_inputs
import proofs.«151409_g7215545057700_cont_sun_m_658_3_alg».proof.Proof.KRun
import proofs.«151409_g7215545057700_cont_sun_m_658_3_alg».proof.Proof.Run
import proofs.«151409_g7215545057700_cont_sun_m_658_3_alg».proof.Proof.Values
import proofs.«151409_g7215545057700_cont_sun_m_658_3_alg».proof.Proof.RefIsSpec
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run, with the results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- The idealization rewrote no operation. -/
theorem preserves : Cert.preserves_Kernel_KernelIdeal := trivial

section Algebraic

open Cert.KernelIdeal Cert.KernelIdeal.Hand Cert.Spec

/-- The idealized kernel's run with every result named: the six result arrays hold the specification's functions of
    the arguments, and the arguments are as launched. -/
theorem kernel_values (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc main_v9_0) = adjp (aX m c) (aAdj m c) (aW1 m c) (aW2 m c)
      ∧ r.2.mem ((c.tc : Thread Cert.KernelIdeal.nD Cert.KernelIdeal.τ).loc main_v9_1) = xp (aX m c) (aAdj m c) (aW1 m c) (aW2 m c) (aWa1 m c) (aBa1 m c) (aWa2 m c) (aBa2 m c)
      ∧ r.2.mem ((c.tc : Thread Cert.KernelIdeal.nD Cert.KernelIdeal.τ).loc main_v7) = mu (aX m c) (aAdj m c) (aW1 m c) (aW2 m c)
      ∧ r.2.mem ((c.tc : Thread Cert.KernelIdeal.nD Cert.KernelIdeal.τ).loc main_v8) = logvar (aX m c) (aAdj m c) (aW1 m c) (aW3 m c)
      ∧ r.2.mem ((c.tc : Thread Cert.KernelIdeal.nD Cert.KernelIdeal.τ).loc main_v3_1) = mua (aX m c) (aWa1 m c) (aBa1 m c) (aWa2 m c) (aBa2 m c)
      ∧ r.2.mem ((c.tc : Thread Cert.KernelIdeal.nD Cert.KernelIdeal.τ).loc main_v3_2) = logvara (aX m c) (aWa1 m c) (aBa1 m c) (aWa3 m c) (aBa3 m c)
      ∧ r.2.mem ((c.tc : Thread Cert.KernelIdeal.nD Cert.KernelIdeal.τ).loc main_arg0) = m ((c.tc : Thread Cert.KernelIdeal.nD Cert.KernelIdeal.τ).loc main_arg0)
      ∧ r.2.mem ((c.tc : Thread Cert.KernelIdeal.nD Cert.KernelIdeal.τ).loc main_arg1) = m ((c.tc : Thread Cert.KernelIdeal.nD Cert.KernelIdeal.τ).loc main_arg1)
      ∧ r.2.mem ((c.tc : Thread Cert.KernelIdeal.nD Cert.KernelIdeal.τ).loc main_arg2) = m ((c.tc : Thread Cert.KernelIdeal.nD Cert.KernelIdeal.τ).loc main_arg2)
      ∧ r.2.mem ((c.tc : Thread Cert.KernelIdeal.nD Cert.KernelIdeal.τ).loc main_arg3) = m ((c.tc : Thread Cert.KernelIdeal.nD Cert.KernelIdeal.τ).loc main_arg3)
      ∧ r.2.mem ((c.tc : Thread Cert.KernelIdeal.nD Cert.KernelIdeal.τ).loc main_arg4) = m ((c.tc : Thread Cert.KernelIdeal.nD Cert.KernelIdeal.τ).loc main_arg4)
      ∧ r.2.mem ((c.tc : Thread Cert.KernelIdeal.nD Cert.KernelIdeal.τ).loc main_arg5) = m ((c.tc : Thread Cert.KernelIdeal.nD Cert.KernelIdeal.τ).loc main_arg5)
      ∧ r.2.mem ((c.tc : Thread Cert.KernelIdeal.nD Cert.KernelIdeal.τ).loc main_arg6) = m ((c.tc : Thread Cert.KernelIdeal.nD Cert.KernelIdeal.τ).loc main_arg6)
      ∧ r.2.mem ((c.tc : Thread Cert.KernelIdeal.nD Cert.KernelIdeal.τ).loc main_arg7) = m ((c.tc : Thread Cert.KernelIdeal.nD Cert.KernelIdeal.τ).loc main_arg7)
      ∧ r.2.mem ((c.tc : Thread Cert.KernelIdeal.nD Cert.KernelIdeal.τ).loc main_arg8) = m ((c.tc : Thread Cert.KernelIdeal.nD Cert.KernelIdeal.τ).loc main_arg8)
      ∧ r.2.mem ((c.tc : Thread Cert.KernelIdeal.nD Cert.KernelIdeal.τ).loc main_arg9) = m ((c.tc : Thread Cert.KernelIdeal.nD Cert.KernelIdeal.τ).loc main_arg9)
      ∧ r.2.mem ((c.tc : Thread Cert.KernelIdeal.nD Cert.KernelIdeal.τ).loc main_arg10) = m ((c.tc : Thread Cert.KernelIdeal.nD Cert.KernelIdeal.τ).loc main_arg10)) :=
  (θ_run Cert.KernelIdeal.defs _ _).mono (fun r h c =>
    ⟨(run_at m ρ h c main_v9_0 (by decide)).trans (adjp_at m ρ c),
     (run_at m ρ h c main_v9_1 (by decide)).trans (xp_at m ρ c),
     (run_at m ρ h c main_v7 (by decide)).trans (mu_at m ρ c),
     (run_at m ρ h c main_v8 (by decide)).trans (logvar_at m ρ c),
     (run_at m ρ h c main_v3_1 (by decide)).trans (mua_at7 m ρ c),
     (run_at m ρ h c main_v3_2 (by decide)).trans (logvara_at7 m ρ c),
     (run_at m ρ h c main_arg0 (by decide)).trans (W7_keep m ρ c main_arg0 (by decide) (by decide) (by decide) (by decide) (by decide) (by decide) (by decide)),
     (run_at m ρ h c main_arg1 (by decide)).trans (W7_keep m ρ c main_arg1 (by decide) (by decide) (by decide) (by decide) (by decide) (by decide) (by decide)),
     (run_at m ρ h c main_arg2 (by decide)).trans (W7_keep m ρ c main_arg2 (by decide) (by decide) (by decide) (by decide) (by decide) (by decide) (by decide)),
     (run_at m ρ h c main_arg3 (by decide)).trans (W7_keep m ρ c main_arg3 (by decide) (by decide) (by decide) (by decide) (by decide) (by decide) (by decide)),
     (run_at m ρ h c main_arg4 (by decide)).trans (W7_keep m ρ c main_arg4 (by decide) (by decide) (by decide) (by decide) (by decide) (by decide) (by decide)),
     (run_at m ρ h c main_arg5 (by decide)).trans (W7_keep m ρ c main_arg5 (by decide) (by decide) (by decide) (by decide) (by decide) (by decide) (by decide)),
     (run_at m ρ h c main_arg6 (by decide)).trans (W7_keep m ρ c main_arg6 (by decide) (by decide) (by decide) (by decide) (by decide) (by decide) (by decide)),
     (run_at m ρ h c main_arg7 (by decide)).trans (W7_keep m ρ c main_arg7 (by decide) (by decide) (by decide) (by decide) (by decide) (by decide) (by decide)),
     (run_at m ρ h c main_arg8 (by decide)).trans (W7_keep m ρ c main_arg8 (by decide) (by decide) (by decide) (by decide) (by decide) (by decide) (by decide)),
     (run_at m ρ h c main_arg9 (by decide)).trans (W7_keep m ρ c main_arg9 (by decide) (by decide) (by decide) (by decide) (by decide) (by decide) (by decide)),
     (run_at m ρ h c main_arg10 (by decide)).trans (W7_keep m ρ c main_arg10 (by decide) (by decide) (by decide) (by decide) (by decide) (by decide) (by decide))⟩)
    (run_all m ρ)

/-- At the ideal values the kernel's six results and the reference's are the same functions of arguments that agree. -/
theorem algebraic : Cert.algebraic_KernelIdeal_ReferenceIdeal := by
  intro m ρ m' ρ' _ hagree
  refine ⟨_, _, _, _, _, _, kernel_values m ρ, ?_⟩
  refine (θ_run Cert.ReferenceIdeal.defs _ _).mono (fun r h c => ?_) (Cert.ReferenceIdeal.Value.run (F := Ideal) m' ρ')
  obtain ⟨h22, h24, h4, h6, h16, h20, hargs⟩ := h c
  obtain ⟨e0, e1, e2, e3, e4, e5, e6, e7, e8, e9, e10⟩ := hagree c
  refine ⟨h22.trans ?_, h24.trans ?_, h4.trans ?_, h6.trans ?_, h16.trans ?_, h20.trans ?_, hargs⟩
  · exact ((Cert.ReferenceIdeal.Read.val_main_v22_eq (F := Ideal) _ _ _ _).trans (Cert.ReferenceIdeal.RefValue.ref_adjp _ _ _ _)).trans
      (by rw [e0, e1, e2, e3])
  · exact ((Cert.ReferenceIdeal.Read.val_main_v24_eq (F := Ideal) _ _ _ _ _ _ _ _).trans (Cert.ReferenceIdeal.RefValue.ref_xp _ _ _ _ _ _ _ _)).trans
      (by rw [e0, e1, e2, e3, e5, e6, e7, e8])
  · exact ((Cert.ReferenceIdeal.Read.val_main_v4_eq (F := Ideal) _ _ _ _).trans (Cert.ReferenceIdeal.RefValue.ref_mu _ _ _ _)).trans
      (by rw [e0, e1, e2, e3])
  · exact ((Cert.ReferenceIdeal.Read.val_main_v6_eq (F := Ideal) _ _ _ _).trans (Cert.ReferenceIdeal.RefValue.ref_logvar _ _ _ _)).trans
      (by rw [e0, e1, e2, e4])
  · exact ((Cert.ReferenceIdeal.Read.val_main_v16_eq (F := Ideal) _ _ _ _ _).trans (Cert.ReferenceIdeal.RefValue.ref_mua _ _ _ _ _)).trans
      (by rw [e0, e5, e6, e7, e8])
  · exact ((Cert.ReferenceIdeal.Read.val_main_v20_eq (F := Ideal) _ _ _ _ _).trans (Cert.ReferenceIdeal.RefValue.ref_logvara _ _ _ _ _)).trans
      (by rw [e0, e5, e6, e9, e10])

end Algebraic

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
